-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S1536x2304 : Shape := ⟨2, ![1536, 2304]⟩
abbrev S2304 : Shape := ⟨1, ![2304]⟩
abbrev S2304x96 : Shape := ⟨2, ![2304, 96]⟩
abbrev S96 : Shape := ⟨1, ![96]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S1536x2304 : S_.BroadcastsInDim S1536x2304 (![] : Fin 0 → Fin S1536x2304.rank)
  reducesTo_S1536x2304_S_d0_1 : S1536x2304.ReducesTo [0, 1] S_
  bcast_S_S2304 : S_.BroadcastsInDim S2304 (![] : Fin 0 → Fin S2304.rank)
  reducesTo_S2304_S_d0 : S2304.ReducesTo [0] S_
  bcast_S_S2304x96 : S_.BroadcastsInDim S2304x96 (![] : Fin 0 → Fin S2304x96.rank)
  reducesTo_S2304x96_S_d0_1 : S2304x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S2304x96 1) : IVec S_ 1 :=
  let main_c_5 : IVec S_ 1 := constantI S_ 1 1#1
  let main_v17 : IVec S_ 1 := (fun x v => Host.reduce IntOp.andi x v reducesTo_S2304x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S4x128x768 .f32) (main_arg1 : FVec F S1536x2304 .f32) (main_arg2 : FVec F S2304 .f32) (main_arg3 : FVec F S2304x96 .f32) (main_arg4 : FVec F S96 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S1536x2304 .f32 := Host.absf main_arg1
  let main_cst_0 : FVec F S_ .f32 := constant S_ .f32 0x7F800000#32
  let main_v5 : FVec F S1536x2304 .f32 := broadcastInDim S1536x2304 ![] bcast_S_S1536x2304 main_cst_0
  let main_v6 : IVec S1536x2304 1 := cmpf .olt main_v4 main_v5
  let main_c_1 : IVec S_ 1 := constantI S_ 1 1#1
  let main_v7 : IVec S_ 1 := (fun x v => Host.reduce IntOp.andi x v reducesTo_S1536x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S2304x96 .f32 := Host.absf main_arg3
  let main_cst_4 : FVec F S_ .f32 := constant S_ .f32 0x7F800000#32
  let main_v15 : FVec F S2304x96 .f32 := broadcastInDim S2304x96 ![] bcast_S_S2304x96 main_cst_4
  let main_v16 : IVec S2304x96 1 := cmpf .olt main_v14 main_v15
  fn_part1 (F := F) main_arg4 main_v13 main_v16
-- ==== Kernel.lean ====
abbrev S4x128x768 : Shape := ⟨3, ![4, 128, 768]⟩
abbrev S1536x2304 : Shape := ⟨2, ![1536, 2304]⟩
abbrev S2304 : Shape := ⟨1, ![2304]⟩
abbrev S2304x96 : Shape := ⟨2, ![2304, 96]⟩
abbrev S96 : Shape := ⟨1, ![96]⟩
abbrev S768x2304 : Shape := ⟨2, ![768, 2304]⟩
abbrev S_ : Shape := ⟨0, ![]⟩
abbrev S2304x128 : Shape := ⟨2, ![2304, 128]⟩
abbrev S1 : Shape := ⟨1, ![1]⟩
abbrev S4x128x128x96 : Shape := ⟨4, ![4, 128, 128, 96]⟩
abbrev S1x16x768 : Shape := ⟨3, ![1, 16, 768]⟩
abbrev S1x128x768 : Shape := ⟨3, ![1, 128, 768]⟩
abbrev S1x16x128x96 : Shape := ⟨4, ![1, 16, 128, 96]⟩
abbrev S16x768 : Shape := ⟨2, ![16, 768]⟩
abbrev S128x768 : Shape := ⟨2, ![128, 768]⟩
abbrev S16x2304 : Shape := ⟨2, ![16, 2304]⟩
abbrev S128x2304 : Shape := ⟨2, ![128, 2304]⟩
abbrev S1x2304 : Shape := ⟨2, ![1, 2304]⟩
abbrev S16x1x2304 : Shape := ⟨3, ![16, 1, 2304]⟩
abbrev S1x128x2304 : Shape := ⟨3, ![1, 128, 2304]⟩
abbrev S16x128x2304 : Shape := ⟨3, ![16, 128, 2304]⟩
abbrev S2048x2304 : Shape := ⟨2, ![2048, 2304]⟩
abbrev S2048x128 : Shape := ⟨2, ![2048, 128]⟩
abbrev S16x128x128 : Shape := ⟨3, ![16, 128, 128]⟩
abbrev S16x128x96 : Shape := ⟨3, ![16, 128, 96]⟩
abbrev S1x1x96 : Shape := ⟨3, ![1, 1, 96]⟩
abbrev S4x128x128x24x4 : Shape := ⟨5, ![4, 128, 128, 24, 4]⟩

abbrev nBuf : Space → Nat
  | .hbm => 27
  | .vmem => 17
  | .smem => 0
  | _ => 0

abbrev bufTy : (tb : Table) → Fin (tcTables nBuf tb) → BufTy
  | .hbm, ⟨0, _⟩ => ⟨S4x128x768, .f32⟩
  | .hbm, ⟨1, _⟩ => ⟨S1536x2304, .f32⟩
  | .hbm, ⟨2, _⟩ => ⟨S2304, .f32⟩
  | .hbm, ⟨3, _⟩ => ⟨S2304x96, .f32⟩
  | .hbm, ⟨4, _⟩ => ⟨S96, .f32⟩
  | .hbm, ⟨5, _⟩ => ⟨S4x128x768, .bf16⟩
  | .hbm, ⟨6, _⟩ => ⟨S4x128x768, .f32⟩
  | .hbm, ⟨7, _⟩ => ⟨S4x128x768, .f32⟩
  | .hbm, ⟨8, _⟩ => ⟨S4x128x768, .bf16⟩
  | .hbm, ⟨9, _⟩ => ⟨S768x2304, .f32⟩
  | .hbm, ⟨10, _⟩ => ⟨S768x2304, .bf16⟩
  | .hbm, ⟨11, _⟩ => ⟨S768x2304, .f32⟩
  | .hbm, ⟨12, _⟩ => ⟨S768x2304, .f32⟩
  | .hbm, ⟨13, _⟩ => ⟨S768x2304, .bf16⟩
  | .hbm, ⟨14, _⟩ => ⟨S768x2304, .f32⟩
  | .hbm, ⟨15, _⟩ => ⟨S768x2304, .bf16⟩
  | .hbm, ⟨16, _⟩ => ⟨S768x2304, .f32⟩
  | .hbm, ⟨17, _⟩ => ⟨S768x2304, .f32⟩
  | .hbm, ⟨18, _⟩ => ⟨S768x2304, .bf16⟩
  | .hbm, ⟨19, _⟩ => ⟨S2304x96, .bf16⟩
  | .hbm, ⟨20, _⟩ => ⟨S_, .bf16⟩
  | .hbm, ⟨21, _⟩ => ⟨S2304x128, .bf16⟩
  | .hbm, ⟨22, _⟩ => ⟨S_, .i32⟩
  | .hbm, ⟨23, _⟩ => ⟨S1, .i32⟩
  | .hbm, ⟨24, _⟩ => ⟨S2304x128, .bf16⟩
  | .hbm, ⟨25, _⟩ => ⟨S4x128x128x96, .f32⟩
  | .hbm, ⟨26, _⟩ => ⟨S4x128x128x24x4, .f32⟩
  | .local _ .vmem, ⟨0, _⟩ => ⟨S1x16x768, .bf16⟩
  | .local _ .vmem, ⟨1, _⟩ => ⟨S1x16x768, .bf16⟩
  | .local _ .vmem, ⟨2, _⟩ => ⟨S1x16x768, .bf16⟩
  | .local _ .vmem, ⟨3, _⟩ => ⟨S1x16x768, .bf16⟩
  | .local _ .vmem, ⟨4, _⟩ => ⟨S1x128x768, .bf16⟩
  | .local _ .vmem, ⟨5, _⟩ => ⟨S1x128x768, .bf16⟩
  | .local _ .vmem, ⟨6, _⟩ => ⟨S1x128x768, .bf16⟩
  | .local _ .vmem, ⟨7, _⟩ => ⟨S1x128x768, .bf16⟩
  | .local _ .vmem, ⟨8, _⟩ => ⟨S768x2304, .bf16⟩
  | .local _ .vmem, ⟨9, _⟩ => ⟨S768x2304, .bf16⟩
  | .local _ .vmem, ⟨10, _⟩ => ⟨S768x2304, .bf16⟩
  | .local _ .vmem, ⟨11, _⟩ => ⟨S768x2304, .bf16⟩
  | .local _ .vmem, ⟨12, _⟩ => ⟨S2304, .f32⟩
  | .local _ .vmem, ⟨13, _⟩ => ⟨S2304x128, .bf16⟩
  | .local _ .vmem, ⟨14, _⟩ => ⟨S96, .f32⟩
  | .local _ .vmem, ⟨15, _⟩ => ⟨S1x16x128x96, .f32⟩
  | .local _ .vmem, ⟨16, _⟩ => ⟨S1x16x128x96, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S768x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2304x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x16x128x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bitsLt_bf16_f32 : FTy.bits .bf16 < FTy.bits .f32
  slices_S1536x2304_S768x2304_0_0 : S1536x2304.Slices ![0, 0] S768x2304
  slices_S1536x2304_S768x2304_768_0 : S1536x2304.Slices ![768, 0] S768x2304
  bcast_S_S2304x128 : S_.BroadcastsInDim S2304x128 (![] : Fin 0 → Fin S2304x128.rank)
  bcast_S_S1 : S_.BroadcastsInDim S1 (![] : Fin 0 → Fin S1.rank)
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  inb_S2304x128_S2304x128_0_0 : ∀ a, (![0, 0] : Fin 2 → Nat) a + S2304x128.size a ≤ S2304x128.size a
  h_S2304x128 : 0 < S2304x128.numel
  shapeCasts_S2304x128_S2304x128 : S2304x128.ShapeCasts S2304x128
  inb_S96_S96_0 : ∀ a, (![0] : Fin 1 → Nat) a + S96.size a ≤ S96.size a
  h_S96 : 0 < S96.numel
  shapeCasts_S2304_S1x2304 : S2304.ShapeCasts S1x2304
  broadcasts_S1x2304_S16x2304 : S1x2304.Broadcasts S16x2304
  shapeCasts_S16x2304_S16x1x2304 : S16x2304.ShapeCasts S16x1x2304
  shapeCasts_S128x2304_S1x128x2304 : S128x2304.ShapeCasts S1x128x2304
  broadcasts_S16x1x2304_S16x128x2304 : S16x1x2304.Broadcasts S16x128x2304
  broadcasts_S1x128x2304_S16x128x2304 : S1x128x2304.Broadcasts S16x128x2304
  shapeCasts_S16x128x2304_S2048x2304 : S16x128x2304.ShapeCasts S2048x2304
  shapeCasts_S2048x128_S16x128x128 : S2048x128.ShapeCasts S16x128x128
  slices_S16x128x128_o0_0_0_S16x128x96 : S16x128x128.Slices ![0, 0, 0] S16x128x96
  shapeCasts_S96_S1x1x96 : S96.ShapeCasts S1x1x96
  broadcasts_S1x1x96_S16x128x96 : S1x1x96.Broadcasts S16x128x96
  inb_S1x16x128x96_S1x16x128x96_0_0_0_0 : ∀ a, (![0, 0, 0, 0] : Fin 4 → Nat) a + S1x16x128x96.size a ≤ S1x16x128x96.size a
  h_S1x16x128x96 : 0 < S1x16x128x96.numel
  shapeCasts_S1x16x128x96_S16x128x96 : S1x16x128x96.ShapeCasts S16x128x96
  shapeCasts_S16x128x96_S1x16x128x96 : S16x128x96.ShapeCasts S1x16x128x96
  shapeCasts_S4x128x128x96_S4x128x128x24x4 : S4x128x128x96.ShapeCasts S4x128x128x24x4
  scatter_S2304x128_S1_S2304x96_01_n_1_0_wf : ScatterDims.WF S2304x128 S1 S2304x96 [0, 1] [] [1] 0
  dot_S16x768_S768x2304_S16x2304_1_0_0_1_n_n_wf : DotDims.WF S16x768 S768x2304 S16x2304 [1] [0] [0] [1] [] []
  dot_S128x768_S768x2304_S128x2304_1_0_0_1_n_n_wf : DotDims.WF S128x768 S768x2304 S128x2304 [1] [0] [0] [1] [] []
  dot_S2048x2304_S2304x128_S2048x128_1_0_0_1_n_n_wf : DotDims.WF S2048x2304 S2304x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x768.size a ≤ S4x128x768.size a
  hwx0_0 : ∀ i : grid0.Coords, EltTy.bits .bf16 = 32 ∨ (Rect.block (s := S4x128x768) S1x16x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x768.size a ≤ S4x128x768.size a
  hwx0_1 : ∀ i : grid0.Coords, EltTy.bits .bf16 = 32 ∨ (Rect.block (s := S4x128x768) S1x16x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x768.size a ≤ S4x128x768.size a
  hwx0_2 : ∀ i : grid0.Coords, EltTy.bits .bf16 = 32 ∨ (Rect.block (s := S4x128x768) S1x128x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x768.size a ≤ S4x128x768.size a
  hwx0_3 : ∀ i : grid0.Coords, EltTy.bits .bf16 = 32 ∨ (Rect.block (s := S4x128x768) S1x128x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x2304.size a ≤ S768x2304.size a
  hwx0_4 : ∀ i : grid0.Coords, EltTy.bits .bf16 = 32 ∨ (Rect.block (s := S768x2304) S768x2304.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x2304.size a ≤ S768x2304.size a
  hwx0_5 : ∀ i : grid0.Coords, EltTy.bits .bf16 = 32 ∨ (Rect.block (s := S768x2304) S768x2304.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x2304.size a ≤ S768x2304.size a
  hwx0_6 : ∀ i : grid0.Coords, EltTy.bits .bf16 = 32 ∨ (Rect.block (s := S768x2304) S768x2304.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x2304.size a ≤ S768x2304.size a
  hwx0_7 : ∀ i : grid0.Coords, EltTy.bits .bf16 = 32 ∨ (Rect.block (s := S768x2304) S768x2304.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2304.size a ≤ S2304.size a
  hwx0_8 : ∀ i : grid0.Coords, EltTy.bits .f32 = 32 ∨ (Rect.block (s := S2304) S2304.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2304x128.size a ≤ S2304x128.size a
  hwx0_9 : ∀ i : grid0.Coords, EltTy.bits .bf16 = 32 ∨ (Rect.block (s := S2304x128) S2304x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S96.size a ≤ S96.size a
  hwx0_10 : ∀ i : grid0.Coords, EltTy.bits .f32 = 32 ∨ (Rect.block (s := S96) S96.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16x128x96.size a ≤ S4x128x128x96.size a
  hwx0_11 : ∀ i : grid0.Coords, EltTy.bits .f32 = 32 ∨ (Rect.block (s := S4x128x128x96) S1x16x128x96.size (cc0_transform_11 i) (hinb0_11 i)).WholeWords (EltTy.packing .f32)

variable [Facts₀]

def scatter_S2304x128_S1_S2304x96_01_n_1_0 : ScatterDims S2304x128 S1 S2304x96 where
  updateWindowDims := [0, 1]
  insertedWindowDims := []
  scatterDimsToOperandDims := [1]
  indexVectorDim := 0
  wf := scatter_S2304x128_S1_S2304x96_01_n_1_0_wf
def dot_S16x768_S768x2304_S16x2304_1_0_0_1_n_n : DotDims S16x768 S768x2304 S16x2304 where
  lhsContracting := [1]
  rhsContracting := [0]
  lhsNonContracting := [0]
  rhsNonContracting := [1]
  lhsBatch := []
  rhsBatch := []
  wf := dot_S16x768_S768x2304_S16x2304_1_0_0_1_n_n_wf
def dot_S128x768_S768x2304_S128x2304_1_0_0_1_n_n : DotDims S128x768 S768x2304 S128x2304 where
  lhsContracting := [1]
  rhsContracting := [0]
  lhsNonContracting := [0]
  rhsNonContracting := [1]
  lhsBatch := []
  rhsBatch := []
  wf := dot_S128x768_S768x2304_S128x2304_1_0_0_1_n_n_wf
def dot_S2048x2304_S2304x128_S2048x128_1_0_0_1_n_n : DotDims S2048x2304 S2304x128 S2048x128 where
  lhsContracting := [1]
  rhsContracting := [0]
  lhsNonContracting := [0]
  rhsNonContracting := [1]
  lhsBatch := []
  rhsBatch := []
  wf := dot_S2048x2304_S2304x128_S2048x128_1_0_0_1_n_n_wf

abbrev win0_0 : Pipeline.Window sig grid0 :=
  Pipeline.Window.ofSpec (Memref.whole main_v0) S1x16x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S768x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S768x2304.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S768x2304.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S768x2304.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S2304.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S2304x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S96.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x16x128x96.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x128x768 : Shape := ⟨3, ![4, 128, 768]⟩
abbrev S1536x2304 : Shape := ⟨2, ![1536, 2304]⟩
abbrev S2304 : Shape := ⟨1, ![2304]⟩
abbrev S2304x96 : Shape := ⟨2, ![2304, 96]⟩
abbrev S96 : Shape := ⟨1, ![96]⟩
abbrev S768x2304 : Shape := ⟨2, ![768, 2304]⟩
abbrev S4x128x2304 : Shape := ⟨3, ![4, 128, 2304]⟩
abbrev S4x128x1x2304 : Shape := ⟨4, ![4, 128, 1, 2304]⟩
abbrev S4x1x128x2304 : Shape := ⟨4, ![4, 1, 128, 2304]⟩
abbrev S4x128x128x2304 : Shape := ⟨4, ![4, 128, 128, 2304]⟩
abbrev S1x1x1x2304 : Shape := ⟨4, ![1, 1, 1, 2304]⟩
abbrev S_ : Shape := ⟨0, ![]⟩
abbrev S4x128x128x96 : Shape := ⟨4, ![4, 128, 128, 96]⟩
abbrev S1x1x1x96 : Shape := ⟨4, ![1, 1, 1, 96]⟩
abbrev S4x128x128x24x4 : Shape := ⟨5, ![4, 128, 128, 24, 4]⟩

abbrev nBuf : Space → Nat
  | .hbm => 25
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S1536x2304, .f32⟩
  | .hbm, ⟨2, _⟩ => ⟨S2304, .f32⟩
  | .hbm, ⟨3, _⟩ => ⟨S2304x96, .f32⟩
  | .hbm, ⟨4, _⟩ => ⟨S96, .f32⟩
  | .hbm, ⟨5, _⟩ => ⟨S768x2304, .f32⟩
  | .hbm, ⟨6, _⟩ => ⟨S768x2304, .f32⟩
  | .hbm, ⟨7, _⟩ => ⟨S4x128x2304, .f32⟩
  | .hbm, ⟨8, _⟩ => ⟨S4x128x2304, .f32⟩
  | .hbm, ⟨9, _⟩ => ⟨S4x128x1x2304, .f32⟩
  | .hbm, ⟨10, _⟩ => ⟨S4x1x128x2304, .f32⟩
  | .hbm, ⟨11, _⟩ => ⟨S4x128x128x2304, .f32⟩
  | .hbm, ⟨12, _⟩ => ⟨S4x128x128x2304, .f32⟩
  | .hbm, ⟨13, _⟩ => ⟨S4x128x128x2304, .f32⟩
  | .hbm, ⟨14, _⟩ => ⟨S1x1x1x2304, .f32⟩
  | .hbm, ⟨15, _⟩ => ⟨S4x128x128x2304, .f32⟩
  | .hbm, ⟨16, _⟩ => ⟨S4x128x128x2304, .f32⟩
  | .hbm, ⟨17, _⟩ => ⟨S_, .f32⟩
  | .hbm, ⟨18, _⟩ => ⟨S4x128x128x2304, .f32⟩
  | .hbm, ⟨19, _⟩ => ⟨S4x128x128x2304, .f32⟩
  | .hbm, ⟨20, _⟩ => ⟨S4x128x128x96, .f32⟩
  | .hbm, ⟨21, _⟩ => ⟨S1x1x1x96, .f32⟩
  | .hbm, ⟨22, _⟩ => ⟨S4x128x128x96, .f32⟩
  | .hbm, ⟨23, _⟩ => ⟨S4x128x128x96, .f32⟩
  | .hbm, ⟨24, _⟩ => ⟨S4x128x128x24x4, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  slices_S1536x2304_S768x2304_0_0 : S1536x2304.Slices ![0, 0] S768x2304
  slices_S1536x2304_S768x2304_768_0 : S1536x2304.Slices ![768, 0] S768x2304
  bcast_S4x128x2304_S4x128x1x2304_0_1_3 : S4x128x2304.BroadcastsInDim S4x128x1x2304 (![0, 1, 3] : Fin 3 → Fin S4x128x1x2304.rank)
  bcast_S4x128x2304_S4x1x128x2304_0_2_3 : S4x128x2304.BroadcastsInDim S4x1x128x2304 (![0, 2, 3] : Fin 3 → Fin S4x1x128x2304.rank)
  bcast_S4x128x1x2304_S4x128x128x2304_0_1_2_3 : S4x128x1x2304.BroadcastsInDim S4x128x128x2304 (![0, 1, 2, 3] : Fin 4 → Fin S4x128x128x2304.rank)
  bcast_S4x1x128x2304_S4x128x128x2304_0_1_2_3 : S4x1x128x2304.BroadcastsInDim S4x128x128x2304 (![0, 1, 2, 3] : Fin 4 → Fin S4x128x128x2304.rank)
  bcast_S2304_S1x1x1x2304_3 : S2304.BroadcastsInDim S1x1x1x2304 (![3] : Fin 1 → Fin S1x1x1x2304.rank)
  bcast_S1x1x1x2304_S4x128x128x2304_0_1_2_3 : S1x1x1x2304.BroadcastsInDim S4x128x128x2304 (![0, 1, 2, 3] : Fin 4 → Fin S4x128x128x2304.rank)
  bcast_S_S4x128x128x2304 : S_.BroadcastsInDim S4x128x128x2304 (![] : Fin 0 → Fin S4x128x128x2304.rank)
  bcast_S96_S1x1x1x96_3 : S96.BroadcastsInDim S1x1x1x96 (![3] : Fin 1 → Fin S1x1x1x96.rank)
  bcast_S1x1x1x96_S4x128x128x96_0_1_2_3 : S1x1x1x96.BroadcastsInDim S4x128x128x96 (![0, 1, 2, 3] : Fin 4 → Fin S4x128x128x96.rank)
  shapeCasts_S4x128x128x96_S4x128x128x24x4 : S4x128x128x96.ShapeCasts S4x128x128x24x4
  dot_S4x128x768_S768x2304_S4x128x2304_2_0_01_1_n_n_wf : DotDims.WF S4x128x768 S768x2304 S4x128x2304 [2] [0] [0, 1] [1] [] []
  dot_S4x128x128x2304_S2304x96_S4x128x128x96_3_0_012_1_n_n_wf : DotDims.WF S4x128x128x2304 S2304x96 S4x128x128x96 [3] [0] [0, 1, 2] [1] [] []

variable [Facts₀]

def dot_S4x128x768_S768x2304_S4x128x2304_2_0_01_1_n_n : DotDims S4x128x768 S768x2304 S4x128x2304 where
  lhsContracting := [2]
  rhsContracting := [0]
  lhsNonContracting := [0, 1]
  rhsNonContracting := [1]
  lhsBatch := []
  rhsBatch := []
  wf := dot_S4x128x768_S768x2304_S4x128x2304_2_0_01_1_n_n_wf
def dot_S4x128x128x2304_S2304x96_S4x128x128x96_3_0_012_1_n_n : DotDims S4x128x128x2304 S2304x96 S4x128x128x96 where
  lhsContracting := [3]
  rhsContracting := [0]
  lhsNonContracting := [0, 1, 2]
  rhsNonContracting := [1]
  lhsBatch := []
  rhsBatch := []
  wf := dot_S4x128x128x2304_S2304x96_S4x128x128x96_3_0_012_1_n_n_wf

class Facts : Prop extends Facts₀ where

variable [Facts]
-- ==== Proof.Spec.lean ====
/-
  The pairwise head/tail scorer, as one function of the five argument arrays.

  For a batch entry b, a query row i, a key row j and an output column o,

      score b i j o = (∑ k < 2304, hidden b i j k * W2 k o) + b2 o,
      hidden b i j k = max ((head b i k + tail b j k) + b1 k) 0,
      head b i k = ∑ h < 768, x b i h * W1 h k,          tail b j k = ∑ h < 768, x b j h * W1 (768 + h) k,

  all on the extended reals: the first layer applied to the concatenation of rows i and j is the sum of the
  two halves of W1 applied to each row, then a rectifier, then the second layer.

  Also here: the two facts that let a program which splits a number a into a "high" part a and a "low" part
  a - a compute the same head and tail. The low part of a REAL number is 0, a sum of products against 0 is 0,
  and adding 0 changes nothing; on the extended reals the first needs a to be finite (∞ - ∞ is not 0), the
  other two do not.
-/
import Idealize.ShloMosaic.PureOps.Ideal
import Idealize.ShloMosaic.Lib.ValueIdx

noncomputable section

namespace Cert.PairScore

open Idealize.ShloMosaic Idealize.ShloMosaic.ValueIdx

/-- Every entry of an array of extended reals is a real number. -/
def AllReal {s : Shape} (f : s.Idx → EReal) : Prop := ∀ i, f i ≠ ⊤ ∧ f i ≠ ⊥

/-- Row `i` of batch entry `b` through the first 768 rows of the first layer's weights. -/
def head (x : (⟨3, ![4, 128, 768]⟩ : Shape).Idx → EReal) (W1 : (⟨2, ![1536, 2304]⟩ : Shape).Idx → EReal)
    (b : Fin 4) (i : Fin 128) (k : Fin 2304) : EReal :=
  ∑ h : Fin 768, x (ix3 b i h) * W1 (ix2 (⟨h.val, by have := h.isLt; omega⟩ : Fin 1536) k)

/-- Row `j` of batch entry `b` through the last 768 rows of the first layer's weights. -/
def tail (x : (⟨3, ![4, 128, 768]⟩ : Shape).Idx → EReal) (W1 : (⟨2, ![1536, 2304]⟩ : Shape).Idx → EReal)
    (b : Fin 4) (j : Fin 128) (k : Fin 2304) : EReal :=
  ∑ h : Fin 768, x (ix3 b j h) * W1 (ix2 (⟨768 + h.val, by have := h.isLt; omega⟩ : Fin 1536) k)

/-- The hidden unit `k` of the pair (i, j): the rectified first layer. -/
def hidden (x : (⟨3, ![4, 128, 768]⟩ : Shape).Idx → EReal) (W1 : (⟨2, ![1536, 2304]⟩ : Shape).Idx → EReal)
    (b1 : (⟨1, ![2304]⟩ : Shape).Idx → EReal) (b : Fin 4) (i j : Fin 128) (k : Fin 2304) : EReal :=
  max ((head x W1 b i k + tail x W1 b j k) + b1 (ix1 k)) 0

/-- The scores, before they are regrouped into 24 × 4. -/
def score (x : (⟨3, ![4, 128, 768]⟩ : Shape).Idx → EReal) (W1 : (⟨2, ![1536, 2304]⟩ : Shape).Idx → EReal)
    (b1 : (⟨1, ![2304]⟩ : Shape).Idx → EReal) (W2 : (⟨2, ![2304, 96]⟩ : Shape).Idx → EReal)
    (b2 : (⟨1, ![96]⟩ : Shape).Idx → EReal) : (⟨4, ![4, 128, 128, 96]⟩ : Shape).Idx → EReal :=
  fun y => (∑ k : Fin 2304, hidden x W1 b1 (y 0 : Fin 4) (y 1 : Fin 128) (y 2 : Fin 128) k * W2 (ix2 k (y 3 : Fin 96)))
    + b2 (ix1 (y 3 : Fin 96))

/-! ## The split into a high and a low part changes nothing -/

/-- The low part of a real number is zero. -/
theorem low_part_eq_zero {a : EReal} (h : a ≠ ⊤ ∧ a ≠ ⊥) : a - a = 0 := EReal.sub_self h.1 h.2

/-- A sum of products against a zero right factor is zero. -/
theorem sum_mul_zero_right {n : Nat} (f : Fin n → EReal) : ∑ h : Fin n, f h * 0 = 0 := by simp

/-- A sum of products against a zero left factor is zero. -/
theorem sum_mul_zero_left {n : Nat} (f : Fin n → EReal) : ∑ h : Fin n, 0 * f h = 0 := by simp

/-- The rectified first layer computed with both split corrections present, each of them zero, and the bias
    added to the head before the tail, is the hidden unit: only zeros dropped and a sum reassociated. -/
theorem hidden_of_split (H T B : EReal) : max ((((H + 0) + 0) + B) + ((T + 0) + 0)) 0 = max ((H + T) + B) 0 := by
  rw [add_zero, add_zero, add_zero, add_zero, add_right_comm]

end Cert.PairScore

end
-- ==== Proof.RefIsScore.lean ====
/-
  The reference program computes the pairwise head/tail scorer.

  Stage by stage: the two slices of the first layer's weights are its first and its last 768 rows, so the two
  contractions against them are the head and the tail of a row; broadcasting the head along the key axis and the
  tail along the query axis and adding them, then the bias, then taking the maximum with a zero constant gives the
  hidden unit of a pair; the contraction of the hidden units against the second layer's weights plus its bias is
  the score. The program's result is that array of scores regrouped from 96 columns into 24 × 4.
-/
import proofs.«102689_j33998961115715_2_alg».proof.Proof.Spec
import proofs.«102689_j33998961115715_2_alg».proof.Proof.Gen.ReferenceIdeal.Read

noncomputable section

namespace Cert.PairScore.Reference

open Cert.ReferenceIdeal Cert.ReferenceIdeal.Gen Cert.ReferenceIdeal.Read
open Idealize.ShloMosaic Idealize.ShloMosaic.ValueIdx

/-- The contraction of a row against the first 768 rows of the first layer's weights is the head. -/
theorem head_eq (x0 : (⟨S4x128x768, .f32⟩ : BufTy).Contents (Elt Ideal))
    (x1 : (⟨S1536x2304, .f32⟩ : BufTy).Contents (Elt Ideal)) (b : Fin 4) (i : Fin 128) (k : Fin 2304) :
    val_main_v2 (F := Ideal) x0 x1 (ix3 b i k) = head x0 x1 b i k := by
  rw [val_main_v2_apply]
  unfold head
  refine Finset.sum_congr rfl fun h _ => ?_
  rw [val_main_v0_apply]
  have el : lidx_main_v2 (ix3 b i k) h = ix3 b i h := funext fun a => Fin.ext (by
    match a with
    | ⟨0, _⟩ => rfl
    | ⟨1, _⟩ => rfl
    | ⟨2, _⟩ => rfl)
  have er : idx_main_v0 (ridx_main_v2 (ix3 b i k) h)
      = ix2 (⟨h.val, by have := h.isLt; omega⟩ : Fin 1536) k := funext fun a => Fin.ext (by
    match a with
    | ⟨0, _⟩ => rfl
    | ⟨1, _⟩ => rfl)
  rw [el, er]

/-- The contraction of a row against the last 768 rows of the first layer's weights is the tail. -/
theorem tail_eq (x0 : (⟨S4x128x768, .f32⟩ : BufTy).Contents (Elt Ideal))
    (x1 : (⟨S1536x2304, .f32⟩ : BufTy).Contents (Elt Ideal)) (b : Fin 4) (j : Fin 128) (k : Fin 2304) :
    val_main_v3 (F := Ideal) x0 x1 (ix3 b j k) = tail x0 x1 b j k := by
  rw [val_main_v3_apply]
  unfold tail
  refine Finset.sum_congr rfl fun h _ => ?_
  rw [val_main_v1_apply]
  have el : lidx_main_v3 (ix3 b j k) h = ix3 b j h := funext fun a => Fin.ext (by
    match a with
    | ⟨0, _⟩ => rfl
    | ⟨1, _⟩ => rfl
    | ⟨2, _⟩ => rfl)
  have er : idx_main_v1 (ridx_main_v3 (ix3 b j k) h)
      = ix2 (⟨768 + h.val, by have := h.isLt; omega⟩ : Fin 1536) k := funext fun a => Fin.ext (by
    match a with
    | ⟨0, _⟩ => rfl
    | ⟨1, _⟩ => rfl)
  rw [el, er]

/-- The head broadcast along the key axis, plus the tail broadcast along the query axis, plus the bias, rectified,
    is the hidden unit of the pair. -/
theorem hidden_eq (x0 : (⟨S4x128x768, .f32⟩ : BufTy).Contents (Elt Ideal))
    (x1 : (⟨S1536x2304, .f32⟩ : BufTy).Contents (Elt Ideal)) (x2 : (⟨S2304, .f32⟩ : BufTy).Contents (Elt Ideal))
    (b : Fin 4) (i j : Fin 128) (k : Fin 2304) :
    val_main_v12 (F := Ideal) x0 x1 x2 (ix4 b i j k) = hidden x0 x1 x2 b i j k := by
  have eh : idx_main_v4 (idx_main_v6 (ix4 b i j k)) = ix3 b i k := funext fun a => Fin.ext (by
    match a with
    | ⟨0, _⟩ => rfl
    | ⟨1, _⟩ => rfl
    | ⟨2, _⟩ => rfl)
  have et : idx_main_v5 (idx_main_v7 (ix4 b i j k)) = ix3 b j k := funext fun a => Fin.ext (by
    match a with
    | ⟨0, _⟩ => rfl
    | ⟨1, _⟩ => rfl
    | ⟨2, _⟩ => rfl)
  have eb : idx_main_v9 (idx_main_v10 (ix4 b i j k)) = ix1 k := funext fun a => Fin.ext (by
    match a with
    | ⟨0, _⟩ => rfl)
  rw [val_main_v12_apply, val_main_v11_apply, val_main_v8_apply, val_main_v6_apply, val_main_v4_apply,
    val_main_v7_apply, val_main_v5_apply, val_main_v10_apply, val_main_v9_apply, val_main_call0_v0_apply,
    val_main_call0_cst_apply, eh, et, eb, head_eq, tail_eq]
  simp only [Ideal.addf_def, Ideal.maximumf_def, Ideal.ofBits_def, Ideal.ofBits_zero_f32]
  rfl

/-- THE REFERENCE BEFORE ITS LAST REGROUPING IS THE SCORE: the contraction of the hidden units against the second
    layer's weights, plus its bias. -/
theorem ref_eq_score (x0 : (⟨S4x128x768, .f32⟩ : BufTy).Contents (Elt Ideal))
    (x1 : (⟨S1536x2304, .f32⟩ : BufTy).Contents (Elt Ideal)) (x2 : (⟨S2304, .f32⟩ : BufTy).Contents (Elt Ideal))
    (x3 : (⟨S2304x96, .f32⟩ : BufTy).Contents (Elt Ideal)) (x4 : (⟨S96, .f32⟩ : BufTy).Contents (Elt Ideal)) :
    val_main_v16 (F := Ideal) x0 x1 x2 x3 x4 = score x0 x1 x2 x3 x4 := by
  funext y
  obtain ⟨b, i, j, o, rfl⟩ : ∃ (b : Fin 4) (i : Fin 128) (j : Fin 128) (o : Fin 96), y = ix4 b i j o :=
    ⟨y 0, y 1, y 2, y 3, eq_ix4 y⟩
  have eo : idx_main_v14 (idx_main_v15 (ix4 b i j o)) = ix1 o := funext fun a => Fin.ext (by
    match a with
    | ⟨0, _⟩ => rfl)
  rw [val_main_v16_apply, val_main_v13_apply, val_main_v15_apply, val_main_v14_apply, eo, Ideal.addf_def]
  show _ = (∑ k : Fin 2304, hidden x0 x1 x2 b i j k * x3 (ix2 k o)) + x4 (ix1 o)
  refine congrArg (· + x4 (ix1 o)) (Finset.sum_congr rfl fun k _ => ?_)
  have el : lidx_main_v13 (ix4 b i j o) k = ix4 b i j k := funext fun a => Fin.ext (by
    match a with
    | ⟨0, _⟩ => rfl
    | ⟨1, _⟩ => rfl
    | ⟨2, _⟩ => rfl
    | ⟨3, _⟩ => rfl)
  have er : ridx_main_v13 (ix4 b i j o) k = ix2 k o := funext fun a => Fin.ext (by
    match a with
    | ⟨0, _⟩ => rfl
    | ⟨1, _⟩ => rfl)
  rw [el, er, hidden_eq]

/-- The reference's whole result is the array of scores, its 96 columns regrouped into 24 × 4. -/
theorem ref_result_eq (x0 : (⟨S4x128x768, .f32⟩ : BufTy).Contents (Elt Ideal))
    (x1 : (⟨S1536x2304, .f32⟩ : BufTy).Contents (Elt Ideal)) (x2 : (⟨S2304, .f32⟩ : BufTy).Contents (Elt Ideal))
    (x3 : (⟨S2304x96, .f32⟩ : BufTy).Contents (Elt Ideal)) (x4 : (⟨S96, .f32⟩ : BufTy).Contents (Elt Ideal)) :
    val_main_v17 (F := Ideal) x0 x1 x2 x3 x4
      = shapeCast S4x128x128x24x4 (score x0 x1 x2 x3 x4) shapeCasts_S4x128x128x96_S4x128x128x24x4 := by
  unfold val_main_v17
  rw [ref_eq_score]

end Cert.PairScore.Reference

end
-- ==== Proof.FiniteInputs.lean ====
/-
  From the precondition "every entry of every argument array has |a| < +∞" to "every entry is a real number".

  The precondition is printed as five conjoined tests, one per array: the entrywise comparison of |a| with the
  f32 pattern of +∞, reduced by "and" over all axes to a single bit. Read backwards: the conjunction is 1, so each
  reduction is 1; a reduction by "and" over all axes is 1, so every compared bit is 1; and on the extended reals
  the bit of max a (-a) < ⊤ is 1 exactly when a is neither ⊤ (then max a (-a) = ⊤) nor ⊥ (then -a = ⊤).
-/
import proofs.«102689_j33998961115715_2_alg».proof.Pre_finite_inputs
import proofs.«102689_j33998961115715_2_alg».proof.Proof.Spec
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-! ## One entry -/

/-- The f32 pattern with all exponent bits set and a zero significand denotes +∞. -/
theorem ofBits_inf : Ideal.ofBits .f32 0x7F800000#32 = (⊤ : EReal) := by
  simp [Ideal.ofBits, Ideal.ieee]

/-- An extended real whose absolute value max a (-a) lies strictly below ⊤ is a real number: a = ⊤ would make the
    maximum ⊤, and a = ⊥ would make -a = ⊤. -/
theorem real_of_abs_lt_top {a : EReal} (h : max a (-a) < ⊤) : a ≠ ⊤ ∧ a ≠ ⊥ := by
  obtain ⟨h1, h2⟩ := max_lt_iff.1 h
  refine ⟨ne_of_lt h1, ?_⟩
  rintro rfl
  rw [EReal.neg_bot] at h2
  exact lt_irrefl _ h2

/-- The compared bit of one entry: if "|a| < +∞" came out 1, then a is a real number. -/
theorem real_of_bit {a : EReal}
    (h : Ideal.cmp .olt (max a (-a)) (Ideal.ofBits .f32 0x7F800000#32) = 1#1) : a ≠ ⊤ ∧ a ≠ ⊥ := by
  rw [ofBits_inf] at h
  by_cases hlt : max a (-a) < ⊤
  · exact real_of_abs_lt_top hlt
  · exfalso
    have h' : BitVec.ofBool (decide (max a (-a) < ⊤)) = 1#1 := h
    rw [decide_eq_false hlt] at h'
    exact absurd h' (by decide)

/-! ## One array -/

/-- The scalar shape has exactly one index. -/
theorem scalarIdx_subsingleton : Subsingleton S_.Idx := ⟨fun a b => funext fun d => d.elim0⟩

/-- One array's test: if the "and" over all axes of the entrywise "|a| < +∞" is 1, every entry of the array is real. -/
theorem allReal_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ix0 = 1#1) :
    Cert.PairScore.AllReal a := by
  intro i
  haveI := scalarIdx_subsingleton
  have hi := Host.reduce_andi_all _ _ hr hu ix0 h i
  exact real_of_bit hi

/-! ## The five arrays -/

variable [Facts]

/-- The precondition gives that every entry of each of the five argument arrays is a real number. -/
theorem allReal_of_pre_all (x : FVec Ideal S4x128x768 .f32) (W1 : FVec Ideal S1536x2304 .f32)
    (b1 : FVec Ideal S2304 .f32) (W2 : FVec Ideal S2304x96 .f32) (b2 : FVec Ideal S96 .f32)
    (h : fn (F := Ideal) x W1 b1 W2 b2 = fun _ => 1#1) :
    Cert.PairScore.AllReal x ∧ Cert.PairScore.AllReal W1 ∧ Cert.PairScore.AllReal b1
      ∧ Cert.PairScore.AllReal W2 ∧ Cert.PairScore.AllReal b2 := by
  have h0 := congrFun h ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨allReal_of_all _ _ _ x h1, allReal_of_all _ _ _ W1 h2, allReal_of_all _ _ _ b1 h3,
    allReal_of_all _ _ _ W2 h4, allReal_of_all _ _ _ b2 h5⟩

/-- The two arrays the first layer reads: every entry of x and of W1 is a real number. -/
theorem allReal_of_pre (x : FVec Ideal S4x128x768 .f32) (W1 : FVec Ideal S1536x2304 .f32)
    (b1 : FVec Ideal S2304 .f32) (W2 : FVec Ideal S2304x96 .f32) (b2 : FVec Ideal S96 .f32)
    (h : fn (F := Ideal) x W1 b1 W2 b2 = fun _ => 1#1) :
    Cert.PairScore.AllReal x ∧ Cert.PairScore.AllReal W1 :=
  ⟨(allReal_of_pre_all x W1 b1 W2 b2 h).1, (allReal_of_pre_all x W1 b1 W2 b2 h).2.1⟩

end Cert.FiniteInputs

end
-- ==== Proof.KernelIdealBody.lean ====
/-
  The kernel body as a Hoare triple, for every float instance.

  The body reads eleven staging buffers whole — the sixteen query rows (high and low parts), all 128 rows (high and
  low parts), the four halves of the first layer's weights, the first bias, the padded second-layer weights, the
  second bias — and overwrites the twelfth, the 1 × 16 × 128 × 96 block of scores, whole, with one store. It also
  loads that twelfth buffer before storing into it; the value loaded is used by nothing, so the buffer may hold
  anything when the body starts. What the body leaves there is the one stored value as a function of the eleven
  values read (`blockOut`); the eleven input buffers are left as they were found.
-/
import proofs.«102689_j33998961115715_2_alg».proof.Proof.Gen.KernelIdeal.Launch
import proofs.«102689_j33998961115715_2_alg».proof.Proof.Gen.KernelIdeal.Skeleton
import proofs.«102689_j33998961115715_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rQ : Rect S1x16x768 := Rect.unit (s := S1x16x768) ![0, 0, 0] S1x16x768.size inb_S1x16x768_S1x16x768_0_0_0
abbrev rK : Rect S1x128x768 := Rect.unit (s := S1x128x768) ![0, 0, 0] S1x128x768.size inb_S1x128x768_S1x128x768_0_0_0
abbrev rW : Rect S768x2304 := Rect.unit (s := S768x2304) ![0, 0] S768x2304.size inb_S768x2304_S768x2304_0_0
abbrev rB1 : Rect S2304 := Rect.unit (s := S2304) ![0] S2304.size inb_S2304_S2304_0
abbrev rW2 : Rect S2304x128 := Rect.unit (s := S2304x128) ![0, 0] S2304x128.size inb_S2304x128_S2304x128_0_0
abbrev rB2 : Rect S96 := Rect.unit (s := S96) ![0] S96.size inb_S96_S96_0
abbrev rO : Rect S1x16x128x96 := Rect.unit (s := S1x16x128x96) ![0, 0, 0, 0] S1x16x128x96.size inb_S1x16x128x96_S1x16x128x96_0_0_0_0

/-! ## What the body leaves in the block of scores -/

/-- The one value the body stores, from the eleven values it reads: the query rows `q`, `q'` (high, low), all rows
    `r`, `r'` (high, low), the head weights `wh`, `wh'`, the tail weights `wt`, `wt'`, the biases and the padded
    second-layer weights. -/
def blockPay (q q' : Vec F S1x16x768 .bf16) (r r' : Vec F S1x128x768 .bf16) (wh wh' wt wt' : Vec F S768x2304 .bf16)
    (b1 : Vec F S2304 .f32) (w2 : Vec F S2304x128 .bf16) (b2 : Vec F S96 .f32) : Vec F S1x16x128x96 .f32 :=
  k0_pay1 (k0_pay2 (View.ld r' rK)) (k0_pay3 (View.ld wt rW)) (View.ld b1 rB1) (k0_pay4 (View.ld w2 rW2)) (View.ld b2 rB2)
    (k0_pay5 (View.ld q rQ) (View.ld q' rQ) (View.ld wh rW) (View.ld wh' rW))
    (k0_pay6 (View.ld r rK) (View.ld wt rW) (View.ld wt' rW)) (constant S128x2304 .f32 0x00000000#32)

/-- The block's buffer after the body: its one store, over whatever was there. -/
def blockOut (q q' : Vec F S1x16x768 .bf16) (r r' : Vec F S1x128x768 .bf16) (wh wh' wt wt' : Vec F S768x2304 .bf16)
    (b1 : Vec F S2304 .f32) (w2 : Vec F S2304x128 .bf16) (b2 : Vec F S96 .f32) : Vec F S1x16x128x96 .f32 :=
  View.canon [⟨rO, blockPay q q' r r' wh wh' wt wt' b1 w2 b2⟩]

/-- The one store covers the buffer. -/
theorem block_cover (p0 : Vec F S1x16x128x96 .f32) (y : S1x16x128x96.Idx) :
    ∃ pc ∈ ([⟨rO, p0⟩] : List (View.Piece (Elt F) S1x16x128x96 .f32)), y ∈ pc.1.set :=
  View.cover_of_tiled [⟨rO, p0⟩] S1x16x128x96.size (by rfl) y

/-! ## The body's triple -/

set_option maxHeartbeats 1000000 in
/-- The body on whole staging buffers, the eleven inputs at the contents read and the block of scores at anything, runs
    to its continuation with the inputs as they were and the block at `blockOut` of the inputs. -/
theorem sound_kernel (c : Dev nD) (E : Set ℕ) (i : grid0.Coords) (a2 : Memref sig .tc .vmem S1x16x768 .bf16) (ha2 : a2.IsWhole) (a3 : Memref sig .tc .vmem S1x16x768 .bf16) (ha3 : a3.IsWhole) (a4 : Memref sig .tc .vmem S1x128x768 .bf16) (ha4 : a4.IsWhole) (a5 : Memref sig .tc .vmem S1x128x768 .bf16) (ha5 : a5.IsWhole) (a6 : Memref sig .tc .vmem S768x2304 .bf16) (ha6 : a6.IsWhole) (a7 : Memref sig .tc .vmem S768x2304 .bf16) (ha7 : a7.IsWhole) (a8 : Memref sig .tc .vmem S768x2304 .bf16) (ha8 : a8.IsWhole) (a9 : Memref sig .tc .vmem S768x2304 .bf16) (ha9 : a9.IsWhole) (a10 : Memref sig .tc .vmem S2304 .f32) (ha10 : a10.IsWhole) (a11 : Memref sig .tc .vmem S2304x128 .bf16) (ha11 : a11.IsWhole) (a12 : Memref sig .tc .vmem S96 .f32) (ha12 : a12.IsWhole) (a13 : Memref sig .tc .vmem S1x16x128x96 .f32) (ha13 : a13.IsWhole)
    (q q' : Vec F S1x16x768 .bf16) (r r' : Vec F S1x128x768 .bf16) (wh wh' wt wt' : Vec F S768x2304 .bf16) (b1 : Vec F S2304 .f32) (w2 : Vec F S2304x128 .bf16) (b2 : Vec F S96 .f32) (K : PUnit → sProp 𝕄) :
    iprop(owns (c : Thread nD τ) a2 fullShare q ∗ owns (c : Thread nD τ) a3 fullShare q' ∗ owns (c : Thread nD τ) a4 fullShare r ∗ owns (c : Thread nD τ) a5 fullShare r' ∗ owns (c : Thread nD τ) a6 fullShare wh ∗ owns (c : Thread nD τ) a7 fullShare wh' ∗ owns (c : Thread nD τ) a8 fullShare wt ∗ owns (c : Thread nD τ) a9 fullShare wt' ∗ owns (c : Thread nD τ) a10 fullShare b1 ∗ owns (c : Thread nD τ) a11 fullShare w2 ∗ owns (c : Thread nD τ) a12 fullShare b2 ∗ (∃ d, owns (c : Thread nD τ) a13 fullShare d)
        ∗ (iprop(owns (c : Thread nD τ) a2 fullShare q ∗ owns (c : Thread nD τ) a3 fullShare q' ∗ owns (c : Thread nD τ) a4 fullShare r ∗ owns (c : Thread nD τ) a5 fullShare r' ∗ owns (c : Thread nD τ) a6 fullShare wh ∗ owns (c : Thread nD τ) a7 fullShare wh' ∗ owns (c : Thread nD τ) a8 fullShare wt ∗ owns (c : Thread nD τ) a9 fullShare wt' ∗ owns (c : Thread nD τ) a10 fullShare b1 ∗ owns (c : Thread nD τ) a11 fullShare w2 ∗ owns (c : Thread nD τ) a12 fullShare b2 ∗ owns (c : Thread nD τ) a13 fullShare (blockOut q q' r r' wh wh' wt wt' b1 w2 b2)) -∗ K ⟨⟩))
      ⊢ wp frame (wpE (defs₀ (F := F)) Variants.none c none) E (cc0__mlp_kernel i a2 ha2 a3 ha3 a4 ha4 a5 ha5 a6 ha6 a7 ha7 a8 ha8 a9 ha9 a10 ha10 a11 ha11 a12 ha12 a13 ha13) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %fd, -, HO⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact HO
  ipureintro
  try dsimp only
  exact View.read_writes_eq_canon _ _ _ (block_cover _)

end Cert.KernelIdeal.Launch

end
-- ==== Proof.KernelIdealPoints.lean ====
/-
  The kernel's launch, first half: what the region finds, the proof data, and the body at every grid point.

  Before the region the host splits x and the two halves of the first layer's weights into high and low parts and pads
  the second layer's weights; the region then runs the body at the 4 × 8 grid points (batch entry, tile of sixteen
  query rows), and after it the host regroups the last axis. Two pairs of the region's twelve windows look at ONE
  array each: the sixteen query rows and all 128 rows are both cut from the high part of x (and likewise from its low
  part). Both windows of a pair only read, so each holds half of the array's ownership; that is the one place where
  this launch differs from a launch with twelve distinct arrays.

  Here: the contents the region finds (`V`), each window's block at a grid point (`iblk`), that every input window's
  staging buffer holds its block at every point whether or not it was fetched there, the proof data (`dats`: the
  inputs' buffers left as found, the block of scores left at `blockOut` of the inputs' blocks), and the body
  obligation at every point from the body's triple.
-/
import proofs.«102689_j33998961115715_2_alg».proof.Proof.KernelIdealBody
import Idealize.ShloMosaic.Lib.Pipeline.FrameSuffix

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the twenty host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the regrouping after it: it reduces to the region
    continued by the regrouping, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block at every point, fetched there or not: where it is not fetched its
    index has not moved since the last fetch, and the body leaves inputs as it finds them. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and the block of
    scores at `blockOut` of the inputs' blocks; the scoped rest and the generator register untouched; nothing owed. The two
    windows on the high part of x hold a half of it each, and so the two on its low part; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_out (c : Dev nD) (t : Fin cfg0.N) : (dats m 0 c).after 11 t = blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d
theorem before_in9 (c : Dev nD) (t : Fin cfg0.N) (d) : (dats m 0 c).before 9 t d = iblk m c 9 t :=
  before_in9_of m (dats m 0 c) (A_eq m c 9) (after_in9 m c) t d
theorem before_in10 (c : Dev nD) (t : Fin cfg0.N) (d) : (dats m 0 c).before 10 t d = iblk m c 10 t :=
  before_in10_of m (dats m 0 c) (A_eq m c 10) (after_in10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Launch

end
-- ==== Proof.KernelIdealRun.lean ====
/-
  The kernel's launch, second half: the run.

  The launch rule wants the region's arrays window by window, each at the share its window holds. Twelve windows look
  at ten arrays: the high part of x is behind the window of sixteen query rows and the window of all rows, and so is
  its low part. At entry each of those two arrays, held whole, is split into two halves, one per window; both windows
  only read, so at exit both halves still hold the entry contents. After the region the one remaining host operation
  regroups the block of scores' array, which the output window holds whole, into the result.
-/
import proofs.«102689_j33998961115715_2_alg».proof.Proof.KernelIdealPoints

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The region's arrays at contents `A`: each window's array whole, at the window's share. -/
theorem arrays_pts (c : Dev nD) (A : (w : Fin cfg0.W) → Buf (Elt F) ((cfg0.win w).arr.view.loc (c.tc : Thread nD τ))) :
    (dats m 0 c).arrays A
      = bigSep Finset.univ fun w => (((c.tc : Thread nD τ).loc (Pipeline.arrRef spec0 w)) ↦{(dats m 0 c).share w} A w : sProp 𝕄) := by
  unfold Dat.arrays
  exact bigSep_congr fun w _ => by rw [(arr_whole0 w).set_eq_univ]

/-- The two windows on the high part of x hold a half each, and so the two on its low part; every other window holds
    its array whole. -/
theorem share_0 (c : Dev nD) : (dats m 0 c).share 0 = fullShare.left := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl

/-- Before any write-back an array holds what the region found. -/
theorem arrAt_zero (c : Dev nD) (w : Fin cfg0.W) : (dats m 0 c).arrAt w 0 = V m c (Pipeline.arrRef spec0 w) := rfl

/-! ## Entry: the arrays split among the windows -/

/-- The ten distinct arrays behind the twelve windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0) ∗ (((c.tc : Thread nD τ).loc main_v3) ↦{fullShare} W main_v3) ∗ (((c.tc : Thread nD τ).loc main_v5) ↦{fullShare} W main_v5) ∗ (((c.tc : Thread nD τ).loc main_v8) ↦{fullShare} W main_v8) ∗ (((c.tc : Thread nD τ).loc main_v10) ↦{fullShare} W main_v10) ∗ (((c.tc : Thread nD τ).loc main_v13) ↦{fullShare} W main_v13) ∗ (((c.tc : Thread nD τ).loc main_arg2) ↦{fullShare} W main_arg2) ∗ (((c.tc : Thread nD τ).loc main_v17) ↦{fullShare} W main_v17) ∗ (((c.tc : Thread nD τ).loc main_arg4) ↦{fullShare} W main_arg4) ∗ (((c.tc : Thread nD τ).loc main_v18) ↦{fullShare} W main_v18)) :=
  bigSep_eq_bigSepL_of_eq [main_v0, main_v3, main_v5, main_v8, main_v10, main_v13, main_arg2, main_v17, main_arg4, main_v18] (by decide) (by decide) _

/-- An array held whole is two halves of it, each at the same contents. -/
theorem halve_v0 (c : Dev nD) :
    ((((c.tc : Thread nD τ).loc main_v0) ↦{fullShare} V m c main_v0) : sProp 𝕄)
      ⊢ iprop((((c.tc : Thread nD τ).loc main_v0) ↦{fullShare.left} V m c main_v0) ∗ (((c.tc : Thread nD τ).loc main_v0) ↦{fullShare.right} V m c main_v0)) :=
  (pointsTo_share (PosShare.mem_left_op_right fullShare)).1
theorem halve_v3 (c : Dev nD) :
    ((((c.tc : Thread nD τ).loc main_v3) ↦{fullShare} V m c main_v3) : sProp 𝕄)
      ⊢ iprop((((c.tc : Thread nD τ).loc main_v3) ↦{fullShare.left} V m c main_v3) ∗ (((c.tc : Thread nD τ).loc main_v3) ↦{fullShare.right} V m c main_v3)) :=
  (pointsTo_share (PosShare.mem_left_op_right fullShare)).1

/-- The ten arrays, each whole at the full share at the contents the region finds, are the windows' arrays: the high
    part of x halved between its two windows, and so its low part. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_pts, bigSep_W0, arrBufs_eq]
  simp only [share_0, share_1, share_2, share_3, share_4, share_5, share_6, share_7, share_8, share_9, share_10, share_11, arrAt_zero]
  iintro ⟨H0, H3, H5, H8, H10, H13, Ha2, H17, Ha4, H18⟩
  ihave H0' := (halve_v0 m c) $$ H0
  icases H0' with ⟨H0l, H0r⟩
  ihave H3' := (halve_v3 m c) $$ H3
  icases H3' with ⟨H3l, H3r⟩
  isplitl [H0l]; · iexact H0l
  isplitl [H3l]; · iexact H3l
  isplitl [H0r]; · iexact H0r
  isplitl [H3r]; · iexact H3r
  isplitl [H5]; · iexact H5
  isplitl [H8]; · iexact H8
  isplitl [H10]; · iexact H10
  isplitl [H13]; · iexact H13
  isplitl [Ha2]; · iexact Ha2
  isplitl [H17]; · iexact H17
  isplitl [Ha4]; · iexact Ha4
  iexact H18

/-! ## Exit: the regrouping after the region -/

/-- The contents at the region's exit: each window's array as the write-backs leave it, every other buffer as the region
    found it. -/
abbrev exitVal (c : Dev nD) : Valuation τ sig (Elt F) :=
  Pipeline.withArrays spec0 c (V0 m c) (fun w => (dats m 0 c).arrAt w cfg0.N)

/-- The contents at the end of @main, read at a TensorCore reference. -/
abbrev endVal (c : Dev nD) (b : Ref sig .tc) : Buf (Elt F) ((c.tc : Thread nD τ).loc b) :=
  Pipeline.afterTail₀ cfgs (dats m) 0 (V0 m) [hostOps1] c b

/-- The regrouping writes only its result: a buffer that is neither the result nor a window's array ends as the region
    found it. -/
theorem end_keeps (c : Dev nD) (b : Ref sig .tc) (hb : b ≠ main_v19) (ha : ∀ w, Pipeline.arrRef spec0 w ≠ b) :
    endVal m c b = V m c b := by
  unfold endVal Pipeline.afterTail₀
  rw [StableHlo.after_of_forall_not_mem (b := Proc.devRef .tc b) _ _ ?_, Pipeline.withArrays_of_ne _ c (V0 m c) _ b ha]
  intro op hop
  simp only [hostOps1, List.flatten_cons, List.flatten_nil, List.append_nil, List.mem_cons, List.mem_nil_iff, or_false] at hop
  subst hop
  simp only [StableHlo.reshape_writes, Finset.mem_singleton]
  exact StableHlo.devRef_ne_of_ne hb

/-- Only the output window looks at the scores' array, so at exit it holds what that window's write-backs left. -/
theorem exit_scores (c : Dev nD) : exitVal m c (Proc.devRef .tc main_v18) = (dats m 0 c).arrAt 11 cfg0.N := by
  unfold exitVal Pipeline.withArrays
  have h : ∃ w', Proc.devRef .tc (Pipeline.arrRef spec0 w') = Proc.devRef (τ := τ) .tc main_v18 := ⟨11, rfl⟩
  rw [dif_pos h]
  suffices ∀ (w' : Fin 12) (e : Proc.devRef .tc (Pipeline.arrRef spec0 w') = Proc.devRef (τ := τ) .tc main_v18),
      cast (congrArg (fun b' : DevRef τ sig => b'.ty.Contents (Elt F)) e) ((dats m 0 c).arrAt w' cfg0.N) = (dats m 0 c).arrAt 11 cfg0.N from
    this _ h.choose_spec
  intro w' e
  obtain rfl : w' = 11 := (by decide : ∀ w' : Fin 12, Pipeline.arrRef spec0 w' = main_v18 → w' = 11) w' (Proc.devRef_injective _ e)
  rfl

/-- The regrouping's result buffer is no window's array: at exit it holds what the region found. -/
theorem exit_result (c : Dev nD) : exitVal m c (Proc.devRef .tc main_v19) = V m c main_v19 :=
  Pipeline.withArrays_of_ne _ c (V0 m c) _ main_v19 (by decide)

/-- The two buffers the regrouping touches. -/
abbrev tailSet : Finset (DevRef τ sig) := {Proc.devRef .tc main_v18, Proc.devRef .tc main_v19}

/-- Holding them, one by one. -/
theorem held_tail (c : Dev nD) (W : Valuation τ sig (Elt F)) :
    (StableHlo.held (c.tc : Thread nD τ) tailSet W : sProp 𝕄)
      = iprop((((c.tc : Thread nD τ).loc main_v18) ↦{fullShare} W (Proc.devRef .tc main_v18))
          ∗ (((c.tc : Thread nD τ).loc main_v19) ↦{fullShare} W (Proc.devRef .tc main_v19))) := by
  unfold StableHlo.held tailSet
  rw [bigSep_insert (by simp only [Finset.mem_singleton]; exact StableHlo.devRef_ne_of_ne (by decide)), bigSep_singleton]
  rfl

/-- The regrouping touches only those two buffers and allocates nothing. -/
theorem tail_sub : ∀ ops ∈ ([hostOps1] : List (List (HloOp τ sig (Elt F)))), ∀ op ∈ ops, op.bufs ⊆ (tailSet : Finset (DevRef τ sig)) := by
  intro ops hops op hop
  simp only [List.mem_cons, List.mem_nil_iff, or_false] at hops
  subst hops
  simp only [hostOps1, List.mem_cons, List.mem_nil_iff, or_false] at hop
  subst hop
  exact fun b hb => hb
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The scores' array as the write-backs left it and the result buffer as the region found it are the two buffers held
    at the exit contents, -/
theorem held_tail_intro (c : Dev nD) :
    iprop((((c.tc : Thread nD τ).loc main_v18) ↦{fullShare} (dats m 0 c).arrAt 11 cfg0.N)
        ∗ (((c.tc : Thread nD τ).loc main_v19) ↦{fullShare} V m c main_v19))
      ⊢ (StableHlo.held (c.tc : Thread nD τ) tailSet (exitVal m c) : sProp 𝕄) := by
  rw [held_tail, exit_scores, exit_result]

/-- and after the regrouping the scores' array is unchanged and the result buffer holds the end contents. -/
theorem held_tail_elim (c : Dev nD) :
    (StableHlo.held (c.tc : Thread nD τ) tailSet (StableHlo.after (List.flatten [hostOps1]) (exitVal m c)) : sProp 𝕄)
      ⊢ iprop((((c.tc : Thread nD τ).loc main_v18) ↦{fullShare} (dats m 0 c).arrAt 11 cfg0.N)
          ∗ (((c.tc : Thread nD τ).loc main_v19) ↦{fullShare} endVal m c main_v19)) := by
  rw [held_tail, StableHlo.after_of_forall_not_mem (b := Proc.devRef .tc main_v18) _ _ ?_, exit_scores]
  · exact .rfl
  · intro op hop
    simp only [hostOps1, List.flatten_cons, List.flatten_nil, List.append_nil, List.mem_cons, List.mem_nil_iff, or_false] at hop
    subst hop
    simp only [StableHlo.reshape_writes, Finset.mem_singleton]
    exact StableHlo.devRef_ne_of_ne (by decide)

/-- Of the seventeen unscoped buffers that are no window's array, the regrouping changes only its result. -/
theorem end_main_arg0 (c : Dev nD) : endVal m c main_arg0 = V m c main_arg0 := end_keeps m c main_arg0 (by decide) (by decide)
theorem end_main_arg1 (c : Dev nD) : endVal m c main_arg1 = V m c main_arg1 := end_keeps m c main_arg1 (by decide) (by decide)
theorem end_main_arg3 (c : Dev nD) : endVal m c main_arg3 = V m c main_arg3 := end_keeps m c main_arg3 (by decide) (by decide)
theorem end_main_v1 (c : Dev nD) : endVal m c main_v1 = V m c main_v1 := end_keeps m c main_v1 (by decide) (by decide)
theorem end_main_v2 (c : Dev nD) : endVal m c main_v2 = V m c main_v2 := end_keeps m c main_v2 (by decide) (by decide)
theorem end_main_v4 (c : Dev nD) : endVal m c main_v4 = V m c main_v4 := end_keeps m c main_v4 (by decide) (by decide)
theorem end_main_v6 (c : Dev nD) : endVal m c main_v6 = V m c main_v6 := end_keeps m c main_v6 (by decide) (by decide)
theorem end_main_v7 (c : Dev nD) : endVal m c main_v7 = V m c main_v7 := end_keeps m c main_v7 (by decide) (by decide)
theorem end_main_v9 (c : Dev nD) : endVal m c main_v9 = V m c main_v9 := end_keeps m c main_v9 (by decide) (by decide)
theorem end_main_v11 (c : Dev nD) : endVal m c main_v11 = V m c main_v11 := end_keeps m c main_v11 (by decide) (by decide)
theorem end_main_v12 (c : Dev nD) : endVal m c main_v12 = V m c main_v12 := end_keeps m c main_v12 (by decide) (by decide)
theorem end_main_v14 (c : Dev nD) : endVal m c main_v14 = V m c main_v14 := end_keeps m c main_v14 (by decide) (by decide)
theorem end_main_cst (c : Dev nD) : endVal m c main_cst = V m c main_cst := end_keeps m c main_cst (by decide) (by decide)
theorem end_main_v15 (c : Dev nD) : endVal m c main_v15 = V m c main_v15 := end_keeps m c main_v15 (by decide) (by decide)
theorem end_main_c (c : Dev nD) : endVal m c main_c = V m c main_c := end_keeps m c main_c (by decide) (by decide)
theorem end_main_v16 (c : Dev nD) : endVal m c main_v16 = V m c main_v16 := end_keeps m c main_v16 (by decide) (by decide)

/-- Those seventeen buffers at the end contents, one by one: sixteen as the region found them, and the result. -/
theorem rest_end (c : Dev nD) :
    (Pipeline.unscopedRest (Ix := Unit) (Name := ℕ) (U := UR sig nD τ) (Lvl := ℕ) spec0 c (endVal m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg3) ↦{fullShare} V m c main_arg3) ∗ (((c.tc : Thread nD τ).loc main_v1) ↦{fullShare} V m c main_v1) ∗ (((c.tc : Thread nD τ).loc main_v2) ↦{fullShare} V m c main_v2) ∗ (((c.tc : Thread nD τ).loc main_v4) ↦{fullShare} V m c main_v4) ∗ (((c.tc : Thread nD τ).loc main_v6) ↦{fullShare} V m c main_v6) ∗ (((c.tc : Thread nD τ).loc main_v7) ↦{fullShare} V m c main_v7) ∗ (((c.tc : Thread nD τ).loc main_v9) ↦{fullShare} V m c main_v9) ∗ (((c.tc : Thread nD τ).loc main_v11) ↦{fullShare} V m c main_v11) ∗ (((c.tc : Thread nD τ).loc main_v12) ↦{fullShare} V m c main_v12) ∗ (((c.tc : Thread nD τ).loc main_v14) ↦{fullShare} V m c main_v14) ∗ (((c.tc : Thread nD τ).loc main_cst) ↦{fullShare} V m c main_cst) ∗ (((c.tc : Thread nD τ).loc main_v15) ↦{fullShare} V m c main_v15) ∗ (((c.tc : Thread nD τ).loc main_c) ↦{fullShare} V m c main_c) ∗ (((c.tc : Thread nD τ).loc main_v16) ↦{fullShare} V m c main_v16) ∗ (((c.tc : Thread nD τ).loc main_v19) ↦{fullShare} endVal m c main_v19)) := by
  rw [unscopedRest0_eq]
  simp only [end_main_arg0, end_main_arg1, end_main_arg3, end_main_v1, end_main_v2, end_main_v4, end_main_v6, end_main_v7, end_main_v9, end_main_v11, end_main_v12, end_main_v14, end_main_cst, end_main_v15, end_main_c, end_main_v16]

set_option maxHeartbeats 1000000 in
/-- After the region: holding the region boundary, the windows' arrays as the write-backs left them and every other
    unscoped buffer as the region found it, the regrouping runs and hands back the same arrays and the other buffers at
    the end contents. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (endVal m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain [StableHlo.seq hostOps1]) Q' := by
  rw [arrays_pts, bigSep_W0, rest_end, unscopedRest0_eq]
  simp only [share_0, share_1, share_2, share_3, share_4, share_5, share_6, share_7, share_8, share_9, share_10, share_11]
  show _ ⊢ wp frame _ Set.univ (Pipeline.chain (([hostOps1] : List (List (HloOp τ sig (Elt F)))).map StableHlo.seq ++ [])) Q'
  iintro ⟨Hk, Hb, ⟨A0, A1, A2, A3, A4, A5, A6, A7, A8, A9, A10, A11⟩, ⟨R0, R1, R2, R3, R4, R5, R6, R7, R8, R9, R10, R11, R12, R13, R14, R15, R16⟩⟩
  ihave Hh := (held_tail_intro m c) $$ [A11 R16]
  · isplitl [A11]; · iexact A11
    iexact R16
  iapply (Pipeline.wp_seqs_then (fun q => (cfgs q).toPCfg (Val := Elt F)) defs₀ Variants.none c tailSet [] [hostOps1] tail_sub tail_fresh (exitVal m c)) $$ [Hb Hh]
  · isplitl [Hb]; · iexact Hb
    iexact Hh
  iintro Hb
  rw [Pipeline.chain_nil, wp_pure]
  imodintro
  iapply Hk
  icases Hb with ⟨-, Hh⟩
  ihave Hh' := (held_tail_elim m c) $$ Hh
  icases Hh' with ⟨A11, R16⟩
  isplitl [A0 A1 A2 A3 A4 A5 A6 A7 A8 A9 A10 A11]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact R16

/-! ## The run -/

-- the launch theorem's implicit arguments are found by unifying its conclusion with this one, which takes unfolding
-- plain definitions in a metavariable's type
set_option backward.isDefEq.respectTransparency.types false in
set_option maxHeartbeats 1000000 in
/-- From any memory with zero counters every weakly fair execution of @main terminates without a fault, and in every
    final state each window's array holds what its write-backs left and every other unscoped buffer holds the end
    contents: the launch rule for a region whose windows may share arrays, with the entry split above and the regrouping
    after the region run by hand. -/
theorem run_main : θ_run defs (onTc (τ := τ) (main (F := F))) (s₀ m ρ) (Pipeline.FramePost cfgs (dats m) 0 (endVal m)) :=
  Pipeline.θ_run_region_pf_tail (pcfgs (F := F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (endVal m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ Pipeline.restRefs sig spec0, s.mem ((c.tc : Thread nD τ).loc b) = endVal m c b)
    (hY := fun c s' => by
      iintro ⟨-, HU, HSI⟩
      unfold Pipeline.unscopedRest
      imodintro
      iapply (pointsTo_read_all (Pipeline.restRefs sig spec0) (fun b => (c.tc : Thread nD τ).loc b) (endVal m c) s')
      isplitl [HU] <;> iassumption)
    (hQ := fun s h c => ⟨(h c).1, (h c).2.2⟩)

end Cert.KernelIdeal.Launch

end
-- ==== Proof.KernelIdealFrame.lean ====
/-
  The kernel's launch, read: the arguments end as launched, and the result buffer ends at the regrouped scores.

  Of the five arguments, the first layer's bias and the second layer's bias are read by the region directly, each
  through an input window, and an input window's array is never written back; the other three (x, the first layer's
  weights, the second layer's weights) are read only by host operations before the region, so they are among the buffers
  the region does not touch, and the regrouping after the region writes only its result. Before the region no host
  operation writes an argument either: each writes one buffer of its own. So every argument ends as launched.

  The result buffer is written once, by the regrouping after the region, from the array of scores as the region's
  write-backs left it.
-/
import proofs.«102689_j33998961115715_2_alg».proof.Proof.KernelIdealRun

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments as the region finds them -/

/-- No host operation before the region writes an argument: the region finds each as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))

/-! ## The arguments at the end -/

/-- In any final state of the launch's post every argument is as launched: the two biases are input windows' arrays,
    never written back; the other three are buffers the region leaves alone and the regrouping does not write. -/
theorem args_kept (r : PUnit × MemSt nD τ sig (Elt F)) (h : Pipeline.FramePost cfgs (dats m) 0 (endVal m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans ((end_main_arg0 m c).trans (V_arg0 m c)),
    ((h c).2 main_arg1 (Pipeline.mem_restRefs_of main_arg1 (by decide) (by decide))).trans ((end_main_arg1 m c).trans (V_arg1 m c)),
    ((h c).1 8).trans (((dats m 0 c).arrAt_in 8 rfl _).trans ((A_eq m c 8).trans (V_arg2 m c))),
    ((h c).2 main_arg3 (Pipeline.mem_restRefs_of main_arg3 (by decide) (by decide))).trans ((end_main_arg3 m c).trans (V_arg3 m c)),
    ((h c).1 10).trans (((dats m 0 c).arrAt_in 10 rfl _).trans ((A_eq m c 10).trans (V_arg4 m c)))⟩

/-- THE FRAME: from any memory with zero counters the launch runs to the end without a fault and every argument ends as
    launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

/-! ## The result -/

/-- The result buffer at the end is the regrouping of the array of scores as the region's write-backs left it. -/
theorem end_result (c : Dev nD) :
    endVal m c main_v19
      = fun i => shapeCast S4x128x128x24x4 ((dats m 0 c).arrAt 11 cfg0.N) shapeCasts_S4x128x128x96_S4x128x128x24x4 i := by
  unfold endVal Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18)
      = (dats m 0 c).arrAt 11 cfg0.N := exit_scores m c
  rw [e]
  rfl

/-- The run, read for the value: the result buffer ends at the end contents, and every argument ends as launched. -/
theorem result_main : θ_run defs (onTc (τ := τ) (main (F := F))) ⟨m, fun _ => 0, ρ⟩ (fun r => ∀ c : Dev nD,
      r.2.mem ((c.tc : Thread nD τ).loc main_v19) = endVal m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).2 main_v19 (Pipeline.mem_restRefs_of main_v19 (by decide) (by decide)), args_kept m r h c⟩)
    (run_main m ρ)

end Cert.KernelIdeal.Launch

end
-- ==== Proof.LibScatterSet.lean ====
/-
  A host scatter whose body returns the update (jnp's `.at[…].set`), read at one index of the result.

  `Host.scatter` is a left fold over the update positions in row-major order: each position whose result index
  lies inside the operand overwrites that one element with its update. Read at an index `i`:
  * if no update position lands on `i`, the operand's element is still there;
  * if some update position lands on `i`, and every position landing on `i` carries the same value, that value
    is there — in particular when the landing positions are pairwise distinct.
  Both are statements about a fold of point overwrites over any list, proved first in that generality: the step
  is any function that, at a position landing on `k`, puts the position's value at `k` and leaves every other
  index, and at a position landing nowhere changes nothing.
-/
import Idealize.ShloMosaic.PureOps

namespace Idealize.ShloMosaic

section Fold

variable {ι β α : Type} (g : β → Option ι) (v : β → α) (step : (ι → α) → β → ι → α)

/-- An index no position of the list lands on keeps its value through the fold. -/
theorem foldl_set_apply_of_miss
    (hoff : ∀ r n k i', g n = some k → i' ≠ k → step r n i' = r i') (hnone : ∀ r n, g n = none → step r n = r) (i : ι) :
    ∀ (l : List β) (x : ι → α), (∀ n ∈ l, g n ≠ some i) → (l.foldl step x) i = x i
  | [], _, _ => rfl
  | a :: l, x, h => by
    rw [List.foldl_cons, foldl_set_apply_of_miss hoff hnone i l _ fun n hn => h n (List.mem_cons_of_mem _ hn)]
    have ha : g a ≠ some i := h a List.mem_cons_self
    cases hga : g a with
    | none => rw [hnone x a hga]
    | some k => exact hoff x a k i hga fun e => ha (by rw [hga, e])

/-- An index some position of the list lands on, all such positions carrying the value `v₀`, ends at `v₀`. -/
theorem foldl_set_apply_of_hit (hhit : ∀ r n k, g n = some k → step r n k = v n)
    (hoff : ∀ r n k i', g n = some k → i' ≠ k → step r n i' = r i') (hnone : ∀ r n, g n = none → step r n = r)
    (i : ι) (v₀ : α) :
    ∀ (l : List β) (x : ι → α), (∃ n ∈ l, g n = some i) → (∀ n ∈ l, g n = some i → v n = v₀) →
      (l.foldl step x) i = v₀
  | [], _, ⟨_, hn, _⟩, _ => absurd hn List.not_mem_nil
  | a :: l, x, hex, hval => by
    rw [List.foldl_cons]
    by_cases hl : ∃ n ∈ l, g n = some i
    · exact foldl_set_apply_of_hit hhit hoff hnone i v₀ l _ hl fun n hn => hval n (List.mem_cons_of_mem _ hn)
    · have hmiss : ∀ n ∈ l, g n ≠ some i := fun n hn e => hl ⟨n, hn, e⟩
      rw [foldl_set_apply_of_miss g step hoff hnone i l _ hmiss]
      obtain ⟨n, hn, hgn⟩ := hex
      have hna : n = a := by
        rcases List.mem_cons.1 hn with e | e
        · exact e
        · exact absurd hgn (hmiss n e)
      subst hna
      rw [hhit x n i hgn]
      exact hval n List.mem_cons_self hgn

end Fold

section Scatter

variable {s si u : Shape} {w : Nat} {α : Type}

/-- `.at[…].set` read at an index no update lands on: the operand's element. -/
theorem Host.scatter_set_apply_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  refine foldl_set_apply_of_miss (fun n => d.resultIdx? (u.rowMajor.symm n) idx) _ ?_ ?_ i _ x fun n _ => h _
  · intro r n k i' hk hne; simp only [hk, if_neg hne]
  · intro r n hk; simp only [hk]

/-- `.at[…].set` read at an index the update position `j` lands on, when every position landing there carries
    the same value (for instance because `j` is the only one): that update. -/
theorem Host.scatter_set_apply_of_hit (d : ScatterDims s si u) (x : s.Idx → α) (idx : IVec si w) (upd : u.Idx → α)
    (i : s.Idx) (j : u.Idx) (hj : d.resultIdx? j idx = some i)
    (huniq : ∀ j' : u.Idx, d.resultIdx? j' idx = some i → upd j' = upd j) :
    Host.scatter d (fun _ b => b) x idx upd i = upd j := by
  unfold Host.scatter
  refine foldl_set_apply_of_hit (fun n => d.resultIdx? (u.rowMajor.symm n) idx) (fun n => upd (u.rowMajor.symm n)) _
    ?_ ?_ ?_ i _ _ x ⟨u.rowMajor j, List.mem_finRange _, ?_⟩ fun n _ hn => huniq _ hn
  · intro r n k hk; simp only [hk, if_true]
  · intro r n k i' hk hne; simp only [hk, if_neg hne]
  · intro r n hk; simp only [hk]
  · show d.resultIdx? (u.rowMajor.symm (u.rowMajor j)) idx = some i
    rw [Equiv.symm_apply_apply]; exact hj

/-- An update position lands on `i` exactly when on every axis its window's start plus its coordinate inside the
    window is `i`'s coordinate (the start read signed and not clamped: a position whose sum leaves the operand on
    some axis lands nowhere). -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have h1 := congrArg Fin.val (congrFun e a)
      have h2 := (h a).1
      simp only at h1
      omega
    · intro e
      funext a
      apply Fin.ext
      have h1 := e a
      have h2 := (h a).1
      show (d.start j idx a + (d.window j a : Int)).toNat = (i a).val
      omega
  · rename_i h
    constructor
    · intro e; cases e
    · intro e
      exfalso
      apply h
      intro a
      have h1 := e a
      have h2 := (i a).isLt
      constructor <;> omega

end Scatter

end Idealize.ShloMosaic
-- ==== Proof.KernelIdealEntry.lean ====
/-
  What the region finds in each window's array, read at an index, on the extended reals.

  Before the region the host splits x and each half of the first layer's weights into a high part (the number
  carried to the narrower format) and a low part (the number minus its high part carried back), and pads the second
  layer's weights from 96 to 128 columns with zeros. On the extended reals a change of format is the identity, so
  a high part is the number itself and a low part is the number minus itself; a slice reads its operand shifted by
  the slice's offsets; the padded array, at a column below 96, holds the second layer's weight. The two biases are
  arguments no host operation writes.
-/
import proofs.«102689_j33998961115715_2_alg».proof.Proof.KernelIdealPoints
import proofs.«102689_j33998961115715_2_alg».proof.Proof.LibScatterSet
import Idealize.ShloMosaic.Lib.ValueIdx
import Idealize.ShloMosaic.Lib.Pipeline.Value
import Idealize.ShloMosaic.Lib.StableHlo.Run
import Idealize.ShloMosaic.PureOps.Ideal

noncomputable section

namespace Cert.KernelIdeal.Entry

open Cert.KernelIdeal Cert.KernelIdeal.Gen Cert.KernelIdeal.Launch
open Idealize.ShloMosaic Idealize.ShloMosaic.TcCoe Idealize.ShloMosaic.ValueIdx Idealize.SL.Sem

variable (m : (ℓ : Loc nD τ sig) → Buf (Elt Ideal) ℓ) (c : Dev nD)

/-! ## The five arguments as launched -/

/-- The rows x, as launched on core c. -/
abbrev argX : S4x128x768.Idx → EReal := m ((c : Thread nD τ).loc main_arg0)
/-- The first layer's weights. -/
abbrev argW1 : S1536x2304.Idx → EReal := m ((c : Thread nD τ).loc main_arg1)
/-- The first layer's bias. -/
abbrev argB1 : S2304.Idx → EReal := m ((c : Thread nD τ).loc main_arg2)
/-- The second layer's weights. -/
abbrev argW2 : S2304x96.Idx → EReal := m ((c : Thread nD τ).loc main_arg3)
/-- The second layer's bias. -/
abbrev argB2 : S96.Idx → EReal := m ((c : Thread nD τ).loc main_arg4)

/-! ## The two parts of x -/

/-- The high part of x is x: a change of format is the identity on the extended reals. -/
theorem V_x_hi (i : S4x128x768.Idx) : V m c main_v0 i = argX m c i := by
  have e : @Eq (S4x128x768.Idx → EReal) (V m c main_v0)
      (truncf (F := Ideal) (φ := .f32) .bf16 (argX m c) bitsLt_bf16_f32) := by
    dsimp only [V, V0]
    simp only [hostOps0, List.flatten_cons, List.flatten_nil, List.append_nil, List.cons_append, List.nil_append]
    after_results
  exact congrFun e i

/-- The low part of x is x minus its high part: x - x. -/
theorem V_x_lo (i : S4x128x768.Idx) :
    V m c main_v3 i = argX m c i - argX m c i := by
  have e : @Eq (S4x128x768.Idx → EReal) (V m c main_v3)
      (truncf (F := Ideal) (φ := .f32) .bf16
        (subf (F := Ideal) (φ := .f32) (argX m c)
          (extf (F := Ideal) (φ := .bf16) .f32
            (truncf (F := Ideal) (φ := .f32) .bf16 (argX m c) bitsLt_bf16_f32) bitsLt_bf16_f32))
        bitsLt_bf16_f32) := by
    dsimp only [V, V0]
    simp only [hostOps0, List.flatten_cons, List.flatten_nil, List.append_nil, List.cons_append, List.nil_append]
    after_results
  exact congrFun e i

/-! ## The two halves of the first layer's weights, each in two parts -/

/-- Rows 0 to 767 of the first layer's weights, read at (h, k). -/
theorem slice_head (W1 : S1536x2304.Idx → EReal) (h : Fin 768) (k : Fin 2304) :
    extractStridedSlice S768x2304 ![0, 0] W1 slices_S1536x2304_S768x2304_0_0 (ix2 h k)
      = W1 (ix2 (⟨h.val, by have := h.isLt; omega⟩ : Fin 1536) k) :=
  extractStridedSlice_apply ![0, 0] W1 slices_S1536x2304_S768x2304_0_0 (ix2 h k) _ (fun a => match a with
    | ⟨0, _⟩ => by show h.val = 0 + h.val; omega
    | ⟨1, _⟩ => by show k.val = 0 + k.val; omega)

/-- Rows 768 to 1535 of the first layer's weights, read at (h, k). -/
theorem slice_tail (W1 : S1536x2304.Idx → EReal) (h : Fin 768) (k : Fin 2304) :
    extractStridedSlice S768x2304 ![768, 0] W1 slices_S1536x2304_S768x2304_768_0 (ix2 h k)
      = W1 (ix2 (⟨768 + h.val, by have := h.isLt; omega⟩ : Fin 1536) k) :=
  extractStridedSlice_apply ![768, 0] W1 slices_S1536x2304_S768x2304_768_0 (ix2 h k) _ (fun a => match a with
    | ⟨0, _⟩ => by show 768 + h.val = 768 + h.val; omega
    | ⟨1, _⟩ => by show k.val = 0 + k.val; omega)

/-- The high part of the head half is the head half. -/
theorem V_head_hi (h : Fin 768) (k : Fin 2304) :
    V m c main_v5 (ix2 h k)
      = argW1 m c (ix2 (⟨h.val, by have := h.isLt; omega⟩ : Fin 1536) k) := by
  have e : @Eq (S768x2304.Idx → EReal) (V m c main_v5)
      (truncf (F := Ideal) (φ := .f32) .bf16
        (extractStridedSlice S768x2304 ![0, 0] (argW1 m c) slices_S1536x2304_S768x2304_0_0)
        bitsLt_bf16_f32) := by
    dsimp only [V, V0]
    simp only [hostOps0, List.flatten_cons, List.flatten_nil, List.append_nil, List.cons_append, List.nil_append]
    after_results
  exact (congrFun e (ix2 h k)).trans (slice_head _ h k)

/-- The low part of the head half is the head half minus itself. -/
theorem V_head_lo (h : Fin 768) (k : Fin 2304) :
    V m c main_v8 (ix2 h k)
      = argW1 m c (ix2 (⟨h.val, by have := h.isLt; omega⟩ : Fin 1536) k)
        - argW1 m c (ix2 (⟨h.val, by have := h.isLt; omega⟩ : Fin 1536) k) := by
  have e : @Eq (S768x2304.Idx → EReal) (V m c main_v8)
      (truncf (F := Ideal) (φ := .f32) .bf16
        (subf (F := Ideal) (φ := .f32)
          (extractStridedSlice S768x2304 ![0, 0] (argW1 m c) slices_S1536x2304_S768x2304_0_0)
          (extf (F := Ideal) (φ := .bf16) .f32
            (truncf (F := Ideal) (φ := .f32) .bf16
              (extractStridedSlice S768x2304 ![0, 0] (argW1 m c) slices_S1536x2304_S768x2304_0_0)
              bitsLt_bf16_f32) bitsLt_bf16_f32))
        bitsLt_bf16_f32) := by
    dsimp only [V, V0]
    simp only [hostOps0, List.flatten_cons, List.flatten_nil, List.append_nil, List.cons_append, List.nil_append]
    after_results
  refine (congrFun e (ix2 h k)).trans ?_
  show extractStridedSlice S768x2304 ![0, 0] (argW1 m c) slices_S1536x2304_S768x2304_0_0 (ix2 h k)
      - extractStridedSlice S768x2304 ![0, 0] (argW1 m c) slices_S1536x2304_S768x2304_0_0 (ix2 h k) = _
  rw [slice_head]

/-- The high part of the tail half is the tail half. -/
theorem V_tail_hi (h : Fin 768) (k : Fin 2304) :
    V m c main_v10 (ix2 h k)
      = argW1 m c (ix2 (⟨768 + h.val, by have := h.isLt; omega⟩ : Fin 1536) k) := by
  have e : @Eq (S768x2304.Idx → EReal) (V m c main_v10)
      (truncf (F := Ideal) (φ := .f32) .bf16
        (extractStridedSlice S768x2304 ![768, 0] (argW1 m c) slices_S1536x2304_S768x2304_768_0)
        bitsLt_bf16_f32) := by
    dsimp only [V, V0]
    simp only [hostOps0, List.flatten_cons, List.flatten_nil, List.append_nil, List.cons_append, List.nil_append]
    after_results
  exact (congrFun e (ix2 h k)).trans (slice_tail _ h k)

/-- The low part of the tail half is the tail half minus itself. -/
theorem V_tail_lo (h : Fin 768) (k : Fin 2304) :
    V m c main_v13 (ix2 h k)
      = argW1 m c (ix2 (⟨768 + h.val, by have := h.isLt; omega⟩ : Fin 1536) k)
        - argW1 m c (ix2 (⟨768 + h.val, by have := h.isLt; omega⟩ : Fin 1536) k) := by
  have e : @Eq (S768x2304.Idx → EReal) (V m c main_v13)
      (truncf (F := Ideal) (φ := .f32) .bf16
        (subf (F := Ideal) (φ := .f32)
          (extractStridedSlice S768x2304 ![768, 0] (argW1 m c) slices_S1536x2304_S768x2304_768_0)
          (extf (F := Ideal) (φ := .bf16) .f32
            (truncf (F := Ideal) (φ := .f32) .bf16
              (extractStridedSlice S768x2304 ![768, 0] (argW1 m c) slices_S1536x2304_S768x2304_768_0)
              bitsLt_bf16_f32) bitsLt_bf16_f32))
        bitsLt_bf16_f32) := by
    dsimp only [V, V0]
    simp only [hostOps0, List.flatten_cons, List.flatten_nil, List.append_nil, List.cons_append, List.nil_append]
    after_results
  refine (congrFun e (ix2 h k)).trans ?_
  show extractStridedSlice S768x2304 ![768, 0] (argW1 m c) slices_S1536x2304_S768x2304_768_0 (ix2 h k)
      - extractStridedSlice S768x2304 ![768, 0] (argW1 m c) slices_S1536x2304_S768x2304_768_0 (ix2 h k) = _
  rw [slice_tail]

/-! ## The two biases: no host operation writes an argument -/

/-- The first layer's bias enters the region as launched. -/
theorem V_b1 : V m c main_arg2 = argB1 m c := by
  dsimp only [V, V0]
  simp only [hostOps0, List.flatten_cons, List.flatten_nil, List.append_nil, List.cons_append, List.nil_append]
  after_results

/-- The second layer's bias enters the region as launched. -/
theorem V_b2 : V m c main_arg4 = argB2 m c := by
  dsimp only [V, V0]
  simp only [hostOps0, List.flatten_cons, List.flatten_nil, List.append_nil, List.cons_append, List.nil_append]
  after_results

/-! ## The second layer's weights, padded to 128 columns

The padding is zeros(2304, 128) with W2 written over columns 0 to 95: a scatter whose one start index is the
constant 0, so update position (k, o) lands on (k, o). -/

/-- No start index is read for the rows: their windows start at 0. -/
theorem pad_start_row (idx : IVec S1 32) (j : S2304x96.Idx) :
    scatter_S2304x128_S1_S2304x96_01_n_1_0.start j idx 0 = 0 := by
  unfold ScatterDims.start
  rw [dif_neg (show ¬(0 : Fin S2304x128.rank) ∈ scatter_S2304x128_S1_S2304x96_01_n_1_0.scatterDimsToOperandDims by decide)]

/-- The columns' windows start at the one start index, which is zero. -/
theorem pad_start_col (idx : IVec S1 32) (hidx : ∀ q, idx q = 0#32) (j : S2304x96.Idx) :
    scatter_S2304x128_S1_S2304x96_01_n_1_0.start j idx 1 = 0 := by
  unfold ScatterDims.start
  rw [dif_pos (show (1 : Fin S2304x128.rank) ∈ scatter_S2304x128_S1_S2304x96_01_n_1_0.scatterDimsToOperandDims by decide), hidx]
  rfl

/-- The window coordinate of an update position on the rows is its row … -/
theorem pad_window_row (j : S2304x96.Idx) : scatter_S2304x128_S1_S2304x96_01_n_1_0.window j 0 = (j 0).val := by
  unfold ScatterDims.window
  rw [dif_pos (show (0 : Fin S2304x128.rank) ∈ scatter_S2304x128_S1_S2304x96_01_n_1_0.sKept by decide)]
  rfl

/-- … and on the columns its column. -/
theorem pad_window_col (j : S2304x96.Idx) : scatter_S2304x128_S1_S2304x96_01_n_1_0.window j 1 = (j 1).val := by
  unfold ScatterDims.window
  rw [dif_pos (show (1 : Fin S2304x128.rank) ∈ scatter_S2304x128_S1_S2304x96_01_n_1_0.sKept by decide)]
  rfl

/-- An update position lands on (k, o) exactly when it is (k, o). -/
theorem pad_lands_iff (idx : IVec S1 32) (hidx : ∀ q, idx q = 0#32) (j : S2304x96.Idx) (i : S2304x128.Idx) :
    scatter_S2304x128_S1_S2304x96_01_n_1_0.resultIdx? j idx = some i ↔ (j 0).val = (i 0).val ∧ (j 1).val = (i 1).val := by
  rw [ScatterDims.resultIdx?_eq_some_iff]
  constructor
  · intro h
    have h0 := h 0
    have h1 := h 1
    rw [pad_start_row, pad_window_row] at h0
    rw [pad_start_col idx hidx, pad_window_col] at h1
    constructor <;> omega
  · intro h a
    match a with
    | ⟨0, _⟩ =>
      show scatter_S2304x128_S1_S2304x96_01_n_1_0.start j idx 0 + (scatter_S2304x128_S1_S2304x96_01_n_1_0.window j 0 : Int) = ((i 0).val : Int)
      rw [pad_start_row, pad_window_row]; omega
    | ⟨1, _⟩ =>
      show scatter_S2304x128_S1_S2304x96_01_n_1_0.start j idx 1 + (scatter_S2304x128_S1_S2304x96_01_n_1_0.window j 1 : Int) = ((i 1).val : Int)
      rw [pad_start_col idx hidx, pad_window_col]; omega

/-- The padded array read at a column below 96 is the update there. -/
theorem pad_apply {α : Type} (x : S2304x128.Idx → α) (idx : IVec S1 32) (hidx : ∀ q, idx q = 0#32) (upd : S2304x96.Idx → α)
    (k : Fin 2304) (o : Fin 96) :
    Host.scatter scatter_S2304x128_S1_S2304x96_01_n_1_0 (fun _ b => b) x idx upd
        (ix2 k (⟨o.val, by have := o.isLt; omega⟩ : Fin 128)) = upd (ix2 k o) := by
  refine Host.scatter_set_apply_of_hit _ x idx upd _ (ix2 k o) ((pad_lands_iff idx hidx _ _).2 ⟨rfl, rfl⟩) fun j' hj' => ?_
  obtain ⟨h0, h1⟩ := (pad_lands_iff idx hidx _ _).1 hj'
  refine congrArg upd ?_
  rw [eq_ix2 j']
  exact congrArg₂ ix2 (Fin.ext h0) (Fin.ext h1)

/-- The padded second layer's weights at a column below 96 are the second layer's weights. -/
theorem V_W2_pad (k : Fin 2304) (o : Fin 96) :
    V m c main_v17 (ix2 k (⟨o.val, by have := o.isLt; omega⟩ : Fin 128)) = argW2 m c (ix2 k o) := by
  have e : @Eq (S2304x128.Idx → EReal) (V m c main_v17)
      (Host.scatter scatter_S2304x128_S1_S2304x96_01_n_1_0 (fun _ b => b)
        (broadcastInDim S2304x128 ![] bcast_S_S2304x128 (constant (F := Ideal) S_ .bf16 0x0000#16))
        (broadcastInDim S1 ![] bcast_S_S1 (constantI S_ 32 0#32))
        (truncf (F := Ideal) (φ := .f32) .bf16 (argW2 m c) bitsLt_bf16_f32)) := by
    dsimp only [V, V0]
    simp only [hostOps0, List.flatten_cons, List.flatten_nil, List.append_nil, List.cons_append, List.nil_append]
    after_results
  exact (congrFun e _).trans (pad_apply _ _ (fun _ => rfl) _ k o)

end Cert.KernelIdeal.Entry

end
-- ==== Proof.BlockValue.lean ====
/-
  The block the kernel body stores, read at one index.

  The body works on 16 query rows p and all 128 key rows j of one batch entry. Each input comes split into a
  high and a low part, and the first layer is computed as three products per half (high·high, high·low,
  low·high), summed in that order. For an output column o < 96,

      stored (0, p, j, o) = (∑ k < 2304, max ((head p k + bias₁ k) + tail j k) 0 * W₂ k o) + bias₂ o,
      head p k = ((∑ h, a p h * U h k) + (∑ h, a p h * U' h k)) + (∑ h, a' p h * U h k),
      tail j k = ((∑ h, x j h * V h k) + (∑ h, x j h * V' h k)) + (∑ h, x' j h * V h k),

  on the extended reals, where the format changes are the identity. Every step below reads ONE operation at
  an index given by coordinates: a matrix product into a zero accumulator is the sum over the contracted
  coordinate; a reshape keeps the row-major position; a broadcast repeats along the new axis; a slice at
  offset 0 keeps the coordinates.
-/
import proofs.«102689_j33998961115715_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PairScore.Block

open Idealize.ShloMosaic Idealize.ShloMosaic.ValueIdx Cert.KernelIdeal Cert.KernelIdeal.Gen

variable [Cert.KernelIdeal.Facts]

/-! ## The zero of the narrow format -/

/-- The all-zero 16-bit pattern denotes the extended real 0. -/
theorem ofBits_zero_bf16 : Ideal.ofBits .bf16 0x0000#16 = 0 := by simp [Ideal.ofBits, Ideal.ieee]

/-! ## The three matrix products into a zero accumulator -/

/-- The left operand's row coordinate is the output's row coordinate. -/
theorem lhs_row_16 (i : S16x2304.Idx) (q : dot_S16x768_S768x2304_S16x2304_1_0_0_1_n_n.contr.Idx) : (dot_S16x768_S768x2304_S16x2304_1_0_0_1_n_n.lhsIdx i q 0).val = (i 0).val := by
  unfold DotDims.lhsIdx
  rw [dif_neg (show ¬(0 : Fin S16x768.rank) ∈ dot_S16x768_S768x2304_S16x2304_1_0_0_1_n_n.lhsBatch by decide),
    dif_pos (show (0 : Fin S16x768.rank) ∈ dot_S16x768_S768x2304_S16x2304_1_0_0_1_n_n.lhsNonContracting by decide)]
  rfl

/-- The right operand's column coordinate is the output's column coordinate. -/
theorem rhs_col_16 (i : S16x2304.Idx) (q : dot_S16x768_S768x2304_S16x2304_1_0_0_1_n_n.contr.Idx) : (dot_S16x768_S768x2304_S16x2304_1_0_0_1_n_n.rhsIdx i q 1).val = (i 1).val := by
  unfold DotDims.rhsIdx
  rw [dif_neg (show ¬(1 : Fin S768x2304.rank) ∈ dot_S16x768_S768x2304_S16x2304_1_0_0_1_n_n.rhsBatch by decide),
    dif_pos (show (1 : Fin S768x2304.rank) ∈ dot_S16x768_S768x2304_S16x2304_1_0_0_1_n_n.rhsNonContracting by decide)]
  rfl

/-- 16 rows of length 768 times a 768 × 2304 matrix, into the zero accumulator: at (p, k), the sum over the contracted coordinate. -/
theorem matmul_16_apply (a : FVec Ideal S16x768 .bf16) (w : FVec Ideal S768x2304 .bf16) (p : Fin 16) (k : Fin 2304) :
    matmul (F := Ideal) dot_S16x768_S768x2304_S16x2304_1_0_0_1_n_n none a w (constant (F := Ideal) S16x2304 .f32 0x00000000#32) (ix2 p k)
      = ∑ h : Fin 768, a (ix2 p h) * w (ix2 h k) := by
  refine (Ideal.matmul_constant_zero_apply dot_S16x768_S768x2304_S16x2304_1_0_0_1_n_n none a w (ix2 p k)).trans ?_
  rw [← Equiv.sum_comp (contrEquiv1 dot_S16x768_S768x2304_S16x2304_1_0_0_1_n_n 768 rfl rfl).symm]
  refine Finset.sum_congr rfl fun h _ => ?_
  have hk := contrEquiv1_symm_val dot_S16x768_S768x2304_S16x2304_1_0_0_1_n_n 768 rfl rfl h
  have el : dot_S16x768_S768x2304_S16x2304_1_0_0_1_n_n.lhsIdx (ix2 p k) ((contrEquiv1 dot_S16x768_S768x2304_S16x2304_1_0_0_1_n_n 768 rfl rfl).symm h) = ix2 p h :=
    funext fun c => Fin.ext (by
      match c with
      | ⟨0, _⟩ => exact lhs_row_16 _ _
      | ⟨1, _⟩ => exact (dot_S16x768_S768x2304_S16x2304_1_0_0_1_n_n.lhsIdx_val_of_single rfl _ _).trans hk)
  have er : dot_S16x768_S768x2304_S16x2304_1_0_0_1_n_n.rhsIdx (ix2 p k) ((contrEquiv1 dot_S16x768_S768x2304_S16x2304_1_0_0_1_n_n 768 rfl rfl).symm h) = ix2 h k :=
    funext fun c => Fin.ext (by
      match c with
      | ⟨0, _⟩ => exact (dot_S16x768_S768x2304_S16x2304_1_0_0_1_n_n.rhsIdx_val_of_single rfl _ _).trans hk
      | ⟨1, _⟩ => exact rhs_col_16 _ _)
  rw [el, er]

/-- The left operand's row coordinate is the output's row coordinate. -/
theorem lhs_row_128 (i : S128x2304.Idx) (q : dot_S128x768_S768x2304_S128x2304_1_0_0_1_n_n.contr.Idx) : (dot_S128x768_S768x2304_S128x2304_1_0_0_1_n_n.lhsIdx i q 0).val = (i 0).val := by
  unfold DotDims.lhsIdx
  rw [dif_neg (show ¬(0 : Fin S128x768.rank) ∈ dot_S128x768_S768x2304_S128x2304_1_0_0_1_n_n.lhsBatch by decide),
    dif_pos (show (0 : Fin S128x768.rank) ∈ dot_S128x768_S768x2304_S128x2304_1_0_0_1_n_n.lhsNonContracting by decide)]
  rfl

/-- The right operand's column coordinate is the output's column coordinate. -/
theorem rhs_col_128 (i : S128x2304.Idx) (q : dot_S128x768_S768x2304_S128x2304_1_0_0_1_n_n.contr.Idx) : (dot_S128x768_S768x2304_S128x2304_1_0_0_1_n_n.rhsIdx i q 1).val = (i 1).val := by
  unfold DotDims.rhsIdx
  rw [dif_neg (show ¬(1 : Fin S768x2304.rank) ∈ dot_S128x768_S768x2304_S128x2304_1_0_0_1_n_n.rhsBatch by decide),
    dif_pos (show (1 : Fin S768x2304.rank) ∈ dot_S128x768_S768x2304_S128x2304_1_0_0_1_n_n.rhsNonContracting by decide)]
  rfl

/-- 128 rows of length 768 times a 768 × 2304 matrix, into the zero accumulator: at (p, k), the sum over the contracted coordinate. -/
theorem matmul_128_apply (a : FVec Ideal S128x768 .bf16) (w : FVec Ideal S768x2304 .bf16) (p : Fin 128) (k : Fin 2304) :
    matmul (F := Ideal) dot_S128x768_S768x2304_S128x2304_1_0_0_1_n_n none a w (constant (F := Ideal) S128x2304 .f32 0x00000000#32) (ix2 p k)
      = ∑ h : Fin 768, a (ix2 p h) * w (ix2 h k) := by
  refine (Ideal.matmul_constant_zero_apply dot_S128x768_S768x2304_S128x2304_1_0_0_1_n_n none a w (ix2 p k)).trans ?_
  rw [← Equiv.sum_comp (contrEquiv1 dot_S128x768_S768x2304_S128x2304_1_0_0_1_n_n 768 rfl rfl).symm]
  refine Finset.sum_congr rfl fun h _ => ?_
  have hk := contrEquiv1_symm_val dot_S128x768_S768x2304_S128x2304_1_0_0_1_n_n 768 rfl rfl h
  have el : dot_S128x768_S768x2304_S128x2304_1_0_0_1_n_n.lhsIdx (ix2 p k) ((contrEquiv1 dot_S128x768_S768x2304_S128x2304_1_0_0_1_n_n 768 rfl rfl).symm h) = ix2 p h :=
    funext fun c => Fin.ext (by
      match c with
      | ⟨0, _⟩ => exact lhs_row_128 _ _
      | ⟨1, _⟩ => exact (dot_S128x768_S768x2304_S128x2304_1_0_0_1_n_n.lhsIdx_val_of_single rfl _ _).trans hk)
  have er : dot_S128x768_S768x2304_S128x2304_1_0_0_1_n_n.rhsIdx (ix2 p k) ((contrEquiv1 dot_S128x768_S768x2304_S128x2304_1_0_0_1_n_n 768 rfl rfl).symm h) = ix2 h k :=
    funext fun c => Fin.ext (by
      match c with
      | ⟨0, _⟩ => exact (dot_S128x768_S768x2304_S128x2304_1_0_0_1_n_n.rhsIdx_val_of_single rfl _ _).trans hk
      | ⟨1, _⟩ => exact rhs_col_128 _ _)
  rw [el, er]

/-- The left operand's row coordinate is the output's row coordinate. -/
theorem lhs_row_2048 (i : S2048x128.Idx) (q : dot_S2048x2304_S2304x128_S2048x128_1_0_0_1_n_n.contr.Idx) : (dot_S2048x2304_S2304x128_S2048x128_1_0_0_1_n_n.lhsIdx i q 0).val = (i 0).val := by
  unfold DotDims.lhsIdx
  rw [dif_neg (show ¬(0 : Fin S2048x2304.rank) ∈ dot_S2048x2304_S2304x128_S2048x128_1_0_0_1_n_n.lhsBatch by decide),
    dif_pos (show (0 : Fin S2048x2304.rank) ∈ dot_S2048x2304_S2304x128_S2048x128_1_0_0_1_n_n.lhsNonContracting by decide)]
  rfl

/-- The right operand's column coordinate is the output's column coordinate. -/
theorem rhs_col_2048 (i : S2048x128.Idx) (q : dot_S2048x2304_S2304x128_S2048x128_1_0_0_1_n_n.contr.Idx) : (dot_S2048x2304_S2304x128_S2048x128_1_0_0_1_n_n.rhsIdx i q 1).val = (i 1).val := by
  unfold DotDims.rhsIdx
  rw [dif_neg (show ¬(1 : Fin S2304x128.rank) ∈ dot_S2048x2304_S2304x128_S2048x128_1_0_0_1_n_n.rhsBatch by decide),
    dif_pos (show (1 : Fin S2304x128.rank) ∈ dot_S2048x2304_S2304x128_S2048x128_1_0_0_1_n_n.rhsNonContracting by decide)]
  rfl

/-- 2048 rows of length 2304 times a 2304 × 128 matrix, into the zero accumulator: at (p, k), the sum over the contracted coordinate. -/
theorem matmul_2048_apply (a : FVec Ideal S2048x2304 .bf16) (w : FVec Ideal S2304x128 .bf16) (p : Fin 2048) (k : Fin 128) :
    matmul (F := Ideal) dot_S2048x2304_S2304x128_S2048x128_1_0_0_1_n_n none a w (constant (F := Ideal) S2048x128 .f32 0x00000000#32) (ix2 p k)
      = ∑ h : Fin 2304, a (ix2 p h) * w (ix2 h k) := by
  refine (Ideal.matmul_constant_zero_apply dot_S2048x2304_S2304x128_S2048x128_1_0_0_1_n_n none a w (ix2 p k)).trans ?_
  rw [← Equiv.sum_comp (contrEquiv1 dot_S2048x2304_S2304x128_S2048x128_1_0_0_1_n_n 2304 rfl rfl).symm]
  refine Finset.sum_congr rfl fun h _ => ?_
  have hk := contrEquiv1_symm_val dot_S2048x2304_S2304x128_S2048x128_1_0_0_1_n_n 2304 rfl rfl h
  have el : dot_S2048x2304_S2304x128_S2048x128_1_0_0_1_n_n.lhsIdx (ix2 p k) ((contrEquiv1 dot_S2048x2304_S2304x128_S2048x128_1_0_0_1_n_n 2304 rfl rfl).symm h) = ix2 p h :=
    funext fun c => Fin.ext (by
      match c with
      | ⟨0, _⟩ => exact lhs_row_2048 _ _
      | ⟨1, _⟩ => exact (dot_S2048x2304_S2304x128_S2048x128_1_0_0_1_n_n.lhsIdx_val_of_single rfl _ _).trans hk)
  have er : dot_S2048x2304_S2304x128_S2048x128_1_0_0_1_n_n.rhsIdx (ix2 p k) ((contrEquiv1 dot_S2048x2304_S2304x128_S2048x128_1_0_0_1_n_n 2304 rfl rfl).symm h) = ix2 h k :=
    funext fun c => Fin.ext (by
      match c with
      | ⟨0, _⟩ => exact (dot_S2048x2304_S2304x128_S2048x128_1_0_0_1_n_n.rhsIdx_val_of_single rfl _ _).trans hk
      | ⟨1, _⟩ => exact rhs_col_2048 _ _)
  rw [el, er]

/-! ## The reshapes, broadcasts and the slice, each read at an index given by coordinates -/

section Layout
variable {α : Type}

/-- A 16 × 2304 array viewed 16 × 1 × 2304 reads, at (p, u, k), the operand at (p, k). -/
theorem cast_16x2304_16x1x2304_apply (x : S16x2304.Idx → α) (h : S16x2304.ShapeCasts S16x1x2304)
    (p : Fin 16) (u : Fin 1) (k : Fin 2304) : shapeCast S16x1x2304 x h (ix3 p u k) = x (ix2 p k) :=
  shapeCast_apply x h _ _ (by
    have hu : u.val = 0 := by omega
    rw [Shape.rowMajor_val_three, Shape.rowMajor_val_two]
    show p.val * 2304 + k.val = (p.val * 1 + u.val) * 2304 + k.val
    rw [hu, Nat.mul_one, Nat.add_zero])

/-- A 16 × 1 × 2304 array broadcast along its unit axis to 128 reads, at (p, j, k), the operand at (p, 0, k). -/
theorem bcast_16x1x2304_apply (x : S16x1x2304.Idx → α) (h : S16x1x2304.Broadcasts S16x128x2304)
    (p : Fin 16) (j : Fin 128) (k : Fin 2304) : broadcastTo S16x128x2304 x h (ix3 p j k) = x (ix3 p (0 : Fin 1) k) := by
  refine broadcastTo_apply x h (ix3 p j k) (ix3 p (0 : Fin 1) k) fun ax => ?_
  match ax with
  | ⟨0, _⟩ => rfl
  | ⟨1, _⟩ => rfl
  | ⟨2, _⟩ => rfl

/-- A 1 × 128 × 2304 array broadcast along its unit axis to 16 reads, at (p, j, k), the operand at (0, j, k). -/
theorem bcast_1x128x2304_apply (x : S1x128x2304.Idx → α) (h : S1x128x2304.Broadcasts S16x128x2304)
    (p : Fin 16) (j : Fin 128) (k : Fin 2304) : broadcastTo S16x128x2304 x h (ix3 p j k) = x (ix3 (0 : Fin 1) j k) := by
  refine broadcastTo_apply x h (ix3 p j k) (ix3 (0 : Fin 1) j k) fun ax => ?_
  match ax with
  | ⟨0, _⟩ => rfl
  | ⟨1, _⟩ => rfl
  | ⟨2, _⟩ => rfl

/-- A 16 × 128 × 2304 array flattened to 2048 × 2304 reads, at row p · 128 + j, the operand at (p, j). -/
theorem cast_flatten_apply (x : S16x128x2304.Idx → α) (h : S16x128x2304.ShapeCasts S2048x2304)
    (p : Fin 16) (j : Fin 128) (k : Fin 2304) :
    shapeCast S2048x2304 x h (ix2 (⟨p.val * 128 + j.val, by have := p.isLt; have := j.isLt; omega⟩ : Fin 2048) k) = x (ix3 p j k) :=
  shapeCast_apply x h _ _ (by
    rw [Shape.rowMajor_val_three, Shape.rowMajor_val_two]
    rfl)

/-- A 2048 × 128 array regrouped 16 × 128 × 128 reads, at (p, j, c), the operand at row p · 128 + j. -/
theorem cast_regroup_apply (x : S2048x128.Idx → α) (h : S2048x128.ShapeCasts S16x128x128)
    (p : Fin 16) (j : Fin 128) (c : Fin 128) :
    shapeCast S16x128x128 x h (ix3 p j c) = x (ix2 (⟨p.val * 128 + j.val, by have := p.isLt; have := j.isLt; omega⟩ : Fin 2048) c) :=
  shapeCast_apply x h _ _ (by
    rw [Shape.rowMajor_val_three, Shape.rowMajor_val_two]
    rfl)

/-- The first 96 of 128 columns: the slice at offset 0 keeps the coordinates. -/
theorem slice_first96_apply (x : S16x128x128.Idx → α) (h : S16x128x128.Slices ![0, 0, 0] S16x128x96)
    (p : Fin 16) (j : Fin 128) (o : Fin 96) :
    extractStridedSlice S16x128x96 ![0, 0, 0] x h (ix3 p j o) = x (ix3 p j (⟨o.val, by have := o.isLt; omega⟩ : Fin 128)) :=
  extractStridedSlice_apply _ x h _ _ fun a => by
    match a with
    | ⟨0, _⟩ => exact (Nat.zero_add _).symm
    | ⟨1, _⟩ => exact (Nat.zero_add _).symm
    | ⟨2, _⟩ => exact (Nat.zero_add _).symm

/-- A vector of 96 viewed 1 × 1 × 96 reads, at (u, v, o), the operand at o. -/
theorem cast_96_1x1x96_apply (x : S96.Idx → α) (h : S96.ShapeCasts S1x1x96) (u v : Fin 1) (o : Fin 96) :
    shapeCast S1x1x96 x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * 96 + o.val
    omega)

/-- A 1 × 1 × 96 array broadcast over 16 × 128 reads, at (p, j, o), the operand at (0, 0, o). -/
theorem bcast_1x1x96_apply (x : S1x1x96.Idx → α) (h : S1x1x96.Broadcasts S16x128x96)
    (p : Fin 16) (j : Fin 128) (o : Fin 96) : broadcastTo S16x128x96 x h (ix3 p j o) = x (ix3 (0 : Fin 1) (0 : Fin 1) o) := by
  refine broadcastTo_apply x h (ix3 p j o) (ix3 (0 : Fin 1) (0 : Fin 1) o) fun ax => ?_
  match ax with
  | ⟨0, _⟩ => rfl
  | ⟨1, _⟩ => rfl
  | ⟨2, _⟩ => rfl

end Layout

/-! ## The stored block over the body's intermediate values -/

/-- The stored block at (0, p, j, o), over the values the last part of the body receives: the rows `x'` and the
    weights `V` of the third tail product, the two biases, the padded second-layer weights, the head sums `H`
    and the first two tail sums `T`. -/
theorem stored_apply (x' : FVec Ideal S128x768 .bf16) (V : FVec Ideal S768x2304 .bf16) (b₁ : Vec Ideal S2304 .f32)
    (W₂ : FVec Ideal S2304x128 .bf16) (b₂ : Vec Ideal S96 .f32) (H : FVec Ideal S16x2304 .f32) (T : FVec Ideal S128x2304 .f32)
    (p : Fin 16) (j : Fin 128) (o : Fin 96) :
    k0_pay1 (F := Ideal) x' V b₁ W₂ b₂ H T (constant (F := Ideal) S128x2304 .f32 0x00000000#32) (ix4 (0 : Fin 1) p j o)
      = (∑ k : Fin 2304, max ((H (ix2 p k) + b₁ (ix1 k)) + (T (ix2 j k) + ∑ h : Fin 768, x' (ix2 j h) * V (ix2 h k))) 0
            * W₂ (ix2 k (⟨o.val, by have := o.isLt; omega⟩ : Fin 128)))
        + b₂ (ix1 o) := by
  unfold k0_pay1
  refine (shapeCast_abc_1abc_apply _ _ (0 : Fin 1) p j o).trans ?_
  refine (addf_apply _ _ _).trans ?_
  refine congrArg₂ (· + ·) ?_ ?_
  · refine (slice_first96_apply _ _ p j o).trans ?_
    refine (cast_regroup_apply _ _ p j _).trans ?_
    refine (matmul_2048_apply _ _ _ _).trans ?_
    refine Finset.sum_congr rfl fun k _ => ?_
    refine congrArg (· * W₂ (ix2 k (⟨o.val, by have := o.isLt; omega⟩ : Fin 128))) ?_
    refine (cast_flatten_apply _ _ p j k).trans ?_
    refine (maximumf_apply _ _ _).trans ?_
    refine congrArg₂ max ?_ ?_
    · refine (addf_apply _ _ _).trans ?_
      refine congrArg₂ (· + ·) ?_ ?_
      · refine (bcast_16x1x2304_apply _ _ p j k).trans ?_
        refine (cast_16x2304_16x1x2304_apply _ _ p (0 : Fin 1) k).trans ?_
        refine (truncf_apply (φ := .f32) (ψ := .bf16) _ _ _).trans ?_
        refine (addf_apply _ _ _).trans ?_
        refine congrArg (H (ix2 p k) + ·) ?_
        refine (broadcastTo_1b_ab_apply _ _ p k).trans ?_
        exact shapeCast_a_1a_apply _ _ (0 : Fin 1) k
      · refine (bcast_1x128x2304_apply _ _ p j k).trans ?_
        refine (shapeCast_ab_1ab_apply _ _ (0 : Fin 1) j k).trans ?_
        refine (truncf_apply (φ := .f32) (ψ := .bf16) _ _ _).trans ?_
        refine (addf_apply _ _ _).trans ?_
        refine congrArg (T (ix2 j k) + ·) ?_
        exact matmul_128_apply x' V j k
    · exact ofBits_zero_bf16
  · refine (bcast_1x1x96_apply _ _ p j o).trans ?_
    exact cast_96_1x1x96_apply _ _ (0 : Fin 1) (0 : Fin 1) o

/-! ## The head and tail sums, and the block over the loaded vectors -/

/-- One product of the head: 16 rows of a loaded 1 × 16 × 768 block against a loaded 768 × 2304 block. -/
theorem rows16_apply (a : Vec Ideal S1x16x768 .bf16) (U : Vec Ideal S768x2304 .bf16) (p : Fin 16) (k : Fin 2304) :
    matmul (F := Ideal) (φ₁ := .bf16) (φ₂ := .bf16) dot_S16x768_S768x2304_S16x2304_1_0_0_1_n_n none
        (shapeCast S16x768 a Facts₀.shapeCasts_S1x16x768_S16x768) (shapeCast S768x2304 U Facts₀.shapeCasts_S768x2304_S768x2304)
        (constant (F := Ideal) S16x2304 .f32 0x00000000#32) (ix2 p k)
      = ∑ h : Fin 768, a (ix3 (0 : Fin 1) p h) * U (ix2 h k) := by
  refine (matmul_16_apply _ _ p k).trans ?_
  refine Finset.sum_congr rfl fun h _ => ?_
  exact congrArg₂ (· * ·) (shapeCast_1ab_ab_apply a _ p h) (congrFun (shapeCast_self U _) _)

/-- One product of the tail: 128 rows of a loaded 1 × 128 × 768 block against a loaded 768 × 2304 block. -/
theorem rows128_apply (x : Vec Ideal S1x128x768 .bf16) (V : Vec Ideal S768x2304 .bf16) (j : Fin 128) (k : Fin 2304) :
    matmul (F := Ideal) (φ₁ := .bf16) (φ₂ := .bf16) dot_S128x768_S768x2304_S128x2304_1_0_0_1_n_n none
        (shapeCast S128x768 x Facts₀.shapeCasts_S1x128x768_S128x768) (shapeCast S768x2304 V Facts₀.shapeCasts_S768x2304_S768x2304)
        (constant (F := Ideal) S128x2304 .f32 0x00000000#32) (ix2 j k)
      = ∑ h : Fin 768, x (ix3 (0 : Fin 1) j h) * V (ix2 h k) := by
  refine (matmul_128_apply _ _ j k).trans ?_
  refine Finset.sum_congr rfl fun h _ => ?_
  exact congrArg₂ (· * ·) (shapeCast_1ab_ab_apply x _ j h) (congrFun (shapeCast_self V _) _)

/-- The head sums: high · high, then high · low, then low · high, added in that order. -/
theorem head_apply (a a' : Vec Ideal S1x16x768 .bf16) (U U' : Vec Ideal S768x2304 .bf16) (p : Fin 16) (k : Fin 2304) :
    k0_pay5 (F := Ideal) a a' U U' (ix2 p k)
      = ((∑ h : Fin 768, a (ix3 (0 : Fin 1) p h) * U (ix2 h k)) + (∑ h : Fin 768, a (ix3 (0 : Fin 1) p h) * U' (ix2 h k)))
          + (∑ h : Fin 768, a' (ix3 (0 : Fin 1) p h) * U (ix2 h k)) := by
  unfold k0_pay5
  refine (addf_apply _ _ _).trans ?_
  refine congrArg₂ (· + ·) ((addf_apply _ _ _).trans (congrArg₂ (· + ·) ?_ ?_)) ?_
  · exact rows16_apply a U p k
  · exact rows16_apply a U' p k
  · exact rows16_apply a' U p k

/-- The first two tail sums: high · high, then high · low. -/
theorem tail_apply (x : Vec Ideal S1x128x768 .bf16) (V V' : Vec Ideal S768x2304 .bf16) (j : Fin 128) (k : Fin 2304) :
    k0_pay6 (F := Ideal) x V V' (ix2 j k)
      = (∑ h : Fin 768, x (ix3 (0 : Fin 1) j h) * V (ix2 h k)) + (∑ h : Fin 768, x (ix3 (0 : Fin 1) j h) * V' (ix2 h k)) := by
  unfold k0_pay6 k0_pay3
  refine (addf_apply _ _ _).trans ?_
  refine congrArg₂ (· + ·) ?_ ?_
  · exact rows128_apply x V j k
  · exact rows128_apply x V' j k

/-- THE STORED BLOCK AT (0, p, j, o), over the eleven loaded vectors: the query rows' high and low parts `a`, `a'`;
    all rows' high and low parts `x`, `x'`; the head weights' `U`, `U'` and the tail weights' `V`, `V'`; the first
    bias; the second-layer weights padded to 128 columns; the second bias. -/
theorem block_apply (a a' : Vec Ideal S1x16x768 .bf16) (x x' : Vec Ideal S1x128x768 .bf16)
    (U U' V V' : Vec Ideal S768x2304 .bf16) (b₁ : Vec Ideal S2304 .f32) (W₂ : Vec Ideal S2304x128 .bf16)
    (b₂ : Vec Ideal S96 .f32) (p : Fin 16) (j : Fin 128) (o : Fin 96) :
    k0_pay1 (F := Ideal) (k0_pay2 x') (k0_pay3 V) b₁ (k0_pay4 W₂) b₂ (k0_pay5 a a' U U') (k0_pay6 x V V')
        (constant (F := Ideal) S128x2304 .f32 0x00000000#32) (ix4 (0 : Fin 1) p j o)
      = (∑ k : Fin 2304,
            max (((((∑ h : Fin 768, a (ix3 (0 : Fin 1) p h) * U (ix2 h k)) + (∑ h : Fin 768, a (ix3 (0 : Fin 1) p h) * U' (ix2 h k)))
                      + (∑ h : Fin 768, a' (ix3 (0 : Fin 1) p h) * U (ix2 h k))) + b₁ (ix1 k))
                  + (((∑ h : Fin 768, x (ix3 (0 : Fin 1) j h) * V (ix2 h k)) + (∑ h : Fin 768, x (ix3 (0 : Fin 1) j h) * V' (ix2 h k)))
                      + (∑ h : Fin 768, x' (ix3 (0 : Fin 1) j h) * V (ix2 h k)))) 0
              * W₂ (ix2 k (⟨o.val, by have := o.isLt; omega⟩ : Fin 128)))
        + b₂ (ix1 o) := by
  refine (stored_apply _ _ _ _ _ _ _ p j o).trans ?_
  refine congrArg (· + b₂ (ix1 o)) ?_
  refine Finset.sum_congr rfl fun k _ => ?_
  refine congrArg₂ (· * ·) (congrArg (max · 0) ?_) ?_
  · refine congrArg₂ (· + ·) (congrArg (· + b₁ (ix1 k)) (head_apply a a' U U' p k)) ?_
    refine congrArg₂ (· + ·) (tail_apply x V V' j k) ?_
    refine Finset.sum_congr rfl fun h _ => ?_
    unfold k0_pay2 k0_pay3
    exact congrArg₂ (· * ·) (shapeCast_1ab_ab_apply x' _ j h) (congrFun (shapeCast_self V _) _)
  · unfold k0_pay4
    exact congrFun (shapeCast_self W₂ _) _

end Cert.PairScore.Block

end
-- ==== Proof.KernelIdealBlocks.lean ====
/-
  Where each window's block lies in its array.

  The region runs over 4 × 8 grid points; point t has coordinates (b, i): the batch entry and the tile of sixteen
  query rows. A window's block at a point is the part of its array that starts, on each axis, at the window's block
  index times the block's extent:

      windows 0, 1   (sixteen query rows, high and low part):   block (b, i, 0) of extents 1 × 16 × 768,
                     so its entry (0, p, h) is the array's entry (b, 16 i + p, h);
      windows 2, 3   (all 128 rows, high and low part):         block (b, 0, 0) of extents 1 × 128 × 768,
                     so its entry (0, j, h) is the array's entry (b, j, h);
      windows 4 … 10 (weights and biases):                      block 0 on every axis, of the array's own extents:
                     the block is the array;
      window 11      (the scores):                              block (b, i, 0, 0) of extents 1 × 16 × 128 × 96,
                     so its entry (0, p, j, o) lies at the array's entry (b, 16 i + p, j, o).

  The block indices are decided once over the 32 grid points; the rest is, per axis, index × extent + coordinate.
-/
import proofs.«102689_j33998961115715_2_alg».proof.Proof.KernelIdealPoints
import Idealize.ShloMosaic.Lib.ValueIdx
import Idealize.ShloMosaic.Lib.Pipeline.Value

noncomputable section

namespace Cert.KernelIdeal.Blocks

open Cert.KernelIdeal Cert.KernelIdeal.Gen Cert.KernelIdeal.Launch
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The block indices, decided over the grid -/

/-- Windows 0 and 1 sit at block (b, i, 0). -/
theorem idx_facts0 : ∀ t : Fin cfg0.N, win0_0.index t (0 : Fin 3) = (grid0.coords t 0).val
    ∧ win0_0.index t (1 : Fin 3) = (grid0.coords t 1).val ∧ win0_0.index t (2 : Fin 3) = 0 :=
  (by decide +kernel : ∀ t : Fin grid0.N, _)
theorem idx_facts1 : ∀ t : Fin cfg0.N, win0_1.index t (0 : Fin 3) = (grid0.coords t 0).val
    ∧ win0_1.index t (1 : Fin 3) = (grid0.coords t 1).val ∧ win0_1.index t (2 : Fin 3) = 0 :=
  (by decide +kernel : ∀ t : Fin grid0.N, _)

/-- Windows 2 and 3 sit at block (b, 0, 0). -/
theorem idx_facts2 : ∀ t : Fin cfg0.N, win0_2.index t (0 : Fin 3) = (grid0.coords t 0).val
    ∧ win0_2.index t (1 : Fin 3) = 0 ∧ win0_2.index t (2 : Fin 3) = 0 :=
  (by decide +kernel : ∀ t : Fin grid0.N, _)
theorem idx_facts3 : ∀ t : Fin cfg0.N, win0_3.index t (0 : Fin 3) = (grid0.coords t 0).val
    ∧ win0_3.index t (1 : Fin 3) = 0 ∧ win0_3.index t (2 : Fin 3) = 0 :=
  (by decide +kernel : ∀ t : Fin grid0.N, _)

/-- The output window sits at block (b, i, 0, 0). -/
theorem idx_facts11 : ∀ t : Fin cfg0.N, win0_11.index t (0 : Fin 4) = (grid0.coords t 0).val
    ∧ win0_11.index t (1 : Fin 4) = (grid0.coords t 1).val ∧ win0_11.index t (2 : Fin 4) = 0 ∧ win0_11.index t (3 : Fin 4) = 0 :=
  (by decide +kernel : ∀ t : Fin grid0.N, _)

/-! ## A grid point's two coordinates, as numbers below 4 and 8 -/

/-- The batch entry of grid point t. -/
def batchOf (t : Fin cfg0.N) : Fin 4 := ⟨(grid0.coords t 0).val, (grid0.coords t 0).isLt⟩
/-- The tile of sixteen query rows of grid point t. -/
def tileOf (t : Fin cfg0.N) : Fin 8 := ⟨(grid0.coords t 1).val, (grid0.coords t 1).isLt⟩
theorem batchOf_val (t : Fin cfg0.N) : (grid0.coords t 0).val = (batchOf t).val := rfl
theorem tileOf_val (t : Fin cfg0.N) : (grid0.coords t 1).val = (tileOf t).val := rfl
/-! ## The rows of x: a block's entry in the array

Each read is stated first over ANY contents `A` of the window's array, then at the contents the region finds. -/

/-- Window 0's block read off any contents `A` of its array: entry (0, p, h) is `A` at (b, 16 i + p, h). -/
theorem read0_apply (t : Fin cfg0.N) (A : S4x128x768.Idx → Elt F .bf16) (b : Fin 4) (i : Fin 8)
    (hb : (grid0.coords t 0).val = b.val) (hi : (grid0.coords t 1).val = i.val) (p : Fin 16) (h : Fin 768) :
    (((cfg0.win 0).blk t).view.read (Elt F) A : Vec F S1x16x768 .bf16) (ix3 (0 : Fin 1) p h)
      = A (ix3 b (⟨16 * i.val + p.val, by have := i.isLt; have := p.isLt; omega⟩ : Fin 128) h) := by
  obtain ⟨e0, e1, e2⟩ := idx_facts0 t
  rw [View.read_apply]
  show A _ = A _
  refine congrArg A (funext fun a => Fin.ext ?_)
  match a with
  | ⟨0, _⟩ => show win0_0.index t (0 : Fin 3) * 1 + 1 * 0 = b.val; omega
  | ⟨1, _⟩ => show win0_0.index t (1 : Fin 3) * 16 + 1 * p.val = 16 * i.val + p.val; omega
  | ⟨2, _⟩ => show win0_0.index t (2 : Fin 3) * 768 + 1 * h.val = h.val; omega

/-- The sixteen query rows of tile i of batch entry b, high part. -/
theorem iblk0_apply (c : Dev nD) (t : Fin cfg0.N) (b : Fin 4) (i : Fin 8)
    (hb : (grid0.coords t 0).val = b.val) (hi : (grid0.coords t 1).val = i.val) (p : Fin 16) (h : Fin 768) :
    (iblk m c 0 t : Vec F S1x16x768 .bf16) (ix3 (0 : Fin 1) p h)
      = (V m c main_v0 : S4x128x768.Idx → Elt F .bf16)
          (ix3 b (⟨16 * i.val + p.val, by have := i.isLt; have := p.isLt; omega⟩ : Fin 128) h) :=
  read0_apply t (V m c main_v0) b i hb hi p h

/-- Window 1's block read off any contents `A` of its array: entry (0, p, h) is `A` at (b, 16 i + p, h). -/
theorem read1_apply (t : Fin cfg0.N) (A : S4x128x768.Idx → Elt F .bf16) (b : Fin 4) (i : Fin 8)
    (hb : (grid0.coords t 0).val = b.val) (hi : (grid0.coords t 1).val = i.val) (p : Fin 16) (h : Fin 768) :
    (((cfg0.win 1).blk t).view.read (Elt F) A : Vec F S1x16x768 .bf16) (ix3 (0 : Fin 1) p h)
      = A (ix3 b (⟨16 * i.val + p.val, by have := i.isLt; have := p.isLt; omega⟩ : Fin 128) h) := by
  obtain ⟨e0, e1, e2⟩ := idx_facts1 t
  rw [View.read_apply]
  show A _ = A _
  refine congrArg A (funext fun a => Fin.ext ?_)
  match a with
  | ⟨0, _⟩ => show win0_1.index t (0 : Fin 3) * 1 + 1 * 0 = b.val; omega
  | ⟨1, _⟩ => show win0_1.index t (1 : Fin 3) * 16 + 1 * p.val = 16 * i.val + p.val; omega
  | ⟨2, _⟩ => show win0_1.index t (2 : Fin 3) * 768 + 1 * h.val = h.val; omega

/-- The sixteen query rows of tile i of batch entry b, low part. -/
theorem iblk1_apply (c : Dev nD) (t : Fin cfg0.N) (b : Fin 4) (i : Fin 8)
    (hb : (grid0.coords t 0).val = b.val) (hi : (grid0.coords t 1).val = i.val) (p : Fin 16) (h : Fin 768) :
    (iblk m c 1 t : Vec F S1x16x768 .bf16) (ix3 (0 : Fin 1) p h)
      = (V m c main_v3 : S4x128x768.Idx → Elt F .bf16)
          (ix3 b (⟨16 * i.val + p.val, by have := i.isLt; have := p.isLt; omega⟩ : Fin 128) h) :=
  read1_apply t (V m c main_v3) b i hb hi p h

/-- Window 2's block read off any contents `A` of its array: entry (0, j, h) is `A` at (b, j, h). -/
theorem read2_apply (t : Fin cfg0.N) (A : S4x128x768.Idx → Elt F .bf16) (b : Fin 4)
    (hb : (grid0.coords t 0).val = b.val) (j : Fin 128) (h : Fin 768) :
    (((cfg0.win 2).blk t).view.read (Elt F) A : Vec F S1x128x768 .bf16) (ix3 (0 : Fin 1) j h) = A (ix3 b j h) := by
  obtain ⟨e0, e1, e2⟩ := idx_facts2 t
  rw [View.read_apply]
  show A _ = A _
  refine congrArg A (funext fun a => Fin.ext ?_)
  match a with
  | ⟨0, _⟩ => show win0_2.index t (0 : Fin 3) * 1 + 1 * 0 = b.val; omega
  | ⟨1, _⟩ => show win0_2.index t (1 : Fin 3) * 128 + 1 * j.val = j.val; omega
  | ⟨2, _⟩ => show win0_2.index t (2 : Fin 3) * 768 + 1 * h.val = h.val; omega

/-- All 128 rows of batch entry b, high part. -/
theorem iblk2_apply (c : Dev nD) (t : Fin cfg0.N) (b : Fin 4)
    (hb : (grid0.coords t 0).val = b.val) (j : Fin 128) (h : Fin 768) :
    (iblk m c 2 t : Vec F S1x128x768 .bf16) (ix3 (0 : Fin 1) j h)
      = (V m c main_v0 : S4x128x768.Idx → Elt F .bf16) (ix3 b j h) :=
  read2_apply t (V m c main_v0) b hb j h

/-- Window 3's block read off any contents `A` of its array: entry (0, j, h) is `A` at (b, j, h). -/
theorem read3_apply (t : Fin cfg0.N) (A : S4x128x768.Idx → Elt F .bf16) (b : Fin 4)
    (hb : (grid0.coords t 0).val = b.val) (j : Fin 128) (h : Fin 768) :
    (((cfg0.win 3).blk t).view.read (Elt F) A : Vec F S1x128x768 .bf16) (ix3 (0 : Fin 1) j h) = A (ix3 b j h) := by
  obtain ⟨e0, e1, e2⟩ := idx_facts3 t
  rw [View.read_apply]
  show A _ = A _
  refine congrArg A (funext fun a => Fin.ext ?_)
  match a with
  | ⟨0, _⟩ => show win0_3.index t (0 : Fin 3) * 1 + 1 * 0 = b.val; omega
  | ⟨1, _⟩ => show win0_3.index t (1 : Fin 3) * 128 + 1 * j.val = j.val; omega
  | ⟨2, _⟩ => show win0_3.index t (2 : Fin 3) * 768 + 1 * h.val = h.val; omega

/-- All 128 rows of batch entry b, low part. -/
theorem iblk3_apply (c : Dev nD) (t : Fin cfg0.N) (b : Fin 4)
    (hb : (grid0.coords t 0).val = b.val) (j : Fin 128) (h : Fin 768) :
    (iblk m c 3 t : Vec F S1x128x768 .bf16) (ix3 (0 : Fin 1) j h)
      = (V m c main_v3 : S4x128x768.Idx → Elt F .bf16) (ix3 b j h) :=
  read3_apply t (V m c main_v3) b hb j h

/-! ## The weights and biases: the block is the array -/

/-- The head weights' high part: the block is the whole array. -/
theorem idx_facts4 : ∀ t : Fin cfg0.N, win0_4.index t (0 : Fin 2) = 0 ∧ win0_4.index t (1 : Fin 2) = 0 :=
  (by decide +kernel : ∀ t : Fin grid0.N, _)
theorem read4_eq (t : Fin cfg0.N) (A : S768x2304.Idx → Elt F .bf16) :
    (((cfg0.win 4).blk t).view.read (Elt F) A : Vec F S768x2304 .bf16) = A := by
  obtain ⟨e0, e1⟩ := idx_facts4 t
  funext y
  rw [View.read_apply]
  show A _ = A y
  refine congrArg A (funext fun a => Fin.ext ?_)
  match a with
  | ⟨0, _⟩ => show win0_4.index t (0 : Fin 2) * 768 + 1 * (y 0).val = (y 0).val; omega
  | ⟨1, _⟩ => show win0_4.index t (1 : Fin 2) * 2304 + 1 * (y 1).val = (y 1).val; omega
theorem iblk4_eq (c : Dev nD) (t : Fin cfg0.N) :
    (iblk m c 4 t : Vec F S768x2304 .bf16) = (V m c main_v5 : S768x2304.Idx → Elt F .bf16) :=
  read4_eq t (V m c main_v5)

/-- The head weights' low part: the block is the whole array. -/
theorem idx_facts5 : ∀ t : Fin cfg0.N, win0_5.index t (0 : Fin 2) = 0 ∧ win0_5.index t (1 : Fin 2) = 0 :=
  (by decide +kernel : ∀ t : Fin grid0.N, _)
theorem read5_eq (t : Fin cfg0.N) (A : S768x2304.Idx → Elt F .bf16) :
    (((cfg0.win 5).blk t).view.read (Elt F) A : Vec F S768x2304 .bf16) = A := by
  obtain ⟨e0, e1⟩ := idx_facts5 t
  funext y
  rw [View.read_apply]
  show A _ = A y
  refine congrArg A (funext fun a => Fin.ext ?_)
  match a with
  | ⟨0, _⟩ => show win0_5.index t (0 : Fin 2) * 768 + 1 * (y 0).val = (y 0).val; omega
  | ⟨1, _⟩ => show win0_5.index t (1 : Fin 2) * 2304 + 1 * (y 1).val = (y 1).val; omega
theorem iblk5_eq (c : Dev nD) (t : Fin cfg0.N) :
    (iblk m c 5 t : Vec F S768x2304 .bf16) = (V m c main_v8 : S768x2304.Idx → Elt F .bf16) :=
  read5_eq t (V m c main_v8)

/-- The tail weights' high part: the block is the whole array. -/
theorem idx_facts6 : ∀ t : Fin cfg0.N, win0_6.index t (0 : Fin 2) = 0 ∧ win0_6.index t (1 : Fin 2) = 0 :=
  (by decide +kernel : ∀ t : Fin grid0.N, _)
theorem read6_eq (t : Fin cfg0.N) (A : S768x2304.Idx → Elt F .bf16) :
    (((cfg0.win 6).blk t).view.read (Elt F) A : Vec F S768x2304 .bf16) = A := by
  obtain ⟨e0, e1⟩ := idx_facts6 t
  funext y
  rw [View.read_apply]
  show A _ = A y
  refine congrArg A (funext fun a => Fin.ext ?_)
  match a with
  | ⟨0, _⟩ => show win0_6.index t (0 : Fin 2) * 768 + 1 * (y 0).val = (y 0).val; omega
  | ⟨1, _⟩ => show win0_6.index t (1 : Fin 2) * 2304 + 1 * (y 1).val = (y 1).val; omega
theorem iblk6_eq (c : Dev nD) (t : Fin cfg0.N) :
    (iblk m c 6 t : Vec F S768x2304 .bf16) = (V m c main_v10 : S768x2304.Idx → Elt F .bf16) :=
  read6_eq t (V m c main_v10)

/-- The tail weights' low part: the block is the whole array. -/
theorem idx_facts7 : ∀ t : Fin cfg0.N, win0_7.index t (0 : Fin 2) = 0 ∧ win0_7.index t (1 : Fin 2) = 0 :=
  (by decide +kernel : ∀ t : Fin grid0.N, _)
theorem read7_eq (t : Fin cfg0.N) (A : S768x2304.Idx → Elt F .bf16) :
    (((cfg0.win 7).blk t).view.read (Elt F) A : Vec F S768x2304 .bf16) = A := by
  obtain ⟨e0, e1⟩ := idx_facts7 t
  funext y
  rw [View.read_apply]
  show A _ = A y
  refine congrArg A (funext fun a => Fin.ext ?_)
  match a with
  | ⟨0, _⟩ => show win0_7.index t (0 : Fin 2) * 768 + 1 * (y 0).val = (y 0).val; omega
  | ⟨1, _⟩ => show win0_7.index t (1 : Fin 2) * 2304 + 1 * (y 1).val = (y 1).val; omega
theorem iblk7_eq (c : Dev nD) (t : Fin cfg0.N) :
    (iblk m c 7 t : Vec F S768x2304 .bf16) = (V m c main_v13 : S768x2304.Idx → Elt F .bf16) :=
  read7_eq t (V m c main_v13)

/-- The first bias: the block is the whole array. -/
theorem idx_facts8 : ∀ t : Fin cfg0.N, win0_8.index t (0 : Fin 1) = 0 :=
  (by decide +kernel : ∀ t : Fin grid0.N, _)
theorem read8_eq (t : Fin cfg0.N) (A : S2304.Idx → Elt F .f32) :
    (((cfg0.win 8).blk t).view.read (Elt F) A : Vec F S2304 .f32) = A := by
  have e0 := idx_facts8 t
  funext y
  rw [View.read_apply]
  show A _ = A y
  refine congrArg A (funext fun a => Fin.ext ?_)
  match a with
  | ⟨0, _⟩ => show win0_8.index t (0 : Fin 1) * 2304 + 1 * (y 0).val = (y 0).val; omega
theorem iblk8_eq (c : Dev nD) (t : Fin cfg0.N) :
    (iblk m c 8 t : Vec F S2304 .f32) = (V m c main_arg2 : S2304.Idx → Elt F .f32) :=
  read8_eq t (V m c main_arg2)

/-- The second layer's weights, padded to 128 columns: the block is the whole array. -/
theorem idx_facts9 : ∀ t : Fin cfg0.N, win0_9.index t (0 : Fin 2) = 0 ∧ win0_9.index t (1 : Fin 2) = 0 :=
  (by decide +kernel : ∀ t : Fin grid0.N, _)
theorem read9_eq (t : Fin cfg0.N) (A : S2304x128.Idx → Elt F .bf16) :
    (((cfg0.win 9).blk t).view.read (Elt F) A : Vec F S2304x128 .bf16) = A := by
  obtain ⟨e0, e1⟩ := idx_facts9 t
  funext y
  rw [View.read_apply]
  show A _ = A y
  refine congrArg A (funext fun a => Fin.ext ?_)
  match a with
  | ⟨0, _⟩ => show win0_9.index t (0 : Fin 2) * 2304 + 1 * (y 0).val = (y 0).val; omega
  | ⟨1, _⟩ => show win0_9.index t (1 : Fin 2) * 128 + 1 * (y 1).val = (y 1).val; omega
theorem iblk9_eq (c : Dev nD) (t : Fin cfg0.N) :
    (iblk m c 9 t : Vec F S2304x128 .bf16) = (V m c main_v17 : S2304x128.Idx → Elt F .bf16) :=
  read9_eq t (V m c main_v17)

/-- The second bias: the block is the whole array. -/
theorem idx_facts10 : ∀ t : Fin cfg0.N, win0_10.index t (0 : Fin 1) = 0 :=
  (by decide +kernel : ∀ t : Fin grid0.N, _)
theorem read10_eq (t : Fin cfg0.N) (A : S96.Idx → Elt F .f32) :
    (((cfg0.win 10).blk t).view.read (Elt F) A : Vec F S96 .f32) = A := by
  have e0 := idx_facts10 t
  funext y
  rw [View.read_apply]
  show A _ = A y
  refine congrArg A (funext fun a => Fin.ext ?_)
  match a with
  | ⟨0, _⟩ => show win0_10.index t (0 : Fin 1) * 96 + 1 * (y 0).val = (y 0).val; omega
theorem iblk10_eq (c : Dev nD) (t : Fin cfg0.N) :
    (iblk m c 10 t : Vec F S96 .f32) = (V m c main_arg4 : S96.Idx → Elt F .f32) :=
  read10_eq t (V m c main_arg4)

/-! ## The block of scores: where its entries lie in the array -/

/-- Entry (0, p, j, o) of the block written at point t lies at (b, 16 i + p, j, o). -/
theorem emb_out (t : Fin cfg0.N) (b : Fin 4) (i : Fin 8)
    (hb : (grid0.coords t 0).val = b.val) (hi : (grid0.coords t 1).val = i.val) (p : Fin 16) (j : Fin 128) (o : Fin 96) :
    (((cfg0.win 11).blk t).view.emb (ix4 (0 : Fin 1) p j o : S1x16x128x96.Idx) : S4x128x128x96.Idx)
      = ix4 b (⟨16 * i.val + p.val, by have := i.isLt; have := p.isLt; omega⟩ : Fin 128) j o := by
  obtain ⟨e0, e1, e2, e3⟩ := idx_facts11 t
  funext a
  apply Fin.ext
  match a with
  | ⟨0, _⟩ => show win0_11.index t (0 : Fin 4) * 1 + 1 * 0 = b.val; omega
  | ⟨1, _⟩ => show win0_11.index t (1 : Fin 4) * 16 + 1 * p.val = 16 * i.val + p.val; omega
  | ⟨2, _⟩ => show win0_11.index t (2 : Fin 4) * 128 + 1 * j.val = j.val; omega
  | ⟨3, _⟩ => show win0_11.index t (3 : Fin 4) * 96 + 1 * o.val = o.val; omega

end Cert.KernelIdeal.Blocks

end
-- ==== Proof.KernelIdealCover.lean ====
/-
  From the blocks of scores to the whole array of scores.

  The region's one output window moves, at every one of the 4 × 8 grid points, a block of shape 1 × 16 × 128 × 96:
  the point with coordinates (b, i) writes back rows 16 i … 16 i + 15 of batch entry b, all 128 key rows and all 96
  columns. Batch entry b and query row r therefore lie in exactly the block of the point (b, r / 16), and the 32
  blocks tile the array 4 × 128 × 128 × 96. So if every point writes back a whole-array function G read through
  that point's block, the array the region leaves is G.

  Also here, what a point writes back: the window is never cut at the array's end, so it is all of what the body
  leaves in the block's buffer; and the body's one store starts at the block's origin and has the block's sizes,
  so what it leaves is the stored value itself.
-/
import proofs.«102689_j33998961115715_2_alg».proof.Proof.KernelIdealPoints
import Idealize.ShloMosaic.Lib.Pipeline.Value

noncomputable section

namespace Cert.KernelIdeal.Cover

open Cert.KernelIdeal Cert.KernelIdeal.Gen Cert.KernelIdeal.Launch
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## What a point writes back -/

/-- The offsets of the body's one store: the block's origin. -/
theorem origin_scores : (![0, 0, 0, 0] : Fin 4 → Nat) = fun _ => 0 := funext fun a => by fin_cases a <;> rfl

/-- A single store that starts at the origin and has the buffer's sizes leaves the stored value: the block's buffer
    after the body is the value the body stores. -/
theorem blockOut_eq_blockPay (q q' : Vec F S1x16x768 .bf16) (r r' : Vec F S1x128x768 .bf16)
    (wh wh' wt wt' : Vec F S768x2304 .bf16) (b1 : Vec F S2304 .f32) (w2 : Vec F S2304x128 .bf16) (b2 : Vec F S96 .f32) :
    blockOut q q' r r' wh wh' wt wt' b1 w2 b2 = blockPay q q' r r' wh wh' wt wt' b1 w2 b2 := by
  unfold blockOut
  rw [View.canon_unit_zero origin_scores]

/-- What point t writes back to the array of scores is what the body left in the block's buffer: the window is not
    cut at the array's end, so the part a write-back moves is the whole block. -/
theorem flushed_is_block (c : Dev nD) (t : Fin cfg0.N) (y : ((cfg0.win 11).xblock (grid0.coords t)).Idx) :
    (dats m 0 c).flushed 11 t y = blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) y := by
  show (cfg0.win 11).cut (grid0.coords t) ((dats m 0 c).after 11 t) y = _
  rw [after_out]

/-- The two together: what point t writes back is the value the body stores, of the eleven inputs' blocks at t. -/
theorem flushed_is_pay (c : Dev nD) (t : Fin cfg0.N) (y : ((cfg0.win 11).xblock (grid0.coords t)).Idx) :
    (dats m 0 c).flushed 11 t y = blockPay (iblk m c 0 t) (iblk m c 1 t) (iblk m c 2 t) (iblk m c 3 t) (iblk m c 4 t) (iblk m c 5 t) (iblk m c 6 t) (iblk m c 7 t) (iblk m c 8 t) (iblk m c 9 t) (iblk m c 10 t) y :=
  (flushed_is_block m c t y).trans (congrFun (blockOut_eq_blockPay (iblk m c 0 t) (iblk m c 1 t) (iblk m c 2 t) (iblk m c 3 t) (iblk m c 4 t) (iblk m c 5 t) (iblk m c 6 t) (iblk m c 7 t) (iblk m c 8 t) (iblk m c 9 t) (iblk m c 10 t)) y)

/-! ## The blocks tile the array -/

/-- The output window's block index at a point is the point's two coordinates, then two zeros. -/
theorem scores_index : ∀ t : Fin cfg0.N, win0_11.index t (0 : Fin 4) = (grid0.coords t 0).val
    ∧ win0_11.index t (1 : Fin 4) = (grid0.coords t 1).val
    ∧ win0_11.index t (2 : Fin 4) = 0 ∧ win0_11.index t (3 : Fin 4) = 0 :=
  (by decide +kernel : ∀ t : Fin grid0.N, _)

/-- Every pair (batch entry, tile of sixteen rows) is some point's block index. -/
theorem scores_onto : ∀ (q0 : Fin 4) (q1 : Fin 8), ∃ t : Fin cfg0.N, win0_11.index t = ![q0.val, q1.val, 0, 0] :=
  (by decide +kernel : ∀ (q0 : Fin 4) (q1 : Fin 8), ∃ t : Fin grid0.N, win0_11.index t = ![q0.val, q1.val, 0, 0])

/-- An index of the array is in point t's block iff each coordinate is in the block's range on its axis. -/
theorem mem_scores_blk (t : Fin cfg0.N) (i : S4x128x128x96.Idx) :
    i ∈ ((cfg0.win 11).blk t).view.set ↔ ∀ a : Fin 4, win0_11.index t a * S1x16x128x96.size a ≤ (i a).val
      ∧ (i a).val < win0_11.index t a * S1x16x128x96.size a + S1x16x128x96.size a := by
  show i ∈ ((View.whole main_v18).slice (win0_11.rect t)).set ↔ _
  rw [View.set_slice_whole, Rect.mem_set_unit]
  exact Iff.rfl

/-- Every index of the array of scores lies in the block of a point that writes back: batch entry b and query row r
    in the block of the point whose block index is (b, r / 16, 0, 0). -/
theorem scores_cover (i : S4x128x128x96.Idx) :
    ∃ t : Fin cfg0.N, (cfg0.win 11).flush t = true ∧ i ∈ ((cfg0.win 11).blk t).view.set := by
  have hi0 : (i 0).val < 4 := (i 0).isLt
  have hi1 : (i 1).val < 128 := (i 1).isLt
  have hi2 : (i 2).val < 128 := (i 2).isLt
  have hi3 : (i 3).val < 96 := (i 3).isLt
  obtain ⟨t, ht⟩ := scores_onto ⟨(i 0).val, hi0⟩ ⟨(i 1).val / 16, by omega⟩
  have q0 : win0_11.index t (0 : Fin 4) = (i 0).val := congrFun ht 0
  have q1 : win0_11.index t (1 : Fin 4) = (i 1).val / 16 := congrFun ht 1
  have q2 : win0_11.index t (2 : Fin 4) = 0 := congrFun ht 2
  have q3 : win0_11.index t (3 : Fin 4) = 0 := congrFun ht 3
  refine ⟨t, flush0_11 t, ?_⟩
  rw [mem_scores_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 16 ≤ (i 1).val ∧ (i 1).val < win0_11.index t (1 : Fin 4) * 16 + 16; omega
  | ⟨2, _⟩ => show win0_11.index t (2 : Fin 4) * 128 ≤ (i 2).val ∧ (i 2).val < win0_11.index t (2 : Fin 4) * 128 + 128; omega
  | ⟨3, _⟩ => show win0_11.index t (3 : Fin 4) * 96 ≤ (i 3).val ∧ (i 3).val < win0_11.index t (3 : Fin 4) * 96 + 96; omega

/-! ## The array after the region -/

/-- If every point writes back the whole-array function G read through its block, the array of scores after the
    region is G: the blocks tile the array, so no index keeps what the region found there. -/
theorem scores_final (c : Dev nD) (G : S4x128x128x96.Idx → Elt F .f32)
    (hfl : ∀ t : Fin cfg0.N, (dats m 0 c).flushed 11 t = ((cfg0.win 11).blk t).view.read (Elt F) G) :
    (dats m 0 c).arrAt 11 cfg0.N = G :=
  (dats m 0 c).arrAt_eq_of_cover 11 G (fun t _ => hfl t) scores_cover

end Cert.KernelIdeal.Cover

end
-- ==== Proof.KernelIdealValue.lean ====
/-
  The join: the array of scores the region leaves is the pairwise head/tail scorer of the launch's arguments.

  At grid point (b, i) the body stores, at (0, p, j, o) of its block, the second layer applied to the rectified
  first layer of query row 16 i + p and key row j of batch entry b, the first layer computed from the high and low
  parts of the rows and of the weights as three products per half. The blocks the body reads are the host's arrays
  at that point's rows; on the extended reals a high part is the number and a low part is the number minus itself,
  which is zero for a REAL number. So of each half's three products the two that have a low part as a factor are
  sums of products against zero, hence zero, and what is left is the head of row 16 i + p plus the tail of row j:
  the stored value is the score at (b, 16 i + p, j, o). The block's entry (0, p, j, o) lies at exactly that index
  of the array, and the 32 blocks tile the array.
-/
import proofs.«102689_j33998961115715_2_alg».proof.Proof.Spec
import proofs.«102689_j33998961115715_2_alg».proof.Proof.KernelIdealEntry
import proofs.«102689_j33998961115715_2_alg».proof.Proof.BlockValue
import proofs.«102689_j33998961115715_2_alg».proof.Proof.KernelIdealBlocks
import proofs.«102689_j33998961115715_2_alg».proof.Proof.KernelIdealCover

noncomputable section

namespace Cert.KernelIdeal.Score

open Cert.KernelIdeal Cert.KernelIdeal.Gen Cert.KernelIdeal.Launch Cert.KernelIdeal.Entry Cert.KernelIdeal.Blocks
open Cert.PairScore
open Idealize.ShloMosaic Idealize.ShloMosaic.TcCoe Idealize.ShloMosaic.ValueIdx Idealize.SL.Sem

/-! ## The algebra, over any arrays: a first layer computed in three products per half -/

section Algebra

variable (X : S4x128x768.Idx → EReal) (W1 : S1536x2304.Idx → EReal)

/-- The head of row r from the rows' and the weights' high and low parts: the high · high product is the head, the
    two products with a low part are zero. -/
theorem head_of_parts (hX : AllReal X) (hW : AllReal W1) (a a' : Vec Ideal S1x16x768 .bf16) (U U' : Vec Ideal S768x2304 .bf16)
    (b : Fin 4) (r : Fin 128) (p : Fin 16) (k : Fin 2304)
    (ha : ∀ h : Fin 768, a (ix3 (0 : Fin 1) p h) = X (ix3 b r h))
    (ha' : ∀ h : Fin 768, a' (ix3 (0 : Fin 1) p h) = X (ix3 b r h) - X (ix3 b r h))
    (hU : ∀ h : Fin 768, U (ix2 h k) = W1 (ix2 (⟨h.val, by have := h.isLt; omega⟩ : Fin 1536) k))
    (hU' : ∀ h : Fin 768, U' (ix2 h k) = W1 (ix2 (⟨h.val, by have := h.isLt; omega⟩ : Fin 1536) k)
        - W1 (ix2 (⟨h.val, by have := h.isLt; omega⟩ : Fin 1536) k)) :
    ((∑ h : Fin 768, a (ix3 (0 : Fin 1) p h) * U (ix2 h k)) + (∑ h : Fin 768, a (ix3 (0 : Fin 1) p h) * U' (ix2 h k)))
        + (∑ h : Fin 768, a' (ix3 (0 : Fin 1) p h) * U (ix2 h k))
      = (head X W1 b r k + 0) + 0 := by
  have h1 : (∑ h : Fin 768, a (ix3 (0 : Fin 1) p h) * U (ix2 h k)) = head X W1 b r k := by
    unfold head
    exact Finset.sum_congr rfl fun h _ => by rw [ha h, hU h]
  have h2 : (∑ h : Fin 768, a (ix3 (0 : Fin 1) p h) * U' (ix2 h k)) = 0 :=
    (Finset.sum_congr rfl fun h _ => show a (ix3 (0 : Fin 1) p h) * U' (ix2 h k) = a (ix3 (0 : Fin 1) p h) * 0 by
      rw [hU' h, low_part_eq_zero (hW _)]).trans (sum_mul_zero_right fun h => a (ix3 (0 : Fin 1) p h))
  have h3 : (∑ h : Fin 768, a' (ix3 (0 : Fin 1) p h) * U (ix2 h k)) = 0 :=
    (Finset.sum_congr rfl fun h _ => show a' (ix3 (0 : Fin 1) p h) * U (ix2 h k) = 0 * U (ix2 h k) by
      rw [ha' h, low_part_eq_zero (hX _)]).trans (sum_mul_zero_left fun h => U (ix2 h k))
  rw [h1, h2, h3]

/-- The tail of row j, likewise. -/
theorem tail_of_parts (hX : AllReal X) (hW : AllReal W1) (x x' : Vec Ideal S1x128x768 .bf16) (V V' : Vec Ideal S768x2304 .bf16)
    (b : Fin 4) (j : Fin 128) (k : Fin 2304)
    (hx : ∀ h : Fin 768, x (ix3 (0 : Fin 1) j h) = X (ix3 b j h))
    (hx' : ∀ h : Fin 768, x' (ix3 (0 : Fin 1) j h) = X (ix3 b j h) - X (ix3 b j h))
    (hV : ∀ h : Fin 768, V (ix2 h k) = W1 (ix2 (⟨768 + h.val, by have := h.isLt; omega⟩ : Fin 1536) k))
    (hV' : ∀ h : Fin 768, V' (ix2 h k) = W1 (ix2 (⟨768 + h.val, by have := h.isLt; omega⟩ : Fin 1536) k)
        - W1 (ix2 (⟨768 + h.val, by have := h.isLt; omega⟩ : Fin 1536) k)) :
    ((∑ h : Fin 768, x (ix3 (0 : Fin 1) j h) * V (ix2 h k)) + (∑ h : Fin 768, x (ix3 (0 : Fin 1) j h) * V' (ix2 h k)))
        + (∑ h : Fin 768, x' (ix3 (0 : Fin 1) j h) * V (ix2 h k))
      = (tail X W1 b j k + 0) + 0 := by
  have h1 : (∑ h : Fin 768, x (ix3 (0 : Fin 1) j h) * V (ix2 h k)) = tail X W1 b j k := by
    unfold tail
    exact Finset.sum_congr rfl fun h _ => by rw [hx h, hV h]
  have h2 : (∑ h : Fin 768, x (ix3 (0 : Fin 1) j h) * V' (ix2 h k)) = 0 :=
    (Finset.sum_congr rfl fun h _ => show x (ix3 (0 : Fin 1) j h) * V' (ix2 h k) = x (ix3 (0 : Fin 1) j h) * 0 by
      rw [hV' h, low_part_eq_zero (hW _)]).trans (sum_mul_zero_right fun h => x (ix3 (0 : Fin 1) j h))
  have h3 : (∑ h : Fin 768, x' (ix3 (0 : Fin 1) j h) * V (ix2 h k)) = 0 :=
    (Finset.sum_congr rfl fun h _ => show x' (ix3 (0 : Fin 1) j h) * V (ix2 h k) = 0 * V (ix2 h k) by
      rw [hx' h, low_part_eq_zero (hX _)]).trans (sum_mul_zero_left fun h => V (ix2 h k))
  rw [h1, h2, h3]

end Algebra

/-! ## The stored value is the score, over any blocks that read the arrays as the windows do -/

section Stored

variable (X : S4x128x768.Idx → EReal) (W1 : S1536x2304.Idx → EReal) (B1 : S2304.Idx → EReal)
  (W2 : S2304x96.Idx → EReal) (B2 : S96.Idx → EReal)

/-- The value the body stores at (0, p, j, o), when its eleven blocks read the arrays' parts at query row r and key
    row j of batch entry b, is the score at (b, r, j, o). -/
theorem stored_eq_score (hX : AllReal X) (hW : AllReal W1) (a a' : Vec Ideal S1x16x768 .bf16) (x x' : Vec Ideal S1x128x768 .bf16)
    (U U' V V' : Vec Ideal S768x2304 .bf16) (b₁ : Vec Ideal S2304 .f32) (W₂ : Vec Ideal S2304x128 .bf16)
    (b₂ : Vec Ideal S96 .f32) (b : Fin 4) (r : Fin 128) (p : Fin 16) (j : Fin 128) (o : Fin 96)
    (ha : ∀ h : Fin 768, a (ix3 (0 : Fin 1) p h) = X (ix3 b r h))
    (ha' : ∀ h : Fin 768, a' (ix3 (0 : Fin 1) p h) = X (ix3 b r h) - X (ix3 b r h))
    (hx : ∀ h : Fin 768, x (ix3 (0 : Fin 1) j h) = X (ix3 b j h))
    (hx' : ∀ h : Fin 768, x' (ix3 (0 : Fin 1) j h) = X (ix3 b j h) - X (ix3 b j h))
    (hU : ∀ (h : Fin 768) (k : Fin 2304), U (ix2 h k) = W1 (ix2 (⟨h.val, by have := h.isLt; omega⟩ : Fin 1536) k))
    (hU' : ∀ (h : Fin 768) (k : Fin 2304), U' (ix2 h k) = W1 (ix2 (⟨h.val, by have := h.isLt; omega⟩ : Fin 1536) k)
        - W1 (ix2 (⟨h.val, by have := h.isLt; omega⟩ : Fin 1536) k))
    (hV : ∀ (h : Fin 768) (k : Fin 2304), V (ix2 h k) = W1 (ix2 (⟨768 + h.val, by have := h.isLt; omega⟩ : Fin 1536) k))
    (hV' : ∀ (h : Fin 768) (k : Fin 2304), V' (ix2 h k) = W1 (ix2 (⟨768 + h.val, by have := h.isLt; omega⟩ : Fin 1536) k)
        - W1 (ix2 (⟨768 + h.val, by have := h.isLt; omega⟩ : Fin 1536) k))
    (hb₁ : b₁ = B1)
    (hW₂ : ∀ k : Fin 2304, W₂ (ix2 k (⟨o.val, by have := o.isLt; omega⟩ : Fin 128)) = W2 (ix2 k o))
    (hb₂ : b₂ = B2) :
    (∑ k : Fin 2304,
          max (((((∑ h : Fin 768, a (ix3 (0 : Fin 1) p h) * U (ix2 h k)) + (∑ h : Fin 768, a (ix3 (0 : Fin 1) p h) * U' (ix2 h k)))
                    + (∑ h : Fin 768, a' (ix3 (0 : Fin 1) p h) * U (ix2 h k))) + b₁ (ix1 k))
                + (((∑ h : Fin 768, x (ix3 (0 : Fin 1) j h) * V (ix2 h k)) + (∑ h : Fin 768, x (ix3 (0 : Fin 1) j h) * V' (ix2 h k)))
                    + (∑ h : Fin 768, x' (ix3 (0 : Fin 1) j h) * V (ix2 h k)))) 0
            * W₂ (ix2 k (⟨o.val, by have := o.isLt; omega⟩ : Fin 128)))
        + b₂ (ix1 o)
      = score X W1 B1 W2 B2 (ix4 b r j o) := by
  show _ = (∑ k : Fin 2304, hidden X W1 B1 b r j k * W2 (ix2 k o)) + B2 (ix1 o)
  refine congrArg₂ (· + ·) (Finset.sum_congr rfl fun k _ => congrArg₂ (· * ·) ?_ (hW₂ k)) (congrFun hb₂ _)
  rw [head_of_parts X W1 hX hW a a' U U' b r p k ha ha' (fun h => hU h k) (fun h => hU' h k),
    tail_of_parts X W1 hX hW x x' V V' b j k hx hx' (fun h => hV h k) (fun h => hV' h k), hb₁]
  exact hidden_of_split _ _ _

end Stored

/-! ## The value the body stores, over its eleven blocks -/

section Pay

/-- Each of the body's loads reads a whole buffer: the value stored is the body's function of the blocks themselves. -/
theorem blockPay_whole (q q' : Vec Ideal S1x16x768 .bf16) (r r' : Vec Ideal S1x128x768 .bf16)
    (wh wh' wt wt' : Vec Ideal S768x2304 .bf16) (b1 : Vec Ideal S2304 .f32) (w2 : Vec Ideal S2304x128 .bf16)
    (b2 : Vec Ideal S96 .f32) :
    blockPay q q' r r' wh wh' wt wt' b1 w2 b2
      = k0_pay1 (F := Ideal) (k0_pay2 r') (k0_pay3 wt) b1 (k0_pay4 w2) b2 (k0_pay5 q q' wh wh') (k0_pay6 r wt wt')
          (constant (F := Ideal) S128x2304 .f32 0x00000000#32) := by
  have z3 : (![0, 0, 0] : Fin 3 → Nat) = fun _ => 0 := funext fun a => by fin_cases a <;> rfl
  have z2 : (![0, 0] : Fin 2 → Nat) = fun _ => 0 := funext fun a => by fin_cases a <;> rfl
  have z1 : (![0] : Fin 1 → Nat) = fun _ => 0 := funext fun a => by fin_cases a <;> rfl
  unfold blockPay
  rw [View.ld_unit_zero (S := S1x16x768) z3, View.ld_unit_zero (S := S1x16x768) z3,
    View.ld_unit_zero (S := S1x128x768) z3, View.ld_unit_zero (S := S1x128x768) z3,
    View.ld_unit_zero (S := S768x2304) z2, View.ld_unit_zero (S := S768x2304) z2,
    View.ld_unit_zero (S := S768x2304) z2, View.ld_unit_zero (S := S768x2304) z2,
    View.ld_unit_zero (S := S2304) z1, View.ld_unit_zero (S := S2304x128) z2, View.ld_unit_zero (S := S96) z1]

end Pay

/-! ## What a grid point writes back, and the array the region leaves -/

section Point

variable (m : (ℓ : Loc nD τ sig) → Buf (Elt Ideal) ℓ) (c : Dev nD)

/-- What grid point t, of coordinates (b, i), writes back at (0, p, j, o) is the score at (b, 16 i + p, j, o). -/
theorem flushed_eq_score (hX : AllReal (argX m c)) (hW : AllReal (argW1 m c)) (t : Fin cfg0.N)
    (p : Fin 16) (j : Fin 128) (o : Fin 96) :
    (dats m 0 c).flushed 11 t (ix4 (0 : Fin 1) p j o)
      = score (argX m c) (argW1 m c) (argB1 m c) (argW2 m c) (argB2 m c)
          (ix4 (batchOf t) (⟨16 * (tileOf t).val + p.val, by have := (tileOf t).isLt; have := p.isLt; omega⟩ : Fin 128) j o) := by
  refine (Cover.flushed_is_pay m c t (ix4 (0 : Fin 1) p j o)).trans ?_
  refine (congrFun (blockPay_whole (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  refine (Block.block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p j o).trans ?_
  exact stored_eq_score (argX m c) (argW1 m c) (argB1 m c) (argW2 m c) (argB2 m c) hX hW
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (batchOf t) (⟨16 * (tileOf t).val + p.val, by have := (tileOf t).isLt; have := p.isLt; omega⟩ : Fin 128) p j o
    (fun h => (iblk0_apply m c t (batchOf t) (tileOf t) rfl rfl p h).trans (V_x_hi m c _))
    (fun h => (iblk1_apply m c t (batchOf t) (tileOf t) rfl rfl p h).trans (V_x_lo m c _))
    (fun h => (iblk2_apply m c t (batchOf t) rfl j h).trans (V_x_hi m c _))
    (fun h => (iblk3_apply m c t (batchOf t) rfl j h).trans (V_x_lo m c _))
    (fun h k => (congrFun (iblk4_eq m c t) (ix2 h k)).trans (V_head_hi m c h k))
    (fun h k => (congrFun (iblk5_eq m c t) (ix2 h k)).trans (V_head_lo m c h k))
    (fun h k => (congrFun (iblk6_eq m c t) (ix2 h k)).trans (V_tail_hi m c h k))
    (fun h k => (congrFun (iblk7_eq m c t) (ix2 h k)).trans (V_tail_lo m c h k))
    ((iblk8_eq m c t).trans (V_b1 m c))
    (fun k => (congrFun (iblk9_eq m c t) _).trans (V_W2_pad m c k o))
    ((iblk10_eq m c t).trans (V_b2 m c))

/-- THE ARRAY OF SCORES AFTER THE REGION IS THE SCORE of the launch's arguments, when x and the first layer's weights
    are real: every point writes back the score read through its block, and the blocks tile the array. -/
theorem scores_value (hX : AllReal (argX m c)) (hW : AllReal (argW1 m c)) :
    @Eq (S4x128x128x96.Idx → EReal) ((dats m 0 c).arrAt 11 cfg0.N)
      (score (argX m c) (argW1 m c) (argB1 m c) (argW2 m c) (argB2 m c)) :=
  Cover.scores_final m c (score (argX m c) (argW1 m c) (argB1 m c) (argW2 m c) (argB2 m c)) fun t =>
    funext fun (y : S1x16x128x96.Idx) => by
      obtain ⟨z, p, j, o, rfl⟩ : ∃ (z : Fin 1) (p : Fin 16) (j : Fin 128) (o : Fin 96), y = ix4 z p j o :=
        ⟨y 0, y 1, y 2, y 3, eq_ix4 y⟩
      obtain rfl : z = 0 := Subsingleton.elim _ _
      refine (flushed_eq_score m c hX hW t p j o).trans ?_
      rw [View.read_apply]
      show _ = score (argX m c) (argW1 m c) (argB1 m c) (argW2 m c) (argB2 m c)
        (((cfg0.win 11).blk t).view.emb (ix4 (0 : Fin 1) p j o : S1x16x128x96.Idx) : S4x128x128x96.Idx)
      rw [emb_out t (batchOf t) (tileOf t) rfl rfl p j o]

end Point

end Cert.KernelIdeal.Score

end
-- ==== Proof.KernelBody.lean ====
/-
  The kernel body as a Hoare triple, for every float instance.

  The body reads eleven staging buffers whole — the sixteen query rows (high and low parts), all 128 rows (high and
  low parts), the four halves of the first layer's weights, the first bias, the padded second-layer weights, the
  second bias — and overwrites the twelfth, the 1 × 16 × 128 × 96 block of scores, whole, with one store. It also
  loads that twelfth buffer before storing into it; the value loaded is used by nothing, so the buffer may hold
  anything when the body starts. What the body leaves there is the one stored value as a function of the eleven
  values read (`blockOut`); the eleven input buffers are left as they were found.
-/
import proofs.«102689_j33998961115715_2_alg».proof.Proof.Gen.Kernel.Launch
import proofs.«102689_j33998961115715_2_alg».proof.Proof.Gen.Kernel.Skeleton
import proofs.«102689_j33998961115715_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rQ : Rect S1x16x768 := Rect.unit (s := S1x16x768) ![0, 0, 0] S1x16x768.size inb_S1x16x768_S1x16x768_0_0_0
abbrev rK : Rect S1x128x768 := Rect.unit (s := S1x128x768) ![0, 0, 0] S1x128x768.size inb_S1x128x768_S1x128x768_0_0_0
abbrev rW : Rect S768x2304 := Rect.unit (s := S768x2304) ![0, 0] S768x2304.size inb_S768x2304_S768x2304_0_0
abbrev rB1 : Rect S2304 := Rect.unit (s := S2304) ![0] S2304.size inb_S2304_S2304_0
abbrev rW2 : Rect S2304x128 := Rect.unit (s := S2304x128) ![0, 0] S2304x128.size inb_S2304x128_S2304x128_0_0
abbrev rB2 : Rect S96 := Rect.unit (s := S96) ![0] S96.size inb_S96_S96_0
abbrev rO : Rect S1x16x128x96 := Rect.unit (s := S1x16x128x96) ![0, 0, 0, 0] S1x16x128x96.size inb_S1x16x128x96_S1x16x128x96_0_0_0_0

/-! ## What the body leaves in the block of scores -/

/-- The one value the body stores, from the eleven values it reads: the query rows `q`, `q'` (high, low), all rows
    `r`, `r'` (high, low), the head weights `wh`, `wh'`, the tail weights `wt`, `wt'`, the biases and the padded
    second-layer weights. -/
def blockPay (q q' : Vec F S1x16x768 .bf16) (r r' : Vec F S1x128x768 .bf16) (wh wh' wt wt' : Vec F S768x2304 .bf16)
    (b1 : Vec F S2304 .f32) (w2 : Vec F S2304x128 .bf16) (b2 : Vec F S96 .f32) : Vec F S1x16x128x96 .f32 :=
  k0_pay1 (k0_pay2 (View.ld r' rK)) (k0_pay3 (View.ld wt rW)) (View.ld b1 rB1) (k0_pay4 (View.ld w2 rW2)) (View.ld b2 rB2)
    (k0_pay5 (View.ld q rQ) (View.ld q' rQ) (View.ld wh rW) (View.ld wh' rW))
    (k0_pay6 (View.ld r rK) (View.ld wt rW) (View.ld wt' rW)) (constant S128x2304 .f32 0x00000000#32)

/-- The block's buffer after the body: its one store, over whatever was there. -/
def blockOut (q q' : Vec F S1x16x768 .bf16) (r r' : Vec F S1x128x768 .bf16) (wh wh' wt wt' : Vec F S768x2304 .bf16)
    (b1 : Vec F S2304 .f32) (w2 : Vec F S2304x128 .bf16) (b2 : Vec F S96 .f32) : Vec F S1x16x128x96 .f32 :=
  View.canon [⟨rO, blockPay q q' r r' wh wh' wt wt' b1 w2 b2⟩]

/-- The one store covers the buffer. -/
theorem block_cover (p0 : Vec F S1x16x128x96 .f32) (y : S1x16x128x96.Idx) :
    ∃ pc ∈ ([⟨rO, p0⟩] : List (View.Piece (Elt F) S1x16x128x96 .f32)), y ∈ pc.1.set :=
  View.cover_of_tiled [⟨rO, p0⟩] S1x16x128x96.size (by rfl) y

/-! ## The body's triple -/

set_option maxHeartbeats 1000000 in
/-- The body on whole staging buffers, the eleven inputs at the contents read and the block of scores at anything, runs
    to its continuation with the inputs as they were and the block at `blockOut` of the inputs. -/
theorem sound_kernel (c : Dev nD) (E : Set ℕ) (i : grid0.Coords) (a2 : Memref sig .tc .vmem S1x16x768 .bf16) (ha2 : a2.IsWhole) (a3 : Memref sig .tc .vmem S1x16x768 .bf16) (ha3 : a3.IsWhole) (a4 : Memref sig .tc .vmem S1x128x768 .bf16) (ha4 : a4.IsWhole) (a5 : Memref sig .tc .vmem S1x128x768 .bf16) (ha5 : a5.IsWhole) (a6 : Memref sig .tc .vmem S768x2304 .bf16) (ha6 : a6.IsWhole) (a7 : Memref sig .tc .vmem S768x2304 .bf16) (ha7 : a7.IsWhole) (a8 : Memref sig .tc .vmem S768x2304 .bf16) (ha8 : a8.IsWhole) (a9 : Memref sig .tc .vmem S768x2304 .bf16) (ha9 : a9.IsWhole) (a10 : Memref sig .tc .vmem S2304 .f32) (ha10 : a10.IsWhole) (a11 : Memref sig .tc .vmem S2304x128 .bf16) (ha11 : a11.IsWhole) (a12 : Memref sig .tc .vmem S96 .f32) (ha12 : a12.IsWhole) (a13 : Memref sig .tc .vmem S1x16x128x96 .f32) (ha13 : a13.IsWhole)
    (q q' : Vec F S1x16x768 .bf16) (r r' : Vec F S1x128x768 .bf16) (wh wh' wt wt' : Vec F S768x2304 .bf16) (b1 : Vec F S2304 .f32) (w2 : Vec F S2304x128 .bf16) (b2 : Vec F S96 .f32) (K : PUnit → sProp 𝕄) :
    iprop(owns (c : Thread nD τ) a2 fullShare q ∗ owns (c : Thread nD τ) a3 fullShare q' ∗ owns (c : Thread nD τ) a4 fullShare r ∗ owns (c : Thread nD τ) a5 fullShare r' ∗ owns (c : Thread nD τ) a6 fullShare wh ∗ owns (c : Thread nD τ) a7 fullShare wh' ∗ owns (c : Thread nD τ) a8 fullShare wt ∗ owns (c : Thread nD τ) a9 fullShare wt' ∗ owns (c : Thread nD τ) a10 fullShare b1 ∗ owns (c : Thread nD τ) a11 fullShare w2 ∗ owns (c : Thread nD τ) a12 fullShare b2 ∗ (∃ d, owns (c : Thread nD τ) a13 fullShare d)
        ∗ (iprop(owns (c : Thread nD τ) a2 fullShare q ∗ owns (c : Thread nD τ) a3 fullShare q' ∗ owns (c : Thread nD τ) a4 fullShare r ∗ owns (c : Thread nD τ) a5 fullShare r' ∗ owns (c : Thread nD τ) a6 fullShare wh ∗ owns (c : Thread nD τ) a7 fullShare wh' ∗ owns (c : Thread nD τ) a8 fullShare wt ∗ owns (c : Thread nD τ) a9 fullShare wt' ∗ owns (c : Thread nD τ) a10 fullShare b1 ∗ owns (c : Thread nD τ) a11 fullShare w2 ∗ owns (c : Thread nD τ) a12 fullShare b2 ∗ owns (c : Thread nD τ) a13 fullShare (blockOut q q' r r' wh wh' wt wt' b1 w2 b2)) -∗ K ⟨⟩))
      ⊢ wp frame (wpE (defs₀ (F := F)) Variants.none c none) E (cc0__mlp_kernel i a2 ha2 a3 ha3 a4 ha4 a5 ha5 a6 ha6 a7 ha7 a8 ha8 a9 ha9 a10 ha10 a11 ha11 a12 ha12 a13 ha13) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %fd, -, HO⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact HO
  ipureintro
  try dsimp only
  exact View.read_writes_eq_canon _ _ _ (block_cover _)

end Cert.Kernel.Launch

end
-- ==== Proof.KernelPoints.lean ====
/-
  The kernel's launch, first half: what the region finds, the proof data, and the body at every grid point.

  Before the region the host splits x and the two halves of the first layer's weights into high and low parts and pads
  the second layer's weights; the region then runs the body at the 4 × 8 grid points (batch entry, tile of sixteen
  query rows), and after it the host regroups the last axis. Two pairs of the region's twelve windows look at ONE
  array each: the sixteen query rows and all 128 rows are both cut from the high part of x (and likewise from its low
  part). Both windows of a pair only read, so each holds half of the array's ownership; that is the one place where
  this launch differs from a launch with twelve distinct arrays.

  Here: the contents the region finds (`V`), each window's block at a grid point (`iblk`), that every input window's
  staging buffer holds its block at every point whether or not it was fetched there, the proof data (`dats`: the
  inputs' buffers left as found, the block of scores left at `blockOut` of the inputs' blocks), and the body
  obligation at every point from the body's triple.
-/
import proofs.«102689_j33998961115715_2_alg».proof.Proof.KernelBody
import Idealize.ShloMosaic.Lib.Pipeline.FrameSuffix

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the twenty host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the regrouping after it: it reduces to the region
    continued by the regrouping, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block at every point, fetched there or not: where it is not fetched its
    index has not moved since the last fetch, and the body leaves inputs as it finds them. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and the block of
    scores at `blockOut` of the inputs' blocks; the scoped rest and the generator register untouched; nothing owed. The two
    windows on the high part of x hold a half of it each, and so the two on its low part; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_out (c : Dev nD) (t : Fin cfg0.N) : (dats m 0 c).after 11 t = blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d
theorem before_in9 (c : Dev nD) (t : Fin cfg0.N) (d) : (dats m 0 c).before 9 t d = iblk m c 9 t :=
  before_in9_of m (dats m 0 c) (A_eq m c 9) (after_in9 m c) t d
theorem before_in10 (c : Dev nD) (t : Fin cfg0.N) (d) : (dats m 0 c).before 10 t d = iblk m c 10 t :=
  before_in10_of m (dats m 0 c) (A_eq m c 10) (after_in10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Launch

end
-- ==== Proof.KernelRun.lean ====
/-
  The kernel's launch, second half: the run.

  The launch rule wants the region's arrays window by window, each at the share its window holds. Twelve windows look
  at ten arrays: the high part of x is behind the window of sixteen query rows and the window of all rows, and so is
  its low part. At entry each of those two arrays, held whole, is split into two halves, one per window; both windows
  only read, so at exit both halves still hold the entry contents. After the region the one remaining host operation
  regroups the block of scores' array, which the output window holds whole, into the result.
-/
import proofs.«102689_j33998961115715_2_alg».proof.Proof.KernelPoints

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The region's arrays at contents `A`: each window's array whole, at the window's share. -/
theorem arrays_pts (c : Dev nD) (A : (w : Fin cfg0.W) → Buf (Elt F) ((cfg0.win w).arr.view.loc (c.tc : Thread nD τ))) :
    (dats m 0 c).arrays A
      = bigSep Finset.univ fun w => (((c.tc : Thread nD τ).loc (Pipeline.arrRef spec0 w)) ↦{(dats m 0 c).share w} A w : sProp 𝕄) := by
  unfold Dat.arrays
  exact bigSep_congr fun w _ => by rw [(arr_whole0 w).set_eq_univ]

/-- The two windows on the high part of x hold a half each, and so the two on its low part; every other window holds
    its array whole. -/
theorem share_0 (c : Dev nD) : (dats m 0 c).share 0 = fullShare.left := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl

/-- Before any write-back an array holds what the region found. -/
theorem arrAt_zero (c : Dev nD) (w : Fin cfg0.W) : (dats m 0 c).arrAt w 0 = V m c (Pipeline.arrRef spec0 w) := rfl

/-! ## Entry: the arrays split among the windows -/

/-- The ten distinct arrays behind the twelve windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0) ∗ (((c.tc : Thread nD τ).loc main_v3) ↦{fullShare} W main_v3) ∗ (((c.tc : Thread nD τ).loc main_v5) ↦{fullShare} W main_v5) ∗ (((c.tc : Thread nD τ).loc main_v8) ↦{fullShare} W main_v8) ∗ (((c.tc : Thread nD τ).loc main_v10) ↦{fullShare} W main_v10) ∗ (((c.tc : Thread nD τ).loc main_v13) ↦{fullShare} W main_v13) ∗ (((c.tc : Thread nD τ).loc main_arg2) ↦{fullShare} W main_arg2) ∗ (((c.tc : Thread nD τ).loc main_v17) ↦{fullShare} W main_v17) ∗ (((c.tc : Thread nD τ).loc main_arg4) ↦{fullShare} W main_arg4) ∗ (((c.tc : Thread nD τ).loc main_v18) ↦{fullShare} W main_v18)) :=
  bigSep_eq_bigSepL_of_eq [main_v0, main_v3, main_v5, main_v8, main_v10, main_v13, main_arg2, main_v17, main_arg4, main_v18] (by decide) (by decide) _

/-- An array held whole is two halves of it, each at the same contents. -/
theorem halve_v0 (c : Dev nD) :
    ((((c.tc : Thread nD τ).loc main_v0) ↦{fullShare} V m c main_v0) : sProp 𝕄)
      ⊢ iprop((((c.tc : Thread nD τ).loc main_v0) ↦{fullShare.left} V m c main_v0) ∗ (((c.tc : Thread nD τ).loc main_v0) ↦{fullShare.right} V m c main_v0)) :=
  (pointsTo_share (PosShare.mem_left_op_right fullShare)).1
theorem halve_v3 (c : Dev nD) :
    ((((c.tc : Thread nD τ).loc main_v3) ↦{fullShare} V m c main_v3) : sProp 𝕄)
      ⊢ iprop((((c.tc : Thread nD τ).loc main_v3) ↦{fullShare.left} V m c main_v3) ∗ (((c.tc : Thread nD τ).loc main_v3) ↦{fullShare.right} V m c main_v3)) :=
  (pointsTo_share (PosShare.mem_left_op_right fullShare)).1

/-- The ten arrays, each whole at the full share at the contents the region finds, are the windows' arrays: the high
    part of x halved between its two windows, and so its low part. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_pts, bigSep_W0, arrBufs_eq]
  simp only [share_0, share_1, share_2, share_3, share_4, share_5, share_6, share_7, share_8, share_9, share_10, share_11, arrAt_zero]
  iintro ⟨H0, H3, H5, H8, H10, H13, Ha2, H17, Ha4, H18⟩
  ihave H0' := (halve_v0 m c) $$ H0
  icases H0' with ⟨H0l, H0r⟩
  ihave H3' := (halve_v3 m c) $$ H3
  icases H3' with ⟨H3l, H3r⟩
  isplitl [H0l]; · iexact H0l
  isplitl [H3l]; · iexact H3l
  isplitl [H0r]; · iexact H0r
  isplitl [H3r]; · iexact H3r
  isplitl [H5]; · iexact H5
  isplitl [H8]; · iexact H8
  isplitl [H10]; · iexact H10
  isplitl [H13]; · iexact H13
  isplitl [Ha2]; · iexact Ha2
  isplitl [H17]; · iexact H17
  isplitl [Ha4]; · iexact Ha4
  iexact H18

/-! ## Exit: the regrouping after the region -/

/-- The contents at the region's exit: each window's array as the write-backs leave it, every other buffer as the region
    found it. -/
abbrev exitVal (c : Dev nD) : Valuation τ sig (Elt F) :=
  Pipeline.withArrays spec0 c (V0 m c) (fun w => (dats m 0 c).arrAt w cfg0.N)

/-- The contents at the end of @main, read at a TensorCore reference. -/
abbrev endVal (c : Dev nD) (b : Ref sig .tc) : Buf (Elt F) ((c.tc : Thread nD τ).loc b) :=
  Pipeline.afterTail₀ cfgs (dats m) 0 (V0 m) [hostOps1] c b

/-- The regrouping writes only its result: a buffer that is neither the result nor a window's array ends as the region
    found it. -/
theorem end_keeps (c : Dev nD) (b : Ref sig .tc) (hb : b ≠ main_v19) (ha : ∀ w, Pipeline.arrRef spec0 w ≠ b) :
    endVal m c b = V m c b := by
  unfold endVal Pipeline.afterTail₀
  rw [StableHlo.after_of_forall_not_mem (b := Proc.devRef .tc b) _ _ ?_, Pipeline.withArrays_of_ne _ c (V0 m c) _ b ha]
  intro op hop
  simp only [hostOps1, List.flatten_cons, List.flatten_nil, List.append_nil, List.mem_cons, List.mem_nil_iff, or_false] at hop
  subst hop
  simp only [StableHlo.reshape_writes, Finset.mem_singleton]
  exact StableHlo.devRef_ne_of_ne hb

/-- Only the output window looks at the scores' array, so at exit it holds what that window's write-backs left. -/
theorem exit_scores (c : Dev nD) : exitVal m c (Proc.devRef .tc main_v18) = (dats m 0 c).arrAt 11 cfg0.N := by
  unfold exitVal Pipeline.withArrays
  have h : ∃ w', Proc.devRef .tc (Pipeline.arrRef spec0 w') = Proc.devRef (τ := τ) .tc main_v18 := ⟨11, rfl⟩
  rw [dif_pos h]
  suffices ∀ (w' : Fin 12) (e : Proc.devRef .tc (Pipeline.arrRef spec0 w') = Proc.devRef (τ := τ) .tc main_v18),
      cast (congrArg (fun b' : DevRef τ sig => b'.ty.Contents (Elt F)) e) ((dats m 0 c).arrAt w' cfg0.N) = (dats m 0 c).arrAt 11 cfg0.N from
    this _ h.choose_spec
  intro w' e
  obtain rfl : w' = 11 := (by decide : ∀ w' : Fin 12, Pipeline.arrRef spec0 w' = main_v18 → w' = 11) w' (Proc.devRef_injective _ e)
  rfl

/-- The regrouping's result buffer is no window's array: at exit it holds what the region found. -/
theorem exit_result (c : Dev nD) : exitVal m c (Proc.devRef .tc main_v19) = V m c main_v19 :=
  Pipeline.withArrays_of_ne _ c (V0 m c) _ main_v19 (by decide)

/-- The two buffers the regrouping touches. -/
abbrev tailSet : Finset (DevRef τ sig) := {Proc.devRef .tc main_v18, Proc.devRef .tc main_v19}

/-- Holding them, one by one. -/
theorem held_tail (c : Dev nD) (W : Valuation τ sig (Elt F)) :
    (StableHlo.held (c.tc : Thread nD τ) tailSet W : sProp 𝕄)
      = iprop((((c.tc : Thread nD τ).loc main_v18) ↦{fullShare} W (Proc.devRef .tc main_v18))
          ∗ (((c.tc : Thread nD τ).loc main_v19) ↦{fullShare} W (Proc.devRef .tc main_v19))) := by
  unfold StableHlo.held tailSet
  rw [bigSep_insert (by simp only [Finset.mem_singleton]; exact StableHlo.devRef_ne_of_ne (by decide)), bigSep_singleton]
  rfl

/-- The regrouping touches only those two buffers and allocates nothing. -/
theorem tail_sub : ∀ ops ∈ ([hostOps1] : List (List (HloOp τ sig (Elt F)))), ∀ op ∈ ops, op.bufs ⊆ (tailSet : Finset (DevRef τ sig)) := by
  intro ops hops op hop
  simp only [List.mem_cons, List.mem_nil_iff, or_false] at hops
  subst hops
  simp only [hostOps1, List.mem_cons, List.mem_nil_iff, or_false] at hop
  subst hop
  exact fun b hb => hb
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The scores' array as the write-backs left it and the result buffer as the region found it are the two buffers held
    at the exit contents, -/
theorem held_tail_intro (c : Dev nD) :
    iprop((((c.tc : Thread nD τ).loc main_v18) ↦{fullShare} (dats m 0 c).arrAt 11 cfg0.N)
        ∗ (((c.tc : Thread nD τ).loc main_v19) ↦{fullShare} V m c main_v19))
      ⊢ (StableHlo.held (c.tc : Thread nD τ) tailSet (exitVal m c) : sProp 𝕄) := by
  rw [held_tail, exit_scores, exit_result]

/-- and after the regrouping the scores' array is unchanged and the result buffer holds the end contents. -/
theorem held_tail_elim (c : Dev nD) :
    (StableHlo.held (c.tc : Thread nD τ) tailSet (StableHlo.after (List.flatten [hostOps1]) (exitVal m c)) : sProp 𝕄)
      ⊢ iprop((((c.tc : Thread nD τ).loc main_v18) ↦{fullShare} (dats m 0 c).arrAt 11 cfg0.N)
          ∗ (((c.tc : Thread nD τ).loc main_v19) ↦{fullShare} endVal m c main_v19)) := by
  rw [held_tail, StableHlo.after_of_forall_not_mem (b := Proc.devRef .tc main_v18) _ _ ?_, exit_scores]
  · exact .rfl
  · intro op hop
    simp only [hostOps1, List.flatten_cons, List.flatten_nil, List.append_nil, List.mem_cons, List.mem_nil_iff, or_false] at hop
    subst hop
    simp only [StableHlo.reshape_writes, Finset.mem_singleton]
    exact StableHlo.devRef_ne_of_ne (by decide)

/-- Of the seventeen unscoped buffers that are no window's array, the regrouping changes only its result. -/
theorem end_main_arg0 (c : Dev nD) : endVal m c main_arg0 = V m c main_arg0 := end_keeps m c main_arg0 (by decide) (by decide)
theorem end_main_arg1 (c : Dev nD) : endVal m c main_arg1 = V m c main_arg1 := end_keeps m c main_arg1 (by decide) (by decide)
theorem end_main_arg3 (c : Dev nD) : endVal m c main_arg3 = V m c main_arg3 := end_keeps m c main_arg3 (by decide) (by decide)
theorem end_main_v1 (c : Dev nD) : endVal m c main_v1 = V m c main_v1 := end_keeps m c main_v1 (by decide) (by decide)
theorem end_main_v2 (c : Dev nD) : endVal m c main_v2 = V m c main_v2 := end_keeps m c main_v2 (by decide) (by decide)
theorem end_main_v4 (c : Dev nD) : endVal m c main_v4 = V m c main_v4 := end_keeps m c main_v4 (by decide) (by decide)
theorem end_main_v6 (c : Dev nD) : endVal m c main_v6 = V m c main_v6 := end_keeps m c main_v6 (by decide) (by decide)
theorem end_main_v7 (c : Dev nD) : endVal m c main_v7 = V m c main_v7 := end_keeps m c main_v7 (by decide) (by decide)
theorem end_main_v9 (c : Dev nD) : endVal m c main_v9 = V m c main_v9 := end_keeps m c main_v9 (by decide) (by decide)
theorem end_main_v11 (c : Dev nD) : endVal m c main_v11 = V m c main_v11 := end_keeps m c main_v11 (by decide) (by decide)
theorem end_main_v12 (c : Dev nD) : endVal m c main_v12 = V m c main_v12 := end_keeps m c main_v12 (by decide) (by decide)
theorem end_main_v14 (c : Dev nD) : endVal m c main_v14 = V m c main_v14 := end_keeps m c main_v14 (by decide) (by decide)
theorem end_main_cst (c : Dev nD) : endVal m c main_cst = V m c main_cst := end_keeps m c main_cst (by decide) (by decide)
theorem end_main_v15 (c : Dev nD) : endVal m c main_v15 = V m c main_v15 := end_keeps m c main_v15 (by decide) (by decide)
theorem end_main_c (c : Dev nD) : endVal m c main_c = V m c main_c := end_keeps m c main_c (by decide) (by decide)
theorem end_main_v16 (c : Dev nD) : endVal m c main_v16 = V m c main_v16 := end_keeps m c main_v16 (by decide) (by decide)

/-- Those seventeen buffers at the end contents, one by one: sixteen as the region found them, and the result. -/
theorem rest_end (c : Dev nD) :
    (Pipeline.unscopedRest (Ix := Unit) (Name := ℕ) (U := UR sig nD τ) (Lvl := ℕ) spec0 c (endVal m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg3) ↦{fullShare} V m c main_arg3) ∗ (((c.tc : Thread nD τ).loc main_v1) ↦{fullShare} V m c main_v1) ∗ (((c.tc : Thread nD τ).loc main_v2) ↦{fullShare} V m c main_v2) ∗ (((c.tc : Thread nD τ).loc main_v4) ↦{fullShare} V m c main_v4) ∗ (((c.tc : Thread nD τ).loc main_v6) ↦{fullShare} V m c main_v6) ∗ (((c.tc : Thread nD τ).loc main_v7) ↦{fullShare} V m c main_v7) ∗ (((c.tc : Thread nD τ).loc main_v9) ↦{fullShare} V m c main_v9) ∗ (((c.tc : Thread nD τ).loc main_v11) ↦{fullShare} V m c main_v11) ∗ (((c.tc : Thread nD τ).loc main_v12) ↦{fullShare} V m c main_v12) ∗ (((c.tc : Thread nD τ).loc main_v14) ↦{fullShare} V m c main_v14) ∗ (((c.tc : Thread nD τ).loc main_cst) ↦{fullShare} V m c main_cst) ∗ (((c.tc : Thread nD τ).loc main_v15) ↦{fullShare} V m c main_v15) ∗ (((c.tc : Thread nD τ).loc main_c) ↦{fullShare} V m c main_c) ∗ (((c.tc : Thread nD τ).loc main_v16) ↦{fullShare} V m c main_v16) ∗ (((c.tc : Thread nD τ).loc main_v19) ↦{fullShare} endVal m c main_v19)) := by
  rw [unscopedRest0_eq]
  simp only [end_main_arg0, end_main_arg1, end_main_arg3, end_main_v1, end_main_v2, end_main_v4, end_main_v6, end_main_v7, end_main_v9, end_main_v11, end_main_v12, end_main_v14, end_main_cst, end_main_v15, end_main_c, end_main_v16]

set_option maxHeartbeats 1000000 in
/-- After the region: holding the region boundary, the windows' arrays as the write-backs left them and every other
    unscoped buffer as the region found it, the regrouping runs and hands back the same arrays and the other buffers at
    the end contents. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (endVal m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain [StableHlo.seq hostOps1]) Q' := by
  rw [arrays_pts, bigSep_W0, rest_end, unscopedRest0_eq]
  simp only [share_0, share_1, share_2, share_3, share_4, share_5, share_6, share_7, share_8, share_9, share_10, share_11]
  show _ ⊢ wp frame _ Set.univ (Pipeline.chain (([hostOps1] : List (List (HloOp τ sig (Elt F)))).map StableHlo.seq ++ [])) Q'
  iintro ⟨Hk, Hb, ⟨A0, A1, A2, A3, A4, A5, A6, A7, A8, A9, A10, A11⟩, ⟨R0, R1, R2, R3, R4, R5, R6, R7, R8, R9, R10, R11, R12, R13, R14, R15, R16⟩⟩
  ihave Hh := (held_tail_intro m c) $$ [A11 R16]
  · isplitl [A11]; · iexact A11
    iexact R16
  iapply (Pipeline.wp_seqs_then (fun q => (cfgs q).toPCfg (Val := Elt F)) defs₀ Variants.none c tailSet [] [hostOps1] tail_sub tail_fresh (exitVal m c)) $$ [Hb Hh]
  · isplitl [Hb]; · iexact Hb
    iexact Hh
  iintro Hb
  rw [Pipeline.chain_nil, wp_pure]
  imodintro
  iapply Hk
  icases Hb with ⟨-, Hh⟩
  ihave Hh' := (held_tail_elim m c) $$ Hh
  icases Hh' with ⟨A11, R16⟩
  isplitl [A0 A1 A2 A3 A4 A5 A6 A7 A8 A9 A10 A11]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact R16

/-! ## The run -/

-- the launch theorem's implicit arguments are found by unifying its conclusion with this one, which takes unfolding
-- plain definitions in a metavariable's type
set_option backward.isDefEq.respectTransparency.types false in
set_option maxHeartbeats 1000000 in
/-- From any memory with zero counters every weakly fair execution of @main terminates without a fault, and in every
    final state each window's array holds what its write-backs left and every other unscoped buffer holds the end
    contents: the launch rule for a region whose windows may share arrays, with the entry split above and the regrouping
    after the region run by hand. -/
theorem run_main : θ_run defs (onTc (τ := τ) (main (F := F))) (s₀ m ρ) (Pipeline.FramePost cfgs (dats m) 0 (endVal m)) :=
  Pipeline.θ_run_region_pf_tail (pcfgs (F := F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (endVal m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ Pipeline.restRefs sig spec0, s.mem ((c.tc : Thread nD τ).loc b) = endVal m c b)
    (hY := fun c s' => by
      iintro ⟨-, HU, HSI⟩
      unfold Pipeline.unscopedRest
      imodintro
      iapply (pointsTo_read_all (Pipeline.restRefs sig spec0) (fun b => (c.tc : Thread nD τ).loc b) (endVal m c) s')
      isplitl [HU] <;> iassumption)
    (hQ := fun s h c => ⟨(h c).1, (h c).2.2⟩)

end Cert.Kernel.Launch

end
-- ==== Proof.KernelFrame.lean ====
/-
  The kernel's launch, read: the arguments end as launched, and the result buffer ends at the regrouped scores.

  Of the five arguments, the first layer's bias and the second layer's bias are read by the region directly, each
  through an input window, and an input window's array is never written back; the other three (x, the first layer's
  weights, the second layer's weights) are read only by host operations before the region, so they are among the buffers
  the region does not touch, and the regrouping after the region writes only its result. Before the region no host
  operation writes an argument either: each writes one buffer of its own. So every argument ends as launched.

  The result buffer is written once, by the regrouping after the region, from the array of scores as the region's
  write-backs left it.
-/
import proofs.«102689_j33998961115715_2_alg».proof.Proof.KernelRun

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments as the region finds them -/

/-- No host operation before the region writes an argument: the region finds each as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)))

/-! ## The arguments at the end -/

/-- In any final state of the launch's post every argument is as launched: the two biases are input windows' arrays,
    never written back; the other three are buffers the region leaves alone and the regrouping does not write. -/
theorem args_kept (r : PUnit × MemSt nD τ sig (Elt F)) (h : Pipeline.FramePost cfgs (dats m) 0 (endVal m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans ((end_main_arg0 m c).trans (V_arg0 m c)),
    ((h c).2 main_arg1 (Pipeline.mem_restRefs_of main_arg1 (by decide) (by decide))).trans ((end_main_arg1 m c).trans (V_arg1 m c)),
    ((h c).1 8).trans (((dats m 0 c).arrAt_in 8 rfl _).trans ((A_eq m c 8).trans (V_arg2 m c))),
    ((h c).2 main_arg3 (Pipeline.mem_restRefs_of main_arg3 (by decide) (by decide))).trans ((end_main_arg3 m c).trans (V_arg3 m c)),
    ((h c).1 10).trans (((dats m 0 c).arrAt_in 10 rfl _).trans ((A_eq m c 10).trans (V_arg4 m c)))⟩

/-- THE FRAME: from any memory with zero counters the launch runs to the end without a fault and every argument ends as
    launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

/-! ## The result -/

/-- The result buffer at the end is the regrouping of the array of scores as the region's write-backs left it. -/
theorem end_result (c : Dev nD) :
    endVal m c main_v19
      = fun i => shapeCast S4x128x128x24x4 ((dats m 0 c).arrAt 11 cfg0.N) shapeCasts_S4x128x128x96_S4x128x128x24x4 i := by
  unfold endVal Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18)
      = (dats m 0 c).arrAt 11 cfg0.N := exit_scores m c
  rw [e]
  rfl

/-- The run, read for the value: the result buffer ends at the end contents, and every argument ends as launched. -/
theorem result_main : θ_run defs (onTc (τ := τ) (main (F := F))) ⟨m, fun _ => 0, ρ⟩ (fun r => ∀ c : Dev nD,
      r.2.mem ((c.tc : Thread nD τ).loc main_v19) = endVal m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).2 main_v19 (Pipeline.mem_restRefs_of main_v19 (by decide) (by decide)), args_kept m r h c⟩)
    (run_main m ρ)

end Cert.Kernel.Launch

end
-- ==== Proof.Claims.lean ====
/-
  The certificate's five claims, assembled.

  Three of them say that a program runs and leaves its five arguments as it found them: the program as printed, the
  same program read on the extended reals, and the reference read on the extended reals. The fourth says that
  reading the program on the extended reals rewrote no operation, and there is nothing to show. The fifth says
  that, on the extended reals and from memories that agree on the five arguments, the program and the reference
  end with the same array: both end at the array of pairwise scores

      score b i j o = (∑ k, max ((head b i k + tail b j k) + b₁ k) 0 * W₂ k o) + b₂ o,

  its 96 columns regrouped into 24 × 4. For the reference that is its composed term read stage by stage. For the
  program it needs every entry of x and of the first layer's weights to be a real number, which the precondition
  gives: the program adds to each product of two numbers three products with a low part a - a, and those vanish
  only when a is finite.
-/
import proofs.«102689_j33998961115715_2_alg».proof.Defs
import proofs.«102689_j33998961115715_2_alg».proof.Proof.Gen.Kernel
import proofs.«102689_j33998961115715_2_alg».proof.Proof.Gen.KernelIdeal
import proofs.«102689_j33998961115715_2_alg».proof.Proof.Gen.ReferenceIdeal
import proofs.«102689_j33998961115715_2_alg».proof.Proof.Gen.Pre_finite_inputs
import proofs.«102689_j33998961115715_2_alg».proof.Proof.Gen.ReferenceIdeal.Run
import proofs.«102689_j33998961115715_2_alg».proof.Proof.Gen.ReferenceIdeal.Read
import proofs.«102689_j33998961115715_2_alg».proof.Proof.RefIsScore
import proofs.«102689_j33998961115715_2_alg».proof.Proof.FiniteInputs
import proofs.«102689_j33998961115715_2_alg».proof.Proof.KernelIdealFrame
import proofs.«102689_j33998961115715_2_alg».proof.Proof.KernelIdealValue
import proofs.«102689_j33998961115715_2_alg».proof.Proof.KernelFrame

noncomputable section

namespace Cert.Proof.PairClaims

open Idealize.ShloMosaic Idealize.ShloMosaic.TcCoe Idealize.SL.Sem

/-! ## The three runs that leave the arguments alone, and the idealization -/

/-- The program as printed runs and leaves its arguments alone. -/
theorem frame_k : Cert.frame_Kernel := fun m ρ _ => Cert.Kernel.Launch.frame_main m ρ
/-- The program read on the extended reals runs and leaves its arguments alone. -/
theorem frame_ki : Cert.frame_KernelIdeal := fun m ρ _ => Cert.KernelIdeal.Launch.frame_main m ρ

/-- The reference runs and leaves its arguments alone: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the program on the extended reals rewrote no operation. -/
theorem preserves : Cert.preserves_Kernel_KernelIdeal := trivial

/-! ## The reference ends at the regrouped scores -/

/-- The reference's run, its result read as the array of scores of its own five arguments, regrouped. -/
theorem ref_side (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ fun r => ∀ c : Dev Cert.ReferenceIdeal.nD,
        r.2.mem ((c.tc : Thread Cert.ReferenceIdeal.nD Cert.ReferenceIdeal.τ).loc Cert.ReferenceIdeal.main_v17)
          = shapeCast Cert.ReferenceIdeal.S4x128x128x24x4
              (Cert.PairScore.score
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4)))
              Cert.ReferenceIdeal.Facts₀.shapeCasts_S4x128x128x96_S4x128x128x24x4
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) :=
  (θ_run Cert.ReferenceIdeal.defs _ _).mono
    (fun _ h c => ⟨(h c).1.trans ((Cert.ReferenceIdeal.Read.val_main_v17_eq (F := Ideal) _ _ _ _ _).trans
        (Cert.PairScore.Reference.ref_result_eq _ _ _ _ _)), (h c).2⟩)
    (Cert.ReferenceIdeal.Value.run (F := Ideal) m' ρ')

/-! ## Equal results -/

/-- The fifth claim from two facts about the program on the extended reals: it runs to some array `E m c` with
    its arguments unchanged, and `E m c` is the regrouped array of scores of the arguments whenever every entry of x
    and of the first layer's weights is a real number. -/
theorem algebraic_of
    (E : (m : (ℓ : Loc Cert.KernelIdeal.nD Cert.KernelIdeal.τ Cert.KernelIdeal.sig) → Buf (Elt Ideal) ℓ) → (c : Dev Cert.KernelIdeal.nD) →
      Buf (Elt Ideal) ((c.tc : Thread Cert.KernelIdeal.nD Cert.KernelIdeal.τ).loc Cert.KernelIdeal.main_v19))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v19) = E m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)))
    (hval : ∀ (m : (ℓ : Loc Cert.KernelIdeal.nD Cert.KernelIdeal.τ Cert.KernelIdeal.sig) → Buf (Elt Ideal) ℓ) (c : Dev Cert.KernelIdeal.nD),
      Cert.PairScore.AllReal (m ((c.tc : Thread Cert.KernelIdeal.nD Cert.KernelIdeal.τ).loc Cert.KernelIdeal.main_arg0)) →
      Cert.PairScore.AllReal (m ((c.tc : Thread Cert.KernelIdeal.nD Cert.KernelIdeal.τ).loc Cert.KernelIdeal.main_arg1)) →
      E m c = shapeCast Cert.KernelIdeal.S4x128x128x24x4
          (Cert.PairScore.score
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
          Cert.KernelIdeal.Facts₀.shapeCasts_S4x128x128x96_S4x128x128x24x4) :
    Cert.algebraic_KernelIdeal_ReferenceIdeal := by
  intro m ρ m' ρ' hpre hagree
  refine ⟨fun c => E m c, hrun m ρ, ?_⟩
  refine (θ_run Cert.ReferenceIdeal.defs _ _).mono (fun _ h c => ⟨(h c).1.trans ?_, (h c).2⟩) (ref_side m' ρ')
  obtain ⟨hx, hW⟩ := Cert.FiniteInputs.allReal_of_pre _ _ _ _ _ (hpre c)
  rw [(hagree c).1, (hagree c).2.1, (hagree c).2.2.1, (hagree c).2.2.2.1, (hagree c).2.2.2.2]
  exact (hval m c hx hW).symm

section
open Cert.KernelIdeal Cert.KernelIdeal.Gen Cert.KernelIdeal.Launch

/-- The fifth claim from ONE fact about the program on the extended reals: after the last grid point the array of
    scores holds `score` of the five arguments, whenever every entry of x and of the first layer's weights is a real
    number. The program's run ends at that array regrouped. -/
theorem algebraic_of_scores
    (hs : ∀ (m : (ℓ : Loc nD τ sig) → Buf (Elt Ideal) ℓ) (c : Dev nD),
      Cert.PairScore.AllReal (m ((c.tc : Thread nD τ).loc main_arg0)) →
      Cert.PairScore.AllReal (m ((c.tc : Thread nD τ).loc main_arg1)) →
      (dats (F := Ideal) m 0 c).arrAt 11 cfg0.N
        = Cert.PairScore.score (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))) :
    Cert.algebraic_KernelIdeal_ReferenceIdeal :=
  algebraic_of (fun m c => endVal (F := Ideal) m c main_v19) (fun m ρ => result_main (F := Ideal) m ρ)
    (fun m c hx hW => (end_result (F := Ideal) m c).trans
      (congrArg (fun A => shapeCast S4x128x128x24x4 A Facts₀.shapeCasts_S4x128x128x96_S4x128x128x24x4) (hs m c hx hW)))

end

/-- The program and the reference end with the same array: the regrouped scores of the arguments they share. -/
theorem algebraic : Cert.algebraic_KernelIdeal_ReferenceIdeal :=
  algebraic_of_scores (fun m c hx hW => Cert.KernelIdeal.Score.scores_value m c hx hW)

/-- The five claims together. -/
theorem claims : Cert.frame_Kernel ∧ Cert.frame_KernelIdeal ∧ Cert.frame_ReferenceIdeal ∧ Cert.preserves_Kernel_KernelIdeal
    ∧ Cert.algebraic_KernelIdeal_ReferenceIdeal := ⟨frame_k, frame_ki, frame_ri, preserves, algebraic⟩

/-- The certificate's claim, with the witnesses of the programs' stated facts the generated modules prove. -/
theorem claim_assembled : Cert.Claim :=
  ⟨Cert.Kernel.Gen.facts, Cert.KernelIdeal.Gen.facts, Cert.ReferenceIdeal.Gen.facts, Cert.Pre_finite_inputs.Gen.facts, claims⟩

end Cert.Proof.PairClaims

end
-- ==== Proof.lean ====
/-
  A pairwise head/tail scorer: a tiled two-layer perceptron on the TensorCore against its plain array form.

  For each batch entry b and each pair of rows (i, j) of x, the program scores the concatenation of rows i and j:
  a first layer (1536 → 2304, rectified) and a second layer (2304 → 96), regrouped at the end into 24 × 4. Applied to
  a concatenation, the first layer is the sum of the top half of its weights applied to row i (the head) and the
  bottom half applied to row j (the tail).

  The kernel computes the same numbers tile by tile — sixteen query rows of one batch entry at a grid point — with
  three differences, none of which changes an extended real:
  * it splits x and both halves of the first layer's weights into a high part (the number rounded to a shorter format)
    and a low part (what the rounding lost), and adds up high · high, high · low and low · high. Read exactly, a change
    of format is the identity, so the high part is the number and the low part is a − a: zero for a finite a, which is
    where the precondition (every input finite) is used, and the two correction products are sums of zeros;
  * it adds the first bias to the head before adding the tail: a reassociation of a sum;
  * it pads the second layer's weights with 32 zero columns, multiplies, and keeps the first 96 columns.

  The proof, module by module: Spec states the scores as one function of the five arrays; RefIsScore shows the plain
  program computes it; the Body / Points / Run / Frame modules run the kernel — two of the region's windows look at
  the high part of x and two at its low part, so each of those arrays is halved between its windows at entry — for
  the bit-level program and for its exact reading alike; Entry, Blocks, BlockValue, Cover and Value read what the
  kernel's region leaves, block by block, as the same function; FiniteInputs decodes the precondition; Claims puts
  the five claims together.
-/
import proofs.«102689_j33998961115715_2_alg».proof.Defs
import proofs.«102689_j33998961115715_2_alg».proof.Proof.Gen.Kernel
import proofs.«102689_j33998961115715_2_alg».proof.Proof.Gen.Kernel.Skeleton
import proofs.«102689_j33998961115715_2_alg».proof.Proof.Gen.Kernel.Launch
import proofs.«102689_j33998961115715_2_alg».proof.Proof.Gen.Kernel.Points
import proofs.«102689_j33998961115715_2_alg».proof.Proof.Gen.KernelIdeal
import proofs.«102689_j33998961115715_2_alg».proof.Proof.Gen.KernelIdeal.Skeleton
import proofs.«102689_j33998961115715_2_alg».proof.Proof.Gen.KernelIdeal.Launch
import proofs.«102689_j33998961115715_2_alg».proof.Proof.Gen.KernelIdeal.Points
import proofs.«102689_j33998961115715_2_alg».proof.Proof.Gen.ReferenceIdeal
import proofs.«102689_j33998961115715_2_alg».proof.Proof.Gen.Pre_finite_inputs
import proofs.«102689_j33998961115715_2_alg».proof.Proof.Gen.ReferenceIdeal.Run
import proofs.«102689_j33998961115715_2_alg».proof.Proof.Gen.ReferenceIdeal.Read
import proofs.«102689_j33998961115715_2_alg».proof.Proof.Claims
import Idealize.ShloMosaic.Adequacy
import Idealize.ShloMosaic.Init

noncomputable section

namespace Cert.Proof

open Idealize.ShloMosaic Idealize.SL.Sem Cert.Kernel

/-- The five claims, under the witnesses of the three programs' and the precondition's stated side conditions. -/
theorem claim : Cert.Claim := ⟨Cert.Kernel.Gen.facts, Cert.KernelIdeal.Gen.facts, Cert.ReferenceIdeal.Gen.facts, Cert.Pre_finite_inputs.Gen.facts,
  Cert.Proof.PairClaims.claims⟩

end Cert.Proof

end
